-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v36_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_0) = v0 c
          ∧ r.2.mem ((c.tc : Thread Cert.KernelIdeal.nD Cert.KernelIdeal.τ).loc Cert.KernelIdeal.main_v36_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S800000 : Shape := ⟨1, ![800000]⟩
abbrev S64x64 : Shape := ⟨2, ![64, 64]⟩
abbrev S64 : Shape := ⟨1, ![64]⟩
abbrev S128x64 : Shape := ⟨2, ![128, 64]⟩
abbrev S2x800000 : Shape := ⟨2, ![2, 800000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_

variable [Facts]

def fn_part4 {F : FTy → Type} [FloatOps F] (main_arg14 : FVec F S64 .f32) (main_arg15 : FVec F S64x64 .f32) (main_arg16 : FVec F S64 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg15
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  main_v83

def fn_part3 {F : FTy → Type} [FloatOps F] (main_arg11 : FVec F S128x64 .f32) (main_arg12 : FVec F S64 .f32) (main_arg13 : FVec F S128x64 .f32) (main_arg14 : FVec F S64 .f32) (main_arg15 : FVec F S64x64 .f32) (main_arg16 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S128x64 .f32 := Host.absf main_arg11
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S128x64 .f32 := Host.absf main_arg13
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg14 main_arg15 main_arg16 main_v63 main_v67

def fn_part2 {F : FTy → Type} [FloatOps F] (main_arg7 : FVec F S64x64 .f32) (main_arg8 : FVec F S64 .f32) (main_arg9 : FVec F S128x64 .f32) (main_arg10 : FVec F S64 .f32) (main_arg11 : FVec F S128x64 .f32) (main_arg12 : FVec F S64 .f32) (main_arg13 : FVec F S128x64 .f32) (main_arg14 : FVec F S64 .f32) (main_arg15 : FVec F S64x64 .f32) (main_arg16 : FVec F S64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg9
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_v48 main_v49 main_v50

def fn_part1 {F : FTy → Type} [FloatOps F] (main_arg4 : FVec F S64 .f32) (main_arg5 : FVec F S64x64 .f32) (main_arg6 : FVec F S64 .f32) (main_arg7 : FVec F S64x64 .f32) (main_arg8 : FVec F S64 .f32) (main_arg9 : FVec F S128x64 .f32) (main_arg10 : FVec F S64 .f32) (main_arg11 : FVec F S128x64 .f32) (main_arg12 : FVec F S64 .f32) (main_arg13 : FVec F S128x64 .f32) (main_arg14 : FVec F S64 .f32) (main_arg15 : FVec F S64x64 .f32) (main_arg16 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S100000x64 .f32) (main_arg1 : FVec F S800000 .f32) (main_arg2 : FVec F S100000x64 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S128x64 .f32) (main_arg10 : FVec F S64 .f32) (main_arg11 : FVec F S128x64 .f32) (main_arg12 : FVec F S64 .f32) (main_arg13 : FVec F S128x64 .f32) (main_arg14 : FVec F S64 .f32) (main_arg15 : FVec F S64x64 .f32) (main_arg16 : FVec F S64 .f32) (main_arg17 : IVec S2x800000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S100000x64 .f32 := Host.absf main_arg2
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S100000x64 : Shape := ⟨2, ![100000, 64]⟩
abbrev S800000 : Shape := ⟨1, ![800000]⟩
abbrev S64x64 : Shape := ⟨2, ![64, 64]⟩
abbrev S64 : Shape := ⟨1, ![64]⟩
abbrev S128x64 : Shape := ⟨2, ![128, 64]⟩
abbrev S2x800000 : Shape := ⟨2, ![2, 800000]⟩
abbrev S64x192 : Shape := ⟨2, ![64, 192]⟩
abbrev S100000x192 : Shape := ⟨2, ![100000, 192]⟩
abbrev S10000x64 : Shape := ⟨2, ![10000, 64]⟩
abbrev S10000x192 : Shape := ⟨2, ![10000, 192]⟩
abbrev S1x800000 : Shape := ⟨2, ![1, 800000]⟩
abbrev S_ : Shape := ⟨0, ![]⟩
abbrev S800000x1 : Shape := ⟨2, ![800000, 1]⟩
abbrev S800000x192 : Shape := ⟨2, ![800000, 192]⟩
abbrev S192 : Shape := ⟨1, ![192]⟩
abbrev S1x192 : Shape := ⟨2, ![1, 192]⟩
abbrev S1x64 : Shape := ⟨2, ![1, 64]⟩
abbrev S2000x64 : Shape := ⟨2, ![2000, 64]⟩

abbrev nBuf : Space → Nat
  | .hbm => 59
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S800000, .f32⟩
  | .hbm, ⟨2, _⟩ => ⟨S100000x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S128x64, .f32⟩
  | .hbm, ⟨10, _⟩ => ⟨S64, .f32⟩
  | .hbm, ⟨11, _⟩ => ⟨S128x64, .f32⟩
  | .hbm, ⟨12, _⟩ => ⟨S64, .f32⟩
  | .hbm, ⟨13, _⟩ => ⟨S128x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S2x800000, .i32⟩
  | .hbm, ⟨18, _⟩ => ⟨S64x192, .f32⟩
  | .hbm, ⟨19, _⟩ => ⟨S100000x192, .f32⟩
  | .hbm, ⟨20, _⟩ => ⟨S1x800000, .i32⟩
  | .hbm, ⟨21, _⟩ => ⟨S800000, .i32⟩
  | .hbm, ⟨22, _⟩ => ⟨S1x800000, .i32⟩
  | .hbm, ⟨23, _⟩ => ⟨S800000, .i32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x192, .f32⟩
  | .hbm, ⟨33, _⟩ => ⟨S800000x1, .f32⟩
  | .hbm, ⟨34, _⟩ => ⟨S800000x192, .f32⟩
  | .hbm, ⟨35, _⟩ => ⟨S800000x192, .f32⟩
  | .hbm, ⟨36, _⟩ => ⟨S_, .f32⟩
  | .hbm, ⟨37, _⟩ => ⟨S100000x192, .f32⟩
  | .hbm, ⟨38, _⟩ => ⟨S800000x1, .i32⟩
  | .hbm, ⟨39, _⟩ => ⟨S100000x192, .f32⟩
  | .hbm, ⟨40, _⟩ => ⟨S192, .f32⟩
  | .hbm, ⟨41, _⟩ => ⟨S1x192, .f32⟩
  | .hbm, ⟨42, _⟩ => ⟨S100000x192, .f32⟩
  | .hbm, ⟨43, _⟩ => ⟨S100000x192, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S64x64, .f32⟩
  | .hbm, ⟨48, _⟩ => ⟨S64x64, .f32⟩
  | .hbm, ⟨49, _⟩ => ⟨S64x64, .f32⟩
  | .hbm, ⟨50, _⟩ => ⟨S64x64, .f32⟩
  | .hbm, ⟨51, _⟩ => ⟨S64x64, .f32⟩
  | .hbm, ⟨52, _⟩ => ⟨S64x64, .f32⟩
  | .hbm, ⟨53, _⟩ => ⟨S1x64, .f32⟩
  | .hbm, ⟨54, _⟩ => ⟨S1x64, .f32⟩
  | .hbm, ⟨55, _⟩ => ⟨S1x64, .f32⟩
  | .hbm, ⟨56, _⟩ => ⟨S1x64, .f32⟩
  | .hbm, ⟨57, _⟩ => ⟨S100000x64, .f32⟩
  | .hbm, ⟨58, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x192, .f32⟩
  | .local _ .vmem, ⟨3, _⟩ => ⟨S10000x192, .f32⟩
  | .local _ .vmem, ⟨4, _⟩ => ⟨S10000x192, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S64x64, .f32⟩
  | .local _ .vmem, ⟨21, _⟩ => ⟨S1x64, .f32⟩
  | .local _ .vmem, ⟨22, _⟩ => ⟨S64x64, .f32⟩
  | .local _ .vmem, ⟨23, _⟩ => ⟨S1x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_c : Ref sig .tc := ⟨.hbm, 24, rfl⟩
abbrev main_v6 : Ref sig .tc := ⟨.hbm, 25, rfl⟩
abbrev main_v7 : Ref sig .tc := ⟨.hbm, 26, rfl⟩
abbrev main_c_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36_0 : Ref sig .tc := ⟨.hbm, 57, rfl⟩
abbrev main_v36_1 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg12_0 : Ref sig .tc := ⟨.vmem, 21, rfl⟩
abbrev cc1_stg13_0 : Ref sig .tc := ⟨.vmem, 22, rfl⟩
abbrev cc1_stg14_0 : Ref sig .tc := ⟨.vmem, 23, rfl⟩
abbrev cc1_stg15_0 : Ref sig .tc := ⟨.vmem, 24, rfl⟩
abbrev cc1_stg15_1 : Ref sig .tc := ⟨.vmem, 25, rfl⟩
abbrev cc1_stg16_0 : Ref sig .tc := ⟨.vmem, 26, rfl⟩
abbrev cc1_stg16_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem12_0 : DmaSem sig := 21
abbrev cc1_sem13_0 : DmaSem sig := 22
abbrev cc1_sem14_0 : DmaSem sig := 23
abbrev cc1_sem15_0 : DmaSem sig := 24
abbrev cc1_sem15_1 : DmaSem sig := 25
abbrev cc1_sem16_0 : DmaSem sig := 26
abbrev cc1_sem16_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S64x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x64 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S2000x64 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S2000x64 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

class Facts₀ : Prop where
  concatenates_S64x64_S64x64_S64x64_S64x192_d1 : Shape.Concatenates [S64x64, S64x64, S64x64] S64x192 1
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S10000x192_S10000x192_0_0 : ∀ a, (![0, 0] : Fin 2 → Nat) a + S10000x192.size a ≤ S10000x192.size a
  h_S10000x192 : 0 < S10000x192.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x192_0_1 : S800000x1.BroadcastsInDim S800000x192 (![0, 1] : Fin 2 → Fin S800000x192.rank)
  bcast_S_S100000x192 : S_.BroadcastsInDim S100000x192 (![] : Fin 0 → Fin S100000x192.rank)
  concatenates_S64_S64_S64_S192_d0 : Shape.Concatenates [S64, S64, S64] S192 0
  bcast_S192_S1x192_1 : S192.BroadcastsInDim S1x192 (![1] : Fin 1 → Fin S1x192.rank)
  bcast_S1x192_S100000x192_0_1 : S1x192.BroadcastsInDim S100000x192 (![0, 1] : Fin 2 → Fin S100000x192.rank)
  slices_S100000x192_S100000x64_0_0 : S100000x192.Slices ![0, 0] S100000x64
  slices_S100000x192_S100000x64_0_64 : S100000x192.Slices ![0, 64] S100000x64
  slices_S100000x192_S100000x64_0_128 : S100000x192.Slices ![0, 128] S100000x64
  slices_S128x64_S64x64_0_0 : S128x64.Slices ![0, 0] S64x64
  slices_S128x64_S64x64_64_0 : S128x64.Slices ![64, 0] S64x64
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  dot_S10000x64_S64x192_S10000x192_1_0_0_1_n_n_wf : DotDims.WF S10000x64 S64x192 S10000x192 [1] [0] [0] [1] [] []
  gather_S100000x192_S800000x1_S800000x192_1_0_n_n_0_1_1192_wf : GatherDims.WF S100000x192 S800000x1 S800000x192 [1] [0] [] [0] [] 1 ![1, 192]
  scatter_S100000x192_S800000x1_S800000x192_1_0_0_1_wf : ScatterDims.WF S100000x192 S800000x1 S800000x192 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x192.size a ≤ S64x192.size a
  hwx0_1 : ∀ i : grid0.Coords, EltTy.bits .f32 = 32 ∨ (Rect.block (s := S64x192) S64x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x192.size a ≤ S100000x192.size a
  hwx0_2 : ∀ i : grid0.Coords, EltTy.bits .f32 = 32 ∨ (Rect.block (s := S100000x192) S10000x192.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64x64.size a ≤ S64x64.size a
  hwx1_10 : ∀ i : grid1.Coords, EltTy.bits .f32 = 32 ∨ (Rect.block (s := S64x64) S64x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S64x64.size a ≤ S64x64.size a
  hwx1_11 : ∀ i : grid1.Coords, EltTy.bits .f32 = 32 ∨ (Rect.block (s := S64x64) S64x64.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x64.size a ≤ S1x64.size a
  hwx1_12 : ∀ i : grid1.Coords, EltTy.bits .f32 = 32 ∨ (Rect.block (s := S1x64) S1x64.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S64x64.size a ≤ S64x64.size a
  hwx1_13 : ∀ i : grid1.Coords, EltTy.bits .f32 = 32 ∨ (Rect.block (s := S64x64) S64x64.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x64.size a ≤ S1x64.size a
  hwx1_14 : ∀ i : grid1.Coords, EltTy.bits .f32 = 32 ∨ (Rect.block (s := S1x64) S1x64.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S2000x64.size a ≤ S100000x64.size a
  hwx1_15 : ∀ i : grid1.Coords, EltTy.bits .f32 = 32 ∨ (Rect.block (s := S100000x64) S2000x64.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S2000x64.size a ≤ S100000x64.size a
  hwx1_16 : ∀ i : grid1.Coords, EltTy.bits .f32 = 32 ∨ (Rect.block (s := S100000x64) S2000x64.size (cc1_transform_16 i) (hinb1_16 i)).WholeWords (EltTy.packing .f32)

variable [Facts₀]

def dot_S10000x64_S64x192_S10000x192_1_0_0_1_n_n : DotDims S10000x64 S64x192 S10000x192 where
  lhsContracting := [1]
  rhsContracting := [0]
  lhsNonContracting := [0]
  rhsNonContracting := [1]
  lhsBatch := []
  rhsBatch := []
  wf := dot_S10000x64_S64x192_S10000x192_1_0_0_1_n_n_wf
def gather_S100000x192_S800000x1_S800000x192_1_0_n_n_0_1_1192 : GatherDims S100000x192 S800000x1 S800000x192 where
  offsetDims := [1]
  collapsedSliceDims := [0]
  operandBatchingDims := []
  startIndicesBatchingDims := []
  startIndexMap := [0]
  indexVectorDim := 1
  sliceSizes := ![1, 192]
  wf := gather_S100000x192_S800000x1_S800000x192_1_0_n_n_0_1_1192_wf
def scatter_S100000x192_S800000x1_S800000x192_1_0_0_1 : ScatterDims S100000x192 S800000x1 S800000x192 where
  updateWindowDims := [1]
  insertedWindowDims := [0]
  scatterDimsToOperandDims := [0]
  indexVectorDim := 1
  wf := scatter_S100000x192_S800000x1_S800000x192_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S10000x192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v23) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S2000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v26) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v29) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v33) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v30) S64x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v31) S64x64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v34) S1x64.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg15) S64x64.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v35) S1x64.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v36_0) S2000x64.size cc1_transform_15 reads1_15 true false 2 stage1_15 sem1_15
    hrank1 hreads1_15 hinb1_15 nbuf1_15 (Memref.isWhole_whole _) hwx1_15 hstage1_15

abbrev win1_16 : Pipeline.Window sig grid1 :=
  Pipeline.Window.ofSpec (Memref.whole main_v36_1) S2000x64.size cc1_transform_16 reads1_16 true false 2 stage1_16 sem1_16
    hrank1 hreads1_16 hinb1_16 nbuf1_16 (Memref.isWhole_whole _) hwx1_16 hstage1_16

abbrev win1 : Fin 17 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | ⟨_ + 17, h⟩ => absurd h (Nat.not_lt.2 (Nat.le_add_left _ _))
abbrev spec1 : Fin 17 → Pipeline.WinSpec sig grid1.rank := fun w => (win1 w).toWinSpec

class Facts : Prop extends Facts₀ where

variable [Facts]
-- ==== ReferenceIdeal.lean ====
abbrev S100000x64 : Shape := ⟨2, ![100000, 64]⟩
abbrev S800000 : Shape := ⟨1, ![800000]⟩
abbrev S64x64 : Shape := ⟨2, ![64, 64]⟩
abbrev S64 : Shape := ⟨1, ![64]⟩
abbrev S128x64 : Shape := ⟨2, ![128, 64]⟩
abbrev S2x800000 : Shape := ⟨2, ![2, 800000]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S100000x128 : Shape := ⟨2, ![100000, 128]⟩

abbrev nBuf : Space → Nat
  | .hbm => 128
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S800000, .f32⟩
  | .hbm, ⟨2, _⟩ => ⟨S100000x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S128x64, .f32⟩
  | .hbm, ⟨10, _⟩ => ⟨S64, .f32⟩
  | .hbm, ⟨11, _⟩ => ⟨S128x64, .f32⟩
  | .hbm, ⟨12, _⟩ => ⟨S64, .f32⟩
  | .hbm, ⟨13, _⟩ => ⟨S128x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S2x800000, .i32⟩
  | .hbm, ⟨18, _⟩ => ⟨S1x800000, .i32⟩
  | .hbm, ⟨19, _⟩ => ⟨S800000, .i32⟩
  | .hbm, ⟨20, _⟩ => ⟨S1x800000, .i32⟩
  | .hbm, ⟨21, _⟩ => ⟨S800000, .i32⟩
  | .hbm, ⟨22, _⟩ => ⟨S100000x64, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x64, .f32⟩
  | .hbm, ⟨32, _⟩ => ⟨S800000x1, .f32⟩
  | .hbm, ⟨33, _⟩ => ⟨S800000x64, .f32⟩
  | .hbm, ⟨34, _⟩ => ⟨S800000x64, .f32⟩
  | .hbm, ⟨35, _⟩ => ⟨S_, .f32⟩
  | .hbm, ⟨36, _⟩ => ⟨S100000x64, .f32⟩
  | .hbm, ⟨37, _⟩ => ⟨S800000x1, .i32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S100000x128, .f32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S_, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S100000x64, .f32⟩
  | .hbm, ⟨54, _⟩ => ⟨S100000x64, .f32⟩
  | .hbm, ⟨55, _⟩ => ⟨S100000x64, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x64, .f32⟩
  | .hbm, ⟨65, _⟩ => ⟨S800000x1, .f32⟩
  | .hbm, ⟨66, _⟩ => ⟨S800000x64, .f32⟩
  | .hbm, ⟨67, _⟩ => ⟨S800000x64, .f32⟩
  | .hbm, ⟨68, _⟩ => ⟨S_, .f32⟩
  | .hbm, ⟨69, _⟩ => ⟨S100000x64, .f32⟩
  | .hbm, ⟨70, _⟩ => ⟨S800000x1, .i32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S100000x128, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S_, .f32⟩
  | .hbm, ⟨83, _⟩ => ⟨S100000x64, .f32⟩
  | .hbm, ⟨84, _⟩ => ⟨S100000x64, .f32⟩
  | .hbm, ⟨85, _⟩ => ⟨S_, .f32⟩
  | .hbm, ⟨86, _⟩ => ⟨S100000x64, .f32⟩
  | .hbm, ⟨87, _⟩ => ⟨S100000x64, .f32⟩
  | .hbm, ⟨88, _⟩ => ⟨S100000x64, .f32⟩
  | .hbm, ⟨89, _⟩ => ⟨S_, .i32⟩
  | .hbm, ⟨90, _⟩ => ⟨S800000, .i32⟩
  | .hbm, ⟨91, _⟩ => ⟨S800000, .i1⟩
  | .hbm, ⟨92, _⟩ => ⟨S_, .i32⟩
  | .hbm, ⟨93, _⟩ => ⟨S800000, .i32⟩
  | .hbm, ⟨94, _⟩ => ⟨S800000, .i32⟩
  | .hbm, ⟨95, _⟩ => ⟨S800000, .i32⟩
  | .hbm, ⟨96, _⟩ => ⟨S800000x1, .i32⟩
  | .hbm, ⟨97, _⟩ => ⟨S800000x64, .f32⟩
  | .hbm, ⟨98, _⟩ => ⟨S800000x1, .f32⟩
  | .hbm, ⟨99, _⟩ => ⟨S800000x64, .f32⟩
  | .hbm, ⟨100, _⟩ => ⟨S800000x64, .f32⟩
  | .hbm, ⟨101, _⟩ => ⟨S_, .f32⟩
  | .hbm, ⟨102, _⟩ => ⟨S100000x64, .f32⟩
  | .hbm, ⟨103, _⟩ => ⟨S800000x1, .i32⟩
  | .hbm, ⟨104, _⟩ => ⟨S100000x64, .f32⟩
  | .hbm, ⟨105, _⟩ => ⟨S1x64, .f32⟩
  | .hbm, ⟨106, _⟩ => ⟨S100000x64, .f32⟩
  | .hbm, ⟨107, _⟩ => ⟨S100000x64, .f32⟩
  | .hbm, ⟨108, _⟩ => ⟨S100000x64, .f32⟩
  | .hbm, ⟨109, _⟩ => ⟨S100000x128, .f32⟩
  | .hbm, ⟨110, _⟩ => ⟨S100000x64, .f32⟩
  | .hbm, ⟨111, _⟩ => ⟨S1x64, .f32⟩
  | .hbm, ⟨112, _⟩ => ⟨S100000x64, .f32⟩
  | .hbm, ⟨113, _⟩ => ⟨S100000x64, .f32⟩
  | .hbm, ⟨114, _⟩ => ⟨S100000x64, .f32⟩
  | .hbm, ⟨115, _⟩ => ⟨S100000x64, .f32⟩
  | .hbm, ⟨116, _⟩ => ⟨S_, .f32⟩
  | .hbm, ⟨117, _⟩ => ⟨S100000x64, .f32⟩
  | .hbm, ⟨118, _⟩ => ⟨S100000x64, .f32⟩
  | .hbm, ⟨119, _⟩ => ⟨S100000x64, .f32⟩
  | .hbm, ⟨120, _⟩ => ⟨S100000x64, .f32⟩
  | .hbm, ⟨121, _⟩ => ⟨S_, .f32⟩
  | .hbm, ⟨122, _⟩ => ⟨S100000x64, .f32⟩
  | .hbm, ⟨123, _⟩ => ⟨S100000x64, .f32⟩
  | .hbm, ⟨124, _⟩ => ⟨S100000x64, .f32⟩
  | .hbm, ⟨125, _⟩ => ⟨S1x64, .f32⟩
  | .hbm, ⟨126, _⟩ => ⟨S100000x64, .f32⟩
  | .hbm, ⟨127, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_1 : Ref sig .tc := ⟨.hbm, 49, rfl⟩
abbrev main_v28 : Ref sig .tc := ⟨.hbm, 50, rfl⟩
abbrev main_v29 : Ref sig .tc := ⟨.hbm, 51, rfl⟩
abbrev main_cst_2 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_3 : Ref sig .tc := ⟨.hbm, 56, rfl⟩
abbrev main_v33 : Ref sig .tc := ⟨.hbm, 57, rfl⟩
abbrev main_v34 : Ref sig .tc := ⟨.hbm, 58, rfl⟩
abbrev main_c_4 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_5 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_6 : Ref sig .tc := ⟨.hbm, 82, rfl⟩
abbrev main_v56 : Ref sig .tc := ⟨.hbm, 83, rfl⟩
abbrev main_v57 : Ref sig .tc := ⟨.hbm, 84, rfl⟩
abbrev main_cst_7 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_8 : Ref sig .tc := ⟨.hbm, 89, rfl⟩
abbrev main_v61 : Ref sig .tc := ⟨.hbm, 90, rfl⟩
abbrev main_v62 : Ref sig .tc := ⟨.hbm, 91, rfl⟩
abbrev main_c_9 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_10 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_11 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_call0_cst : Ref sig .tc := ⟨.hbm, 121, rfl⟩
abbrev main_call0_v0 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S100000x64_S100000x64_S100000x128_d1 : Shape.Concatenates [S100000x64, S100000x64] S100000x128 1
  dot_S100000x64_S64x64_S100000x64_1_0_0_1_n_n_wf : DotDims.WF S100000x64 S64x64 S100000x64 [1] [0] [0] [1] [] []
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S100000x128_S128x64_S100000x64_1_0_0_1_n_n_wf : DotDims.WF S100000x128 S128x64 S100000x64 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.MatmulRegionBits.lean ====
/- The first kernel region of @main (the matrix product `cc0__matmul_kernel`, pipeline 0) taken by itself, at
   a PARAMETER `V`: the contents of the TensorCore's buffers at the moment the region is entered. Everything
   below is a function of `V` alone, so that the run can later instantiate it at whatever the host operations
   before the region have left.

   The region walks a grid of 10 points. At point `t` it sees a 10000×64 block of rows of the left operand
   (window 0), the whole 64×192 right operand (window 1, brought in once, at the first point, and kept), and
   produces the 10000×192 block of rows `t` of the product (window 2). The kernel body loads its two inputs
   whole, computes one payload (`k0_pay1`) and stores it over the whole output block; so the output block after
   the body is a function of the two input blocks alone, and the inputs are left as they were. -/
import proofs.«111474_j1786706395616_1_alg».proof.Proof.Gen.Kernel.Launch
import proofs.«111474_j1786706395616_1_alg».proof.Proof.Gen.Kernel.Skeleton
import proofs.«111474_j1786706395616_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle as long as these blocks recurses once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The blocks the windows show -/

/-- The block of window `w` at grid point `t`: the window's rectangle at that point, read out of the window's
    array as `V` has it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds the block of rows of point `t` when the body starts there. It is
    fetched at every point, but the argument does not use that: for any proof data whose array is `V`'s and whose
    body leaves the block where it found it, an input buffer holds the block of the current point whether this
    point fetched it or an earlier one did (unfetched means the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand is fetched at the first point only; its block index never moves (the block is the whole
    array), so at every later point the buffer still holds that same block, which is the block of the point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is the whole of its buffer -/

abbrev rA0 : Rect S10000x64 := Rect.unit (s := S10000x64) ![0, 0] S10000x64.size inb_S10000x64_S10000x64_0_0
abbrev rB0 : Rect S64x192 := Rect.unit (s := S64x192) ![0, 0] S64x192.size inb_S64x192_S64x192_0_0
abbrev rC0 : Rect S10000x192 := Rect.unit (s := S10000x192) ![0, 0] S10000x192.size inb_S10000x192_S10000x192_0_0

/-! ## What the body leaves in the output block -/

/-- The output block after the body, as a function of the two input blocks: the body's single store, over the
    whole block, of the product payload of the two loaded inputs. Written as the canonical contents of a list of
    stores (here a list of one), which is what a run of the body yields. -/
def out0_2 (x0 : Vec F S10000x64 .f32) (x1 : Vec F S64x192 .f32) : Vec F S10000x192 .f32 :=
  View.canon [⟨rC0, k0_pay1 (View.ld x0 rA0) (View.ld x1 rB0)⟩]

/-- The one store is the whole block, so every index of the block lies under it. -/
theorem cover0_2 (p0 : Vec F S10000x192 .f32) (y : S10000x192.Idx) :
    ∃ pc ∈ ([⟨rC0, p0⟩] : List (View.Piece (Elt F) S10000x192 .f32)), y ∈ pc.1.set :=
  View.cover_of_tiled [⟨rC0, p0⟩] S10000x192.size (by rfl) y

/-! ## The body as a triple -/

set_option maxHeartbeats 1000000 in
/-- Run on three whole staging buffers — the inputs holding `x0` and `x1`, the output holding anything — the
    body ends with the inputs unchanged and the output at `out0_2 x0 x1`. The printed function is its skeleton of
    loads, one store and a payload; the skeleton is executed symbolically; the contents the store leaves are the
    canonical contents of the store list because the store covers the block. -/
theorem sound_kernel0 (c : Dev nD) (E : Set ℕ) (i : grid0.Coords) (arg1 : Memref sig .tc .vmem S10000x64 .f32) (harg1 : arg1.IsWhole) (arg2 : Memref sig .tc .vmem S64x192 .f32) (harg2 : arg2.IsWhole) (arg3 : Memref sig .tc .vmem S10000x192 .f32) (harg3 : arg3.IsWhole)
    (x0 : Vec F S10000x64 .f32) (x1 : Vec F S64x192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The data the pipeline rule asks for, on core `c`: each window's array as the region finds it (`V`); after
    the body at point `t`, an input's buffer still at its block and the output's at `out0_2` of the two input
    blocks; the invariant that only carries the untouched scoped buffers and the generator register along; full
    shares; nothing owed to any other core. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The data's arrays are the entry contents (the record's field, projected). -/
theorem A_eq0 (c : Dev nD) (w : Fin cfg0.W) : (dat0 V c).A w = V c (Pipeline.arrRef spec0 w) := by
  dsimp only [dat0]

/-- What the body leaves, one window at a time (the record's case split, reduced at each numeral). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- So each input's buffer holds the block of the point when the body starts there. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a point -/

/-- What the pipeline hands the body at point `t`: the invariant, the core's dues, and the three current staging
    buffers at what they hold before the body, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it wants back: the same, with the buffers at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold the point's blocks, so the body's triple applies at those blocks;
    the invariant and the dues are not touched and pass from before to after unchanged. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation in the form the pipeline rule states it: the windows' conjunction spelt out one by one. -/
theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.GateRegionBits.lean ====
/- The second kernel region of @main (the gate kernel `cc1__gate_kernel`, pipeline 1) taken by itself, at a
   PARAMETER `V`: the contents of the TensorCore's buffers at the moment the region is entered.

   The region walks a grid of 50 points. At point `t` it sees the blocks of rows `t` (2000 rows of 64) of four
   arrays (windows 0–3, fetched at every point), eleven small arrays whole — six 64×64 weights and five 1×64 bias
   rows (windows 4–14, fetched once, at the first point, and kept) — and produces the blocks of rows `t` of two
   results (windows 15 and 16). The kernel body loads each input whole, and stores each output block once, whole:
   window 16 receives the gated update `k1_pay1` and window 15 the projection `k1_pay2` of it. The first half of
   the body is a separately printed function whose results (`k1_pay3`, the state rows as loaded, `k1_pay5`,
   `k1_pay6`, `k1_pay7`) are the arguments the second half's payloads take; so each output block after the body
   is a function of the input blocks alone, and the inputs are left as they were. -/
import proofs.«111474_j1786706395616_1_alg».proof.Proof.Gen.Kernel.Launch
import proofs.«111474_j1786706395616_1_alg».proof.Proof.Gen.Kernel.Skeleton
import proofs.«111474_j1786706395616_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle as long as these blocks recurses once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The blocks the windows show -/

/-- The block of window `w` at grid point `t`: the window's rectangle at that point, read out of the window's
    array as `V` has it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Every input's staging buffer holds the block of point `t` when the body starts there — for any proof data whose
    array is `V`'s and whose body leaves the block where it found it. A window fetched at this point holds what
    was fetched; one not fetched here has not had its block index move since it was, so what it still holds is the
    block of this point. -/

/-- Window 0 (a block of 2000 rows, fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1 (a block of 2000 rows, fetched at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Window 2 (a block of 2000 rows, fetched at every point). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Window 3 (a block of 2000 rows, fetched at every point). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Window 4 (a whole small array, fetched at the first point only: its block index never moves). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Window 5 (a whole small array, fetched at the first point only: its block index never moves). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Window 6 (a whole small array, fetched at the first point only: its block index never moves). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Window 7 (a whole small array, fetched at the first point only: its block index never moves). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Window 8 (a whole small array, fetched at the first point only: its block index never moves). -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Window 9 (a whole small array, fetched at the first point only: its block index never moves). -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Window 10 (a whole small array, fetched at the first point only: its block index never moves). -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- Window 11 (a whole small array, fetched at the first point only: its block index never moves). -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-- Window 12 (a whole small array, fetched at the first point only: its block index never moves). -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

/-- Window 13 (a whole small array, fetched at the first point only: its block index never moves). -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

/-- Window 14 (a whole small array, fetched at the first point only: its block index never moves). -/
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each is the whole of its buffer -/

abbrev rA1 : Rect S2000x64 := Rect.unit (s := S2000x64) ![0, 0] S2000x64.size inb_S2000x64_S2000x64_0_0
abbrev rB1 : Rect S64x64 := Rect.unit (s := S64x64) ![0, 0] S64x64.size inb_S64x64_S64x64_0_0
abbrev rC1 : Rect S1x64 := Rect.unit (s := S1x64) ![0, 0] S1x64.size inb_S1x64_S1x64_0_0

/-! ## What the body leaves in the two output blocks -/

/-- Window 15's block after the body, as a function of the fifteen input blocks: the single whole-block store of
    the projection payload, whose first five arguments are the first half's results on the loaded inputs. -/
def out1_15 (x0 : Vec F S2000x64 .f32) (x1 : Vec F S2000x64 .f32) (x2 : Vec F S2000x64 .f32) (x3 : Vec F S2000x64 .f32) (x4 : Vec F S64x64 .f32) (x5 : Vec F S64x64 .f32) (x6 : Vec F S1x64 .f32) (x7 : Vec F S64x64 .f32) (x8 : Vec F S64x64 .f32) (x9 : Vec F S1x64 .f32) (x10 : Vec F S64x64 .f32) (x11 : Vec F S64x64 .f32) (x12 : Vec F S1x64 .f32) (x13 : Vec F S64x64 .f32) (x14 : Vec F S1x64 .f32) : Vec F S2000x64 .f32 :=
  View.canon [⟨rA1, k1_pay2 (k1_pay3 (View.ld x2 rA1)) (View.ld x3 rA1) (k1_pay5 (View.ld x0 rA1) (View.ld x3 rA1) (View.ld x4 rB1) (View.ld x5 rB1) (View.ld x6 rC1)) (k1_pay6 (View.ld x1 rA1) (View.ld x3 rA1) (View.ld x7 rB1) (View.ld x8 rB1)) (k1_pay7 (View.ld x9 rC1)) (View.ld x10 rB1) (View.ld x11 rB1) (View.ld x12 rC1) (View.ld x13 rB1) (View.ld x14 rC1)⟩]

/-- Window 16's block after the body, as a function of the thirteen input blocks it reads (the last weight and
    bias row enter the projection only): the single whole-block store of the gated update. -/
def out1_16 (x0 : Vec F S2000x64 .f32) (x1 : Vec F S2000x64 .f32) (x2 : Vec F S2000x64 .f32) (x3 : Vec F S2000x64 .f32) (x4 : Vec F S64x64 .f32) (x5 : Vec F S64x64 .f32) (x6 : Vec F S1x64 .f32) (x7 : Vec F S64x64 .f32) (x8 : Vec F S64x64 .f32) (x9 : Vec F S1x64 .f32) (x10 : Vec F S64x64 .f32) (x11 : Vec F S64x64 .f32) (x12 : Vec F S1x64 .f32) : Vec F S2000x64 .f32 :=
  View.canon [⟨rA1, k1_pay1 (k1_pay3 (View.ld x2 rA1)) (View.ld x3 rA1) (k1_pay5 (View.ld x0 rA1) (View.ld x3 rA1) (View.ld x4 rB1) (View.ld x5 rB1) (View.ld x6 rC1)) (k1_pay6 (View.ld x1 rA1) (View.ld x3 rA1) (View.ld x7 rB1) (View.ld x8 rB1)) (k1_pay7 (View.ld x9 rC1)) (View.ld x10 rB1) (View.ld x11 rB1) (View.ld x12 rC1)⟩]

/-- Either store is the whole block, so every index of the block lies under it. -/
theorem cover1_15 (p0 : Vec F S2000x64 .f32) (y : S2000x64.Idx) :
    ∃ pc ∈ ([⟨rA1, p0⟩] : List (View.Piece (Elt F) S2000x64 .f32)), y ∈ pc.1.set :=
  View.cover_of_tiled [⟨rA1, p0⟩] S2000x64.size (by rfl) y
theorem cover1_16 (p0 : Vec F S2000x64 .f32) (y : S2000x64.Idx) :
    ∃ pc ∈ ([⟨rA1, p0⟩] : List (View.Piece (Elt F) S2000x64 .f32)), y ∈ pc.1.set :=
  View.cover_of_tiled [⟨rA1, p0⟩] S2000x64.size (by rfl) y

/-! ## The body as a triple -/

set_option maxHeartbeats 4000000 in
/-- Run on seventeen whole staging buffers — the inputs holding `x0 … x14`, the outputs holding anything — the body
    ends with the inputs unchanged and the outputs at `out1_15` and `out1_16` of them. The printed function and its
    first half are their skeletons of loads, stores and payloads; the skeletons are executed symbolically, the first
    half's results flowing into the second half's payloads; the contents each store leaves are the canonical contents
    of its store list because the store covers the block. -/
theorem sound_kernel1 (c : Dev nD) (E : Set ℕ) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S64x64 .f32) (harg14 : arg14.IsWhole) (arg15 : Memref sig .tc .vmem S1x64 .f32) (harg15 : arg15.IsWhole) (arg16 : Memref sig .tc .vmem S2000x64 .f32) (harg16 : arg16.IsWhole) (arg17 : Memref sig .tc .vmem S2000x64 .f32) (harg17 : arg17.IsWhole)
    (x0 : Vec F S2000x64 .f32) (x1 : Vec F S2000x64 .f32) (x2 : Vec F S2000x64 .f32) (x3 : Vec F S2000x64 .f32) (x4 : Vec F S64x64 .f32) (x5 : Vec F S64x64 .f32) (x6 : Vec F S1x64 .f32) (x7 : Vec F S64x64 .f32) (x8 : Vec F S64x64 .f32) (x9 : Vec F S1x64 .f32) (x10 : Vec F S64x64 .f32) (x11 : Vec F S64x64 .f32) (x12 : Vec F S1x64 .f32) (x13 : Vec F S64x64 .f32) (x14 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out1_15 x0 x1 x2 x3 x4 x5 x6 x7 x8 x9 x10 x11 x12 x13 x14) ∗ owns (c : Thread nD τ) arg17 fullShare (out1_16 x0 x1 x2 x3 x4 x5 x6 x7 x8 x9 x10 x11 x12)) -∗ K ⟨⟩))
      ⊢ wp frame (wpE (defs₀ (F := F)) Variants.none c none) E (cc1__gate_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1__gate_kernel_eq_skeleton]; unfold cc1__gate_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    try dsimp only
    exact View.read_writes_eq_canon _ _ _ (cover1_15 _)
  iexists _; isplitr
  swap; · iexact H16
  ipureintro
  try dsimp only
  exact View.read_writes_eq_canon _ _ _ (cover1_16 _)

/-! ## The pipeline's proof data -/

/-- The data the pipeline rule asks for, on core `c`: each window's array as the region finds it (`V`); after
    the body at point `t`, an input's buffer still at its block and each output's at its `out1_W` of the input
    blocks; the invariant that only carries the untouched scoped buffers and the generator register along; full
    shares; nothing owed to any other core. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    | ⟨16, _⟩ => out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t)
    | ⟨_ + 17, h⟩ => absurd h (Nat.not_lt.2 (Nat.le_add_left _ _))
  Φ _ := Pipeline.ΦA spec1 c
  q _ := fullShare
  owed _ := 0

/-- The data's arrays are the entry contents (the record's field, projected). -/
theorem A_eq1 (c : Dev nD) (w : Fin cfg1.W) : (dat1 V c).A w = V c (Pipeline.arrRef spec1 w) := by
  dsimp only [dat1]

/-- What the body leaves, one window at a time (the record's case split, reduced at each numeral). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) := by dsimp only [dat1]
theorem after1_16 (c : Dev nD) (t : Fin cfg1.N) : (dat1 V c).after 16 t = out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) := by dsimp only [dat1]

/-- So each input's buffer holds the block of the point when the body starts there. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d

/-! ## The body obligation at a point -/

/-- What the pipeline hands the body at point `t`: the invariant, the core's dues, and the seventeen current
    staging buffers at what they hold before the body, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d)))

/-- and what it wants back: the same, with the buffers at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t))

set_option maxHeartbeats 1000000 in
/-- The body at any point: the input buffers hold the point's blocks, so the body's triple applies at those blocks;
    the invariant and the dues are not touched and pass from before to after unchanged. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel1 c Set.univ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The obligation in the form the pipeline rule states it: the windows' conjunction spelt out one by one. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.RunBits.lean ====
/- THE RUN of @main from the launch to the return, and the frame claim read off it.

   @main is four segments in a row: a host stretch (one concatenation), the matrix-product region, a host stretch
   (37 operations) and the gate region. The contents of the TensorCore's unscoped buffers are followed through the
   four as a fold from the launch memory: a host stretch changes exactly what its operations write; a region changes
   exactly its windows' arrays, each to what the pipeline's write-backs leave. Each region's half is instantiated at
   the contents its predecessor leaves, the four are chained, and the launch theorem for a list of segments yields:
   every weakly fair execution terminates and the final memory is the last fold. An argument array is written by no
   host operation and is no output of either region, so the fold at it walks back to the launch memory. -/
import proofs.«111474_j1786706395616_1_alg».proof.Proof.MatmulRegionBits
import proofs.«111474_j1786706395616_1_alg».proof.Proof.GateRegionBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle as long as these blocks recurses once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between segments -/

/-- Core `c`'s buffers at launch. -/
abbrev W0 : Dev nD → Valuation τ sig (Elt F) := fun c b => (s₀ m ρ).mem ((c : Dev nD), b)
/-- After the first host stretch: what region 0 is entered at. -/
abbrev W1 : Dev nD → Valuation τ sig (Elt F) := fun c => StableHlo.after hostOps0 (W0 m ρ c)
/-- The same, read at the TensorCore's own references (the form a region's half takes). -/
abbrev V1 : (c : Dev nD) → (b : Ref sig .tc) → Buf (Elt F) ((c : Thread nD τ).loc b) := fun c b => W1 m ρ c b
/-- When region 0 ends: each of its windows' arrays at what the pipeline leaves there after the last point (an input's
    as entered, the output's with every block written back), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
/-- The two facts the exit of region 0 needs: its arrays hold what the pipeline leaves, everything else what it held. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what region 1 is entered at. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- When region 1 ends: its windows' arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## What the host stretches write -/

/-- The one reference the first stretch writes, and the 37 the second writes: each operation's result. -/
abbrev written0 : List (Ref sig .tc) := [main_v0]
abbrev written1 : List (Ref sig .tc) := [main_v2, main_v3, main_v4, main_v5, main_c, main_v6, main_v7, main_c_0, main_v8, main_v9, main_v10, main_v11, main_v12, main_v13, main_v14, main_v15, main_cst, main_v16, main_v17, main_v18, main_v19, main_v20, main_v21, main_v22, main_v23, main_v24, main_v25, main_v26, main_v27, main_v28, main_v29, main_v30, main_v31, main_v32, main_v33, main_v34, main_v35]

theorem hostOps0_writes : (hostOps0 : List (HloOp τ sig (Elt F))).Forall fun op => op.writes ⊆ (written0.map (Proc.devRef (τ := τ) .tc)).toFinset := by
  simp only [List.Forall, StableHlo.nary_writes, Finset.singleton_subset_iff, List.mem_toFinset]
  exact List.mem_map_of_mem (by decide)
theorem hostOps1_writes : (hostOps1 : List (HloOp τ sig (Elt F))).Forall fun op => op.writes ⊆ (written1.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, StableHlo.nary_writes, Finset.singleton_subset_iff, List.mem_toFinset]
    exact List.mem_map_of_mem (by decide)

/-- A reference a stretch does not write holds after the stretch what it held before. -/
theorem hostOps0_keeps (W : Valuation τ sig (Elt F)) (r : Ref sig .tc) (hr : r ∉ written0) :
    StableHlo.after hostOps0 W (Proc.devRef .tc r) = W (Proc.devRef .tc r) :=
  StableHlo.after_of_writes_sub hostOps0 W hostOps0_writes hr
theorem hostOps1_keeps (W : Valuation τ sig (Elt F)) (r : Ref sig .tc) (hr : r ∉ written1) :
    StableHlo.after hostOps1 W (Proc.devRef .tc r) = W (Proc.devRef .tc r) :=
  StableHlo.after_of_writes_sub hostOps1 W hostOps1_writes hr

/-! ## The arguments end as launched -/

/-- A buffer that is no array of either region and that neither host stretch writes holds at the end what the launch
    memory holds: each step of the fold leaves it alone. -/
theorem W4_of_untouched (c : Dev nD) (b : Ref sig .tc) (h1 : ∀ w, Pipeline.arrRef spec1 w ≠ b) (hw1 : b ∉ written1)
    (h0 : ∀ w, Pipeline.arrRef spec0 w ≠ b) (hw0 : b ∉ written0) :
    W4 m ρ c (Proc.devRef .tc b) = m ((c : Thread nD τ).loc b) :=
  calc W4 m ρ c (Proc.devRef .tc b)
    _ = W3 m ρ c (Proc.devRef .tc b) := W4_of_ne m ρ c b h1
    _ = W2 m ρ c (Proc.devRef .tc b) := hostOps1_keeps _ b hw1
    _ = W1 m ρ c (Proc.devRef .tc b) := W2_of_ne m ρ c b h0
    _ = W0 m ρ c (Proc.devRef .tc b) := hostOps0_keeps _ b hw0
    _ = m ((c : Thread nD τ).loc b) := rfl

/-- `main_arg0` is the array of region 0's first input window: the region never writes an input's array back, so it
    leaves the region as it entered; no host operation writes it and region 1 does not have it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := hostOps1_keeps _ main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := hostOps0_keeps _ main_arg0 (by decide)
    _ = m ((c : Thread nD τ).loc main_arg0) := rfl
theorem W4_main_arg1 (c : Dev nD) : W4 m ρ c (Proc.devRef .tc main_arg1) = m ((c : Thread nD τ).loc main_arg1) :=
  W4_of_untouched m ρ c main_arg1 (by decide) (by decide) (by decide) (by decide)
/-- `main_arg2` is the array of region 1's input window 3: the region leaves it as it entered; nothing before the
    region writes it. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := (W4_arr m ρ c 3).trans (((dat1 (V3 m ρ) c).arrAt_in 3 rfl _).trans (A_eq1 (V3 m ρ) c 3))
    _ = W2 m ρ c (Proc.devRef .tc main_arg2) := hostOps1_keeps _ main_arg2 (by decide)
    _ = W1 m ρ c (Proc.devRef .tc main_arg2) := W2_of_ne m ρ c main_arg2 (by decide)
    _ = W0 m ρ c (Proc.devRef .tc main_arg2) := hostOps0_keeps _ main_arg2 (by decide)
    _ = m ((c : Thread nD τ).loc main_arg2) := rfl
theorem W4_main_arg3 (c : Dev nD) : W4 m ρ c (Proc.devRef .tc main_arg3) = m ((c : Thread nD τ).loc main_arg3) :=
  W4_of_untouched m ρ c main_arg3 (by decide) (by decide) (by decide) (by decide)
theorem W4_main_arg4 (c : Dev nD) : W4 m ρ c (Proc.devRef .tc main_arg4) = m ((c : Thread nD τ).loc main_arg4) :=
  W4_of_untouched m ρ c main_arg4 (by decide) (by decide) (by decide) (by decide)
theorem W4_main_arg5 (c : Dev nD) : W4 m ρ c (Proc.devRef .tc main_arg5) = m ((c : Thread nD τ).loc main_arg5) :=
  W4_of_untouched m ρ c main_arg5 (by decide) (by decide) (by decide) (by decide)
theorem W4_main_arg6 (c : Dev nD) : W4 m ρ c (Proc.devRef .tc main_arg6) = m ((c : Thread nD τ).loc main_arg6) :=
  W4_of_untouched m ρ c main_arg6 (by decide) (by decide) (by decide) (by decide)
theorem W4_main_arg7 (c : Dev nD) : W4 m ρ c (Proc.devRef .tc main_arg7) = m ((c : Thread nD τ).loc main_arg7) :=
  W4_of_untouched m ρ c main_arg7 (by decide) (by decide) (by decide) (by decide)
theorem W4_main_arg8 (c : Dev nD) : W4 m ρ c (Proc.devRef .tc main_arg8) = m ((c : Thread nD τ).loc main_arg8) :=
  W4_of_untouched m ρ c main_arg8 (by decide) (by decide) (by decide) (by decide)
theorem W4_main_arg9 (c : Dev nD) : W4 m ρ c (Proc.devRef .tc main_arg9) = m ((c : Thread nD τ).loc main_arg9) :=
  W4_of_untouched m ρ c main_arg9 (by decide) (by decide) (by decide) (by decide)
theorem W4_main_arg10 (c : Dev nD) : W4 m ρ c (Proc.devRef .tc main_arg10) = m ((c : Thread nD τ).loc main_arg10) :=
  W4_of_untouched m ρ c main_arg10 (by decide) (by decide) (by decide) (by decide)
theorem W4_main_arg11 (c : Dev nD) : W4 m ρ c (Proc.devRef .tc main_arg11) = m ((c : Thread nD τ).loc main_arg11) :=
  W4_of_untouched m ρ c main_arg11 (by decide) (by decide) (by decide) (by decide)
theorem W4_main_arg12 (c : Dev nD) : W4 m ρ c (Proc.devRef .tc main_arg12) = m ((c : Thread nD τ).loc main_arg12) :=
  W4_of_untouched m ρ c main_arg12 (by decide) (by decide) (by decide) (by decide)
theorem W4_main_arg13 (c : Dev nD) : W4 m ρ c (Proc.devRef .tc main_arg13) = m ((c : Thread nD τ).loc main_arg13) :=
  W4_of_untouched m ρ c main_arg13 (by decide) (by decide) (by decide) (by decide)
theorem W4_main_arg14 (c : Dev nD) : W4 m ρ c (Proc.devRef .tc main_arg14) = m ((c : Thread nD τ).loc main_arg14) :=
  W4_of_untouched m ρ c main_arg14 (by decide) (by decide) (by decide) (by decide)
/-- `main_arg15` is the array of region 1's input window 13: the region leaves it as it entered; nothing before the
    region writes it. -/
theorem W4_main_arg15 (c : Dev nD) : W4 m ρ c (Proc.devRef .tc main_arg15) = m ((c : Thread nD τ).loc main_arg15) :=
  calc W4 m ρ c (Proc.devRef .tc main_arg15)
    _ = W3 m ρ c (Proc.devRef .tc main_arg15) := (W4_arr m ρ c 13).trans (((dat1 (V3 m ρ) c).arrAt_in 13 rfl _).trans (A_eq1 (V3 m ρ) c 13))
    _ = W2 m ρ c (Proc.devRef .tc main_arg15) := hostOps1_keeps _ main_arg15 (by decide)
    _ = W1 m ρ c (Proc.devRef .tc main_arg15) := W2_of_ne m ρ c main_arg15 (by decide)
    _ = W0 m ρ c (Proc.devRef .tc main_arg15) := hostOps0_keeps _ main_arg15 (by decide)
    _ = m ((c : Thread nD τ).loc main_arg15) := rfl
theorem W4_main_arg16 (c : Dev nD) : W4 m ρ c (Proc.devRef .tc main_arg16) = m ((c : Thread nD τ).loc main_arg16) :=
  W4_of_untouched m ρ c main_arg16 (by decide) (by decide) (by decide) (by decide)
theorem W4_main_arg17 (c : Dev nD) : W4 m ρ c (Proc.devRef .tc main_arg17) = m ((c : Thread nD τ).loc main_arg17) :=
  W4_of_untouched m ρ c main_arg17 (by decide) (by decide) (by decide) (by decide)

/-! ## The proof data of both pipelines, and the thread state -/

/-- No pipeline has a prefetched table: the admissible contents are the trivial ones. -/
abbrev adm : (p : Fin 2) → (pcfgs (F := F) p).Adm := fun p => (cfgs p).toPCfg_adm
/-- Each pipeline's proof data at the contents its region is entered at. A literal case split on the pipeline's index,
    so that at a numeral the pinned configuration reduces to the printed one. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything, so no pair of cores is assigned a level. -/
abbrev L : GSem nD τ sig → Finset Unit := fun _ => ∅
abbrev lv : GSem nD τ sig → Unit → ℕ := fun _ _ => 0
/-- What travels beside the buffers through every segment: the core's generator register at some state, and its dues,
    which are none. -/
abbrev R (c : Dev nD) : sProp 𝕄 := iprop((∃ r, prngReg c r) ∗ ∃ W, owes (c : Thread nD τ) (0 : CellTallies nD τ sig Unit) W)
/-- A host stretch as a segment: run from the unscoped buffers at `W`, it leaves them at `StableHlo.after ops (W c)`;
    `R` is not touched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is one of those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the dues: every unscoped buffer at the last contents `W4`, the generator register at
    some state. -/
abbrev Tₙ (c : Dev nD) : sProp 𝕄 := iprop(StableHlo.held (c : Thread nD τ) (Pipeline.ucRefs τ sig) (W4 m ρ c) ∗ ∃ r, prngReg c r)

/-! ## The regions as segments -/

-- applying a library lemma stated over the pinned configuration `pin pcs a p` to the printed one needs unification to
-- unfold plain definitions inside a metavariable's type
set_option backward.isDefEq.respectTransparency.types false in
/-- Region 0 as a segment over the thread state. It is entered holding every unscoped buffer at `W1` and left holding
    them at `W2` (what the next host stretch starts from). On entry the region's arrays are split out of the unscoped buffers and the rest
    set aside; the generator register goes into the pipeline's invariant and comes back out of it; on exit the arrays,
    now at what the write-backs left, are joined with the rest again. The core owes nothing and the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration `pin pcs a p` to the printed one needs unification to
-- unfold plain definitions inside a metavariable's type
set_option backward.isDefEq.respectTransparency.types false in
/-- Region 1 as a segment over the thread state. It is entered holding every unscoped buffer at `W3` and left holding
    them at `W4` (the contents the end of @main is read at). On entry the region's arrays are split out of the unscoped buffers and the rest
    set aside; the generator register goes into the pipeline's invariant and comes back out of it; on exit the arrays,
    now at what the write-backs left, are joined with the rest again. The core owes nothing and the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its segments, and the launch -/

/-- The four segments in @main's order, each host stretch from the contents at its boundary. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of these segments: it is the chain of its items, and the segments' run is the same chain. -/
theorem main_run (c : Dev nD) : main (F := F) c = Pipeline.Seg.run (segs m ρ) := (main_chain c).trans (by chain_rfl)

-- the launch theorem's implicit arguments are found by unifying its conclusion with this statement, which needs
-- unification to unfold plain definitions inside a metavariable's type
set_option backward.isDefEq.respectTransparency.types false in
/-- From any memory `m` with every counter at zero, every weakly fair execution of @main on the TensorCores terminates
    without fault, and the final memory holds, at every unscoped buffer of every core, the last contents `W4` of the
    fold: the launch deals the first thread state, the segments chain, and the last thread state is read against the
    final state buffer by buffer. -/
theorem run_all : θ_run defs (onTc (τ := τ) (main (F := F))) ⟨m, fun _ => 0, ρ⟩
    (fun r => ∀ c : Dev nD, ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every weakly fair execution of @main terminates without fault and every argument array ends holding
    what it held at launch — each argument is an unscoped buffer, so the final memory has it at `W4`, which at an
    argument is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c),
      (h c _ (mem_uc main_arg11 (by decide))).trans (W4_main_arg11 m ρ c),
      (h c _ (mem_uc main_arg12 (by decide))).trans (W4_main_arg12 m ρ c),
      (h c _ (mem_uc main_arg13 (by decide))).trans (W4_main_arg13 m ρ c),
      (h c _ (mem_uc main_arg14 (by decide))).trans (W4_main_arg14 m ρ c),
      (h c _ (mem_uc main_arg15 (by decide))).trans (W4_main_arg15 m ρ c),
      (h c _ (mem_uc main_arg16 (by decide))).trans (W4_main_arg16 m ρ c),
      (h c _ (mem_uc main_arg17 (by decide))).trans (W4_main_arg17 m ρ c)⟩) (run_all m ρ)

end Cert.Kernel.Hand

end
-- ==== Proof.MatmulRegionIdeal.lean ====
/- The first kernel region of @main (the matrix product `cc0__matmul_kernel`, pipeline 0) taken by itself, at
   a PARAMETER `V`: the contents of the TensorCore's buffers at the moment the region is entered. Everything
   below is a function of `V` alone, so that the run can later instantiate it at whatever the host operations
   before the region have left.

   The region walks a grid of 10 points. At point `t` it sees a 10000×64 block of rows of the left operand
   (window 0), the whole 64×192 right operand (window 1, brought in once, at the first point, and kept), and
   produces the 10000×192 block of rows `t` of the product (window 2). The kernel body loads its two inputs
   whole, computes one payload (`k0_pay1`) and stores it over the whole output block; so the output block after
   the body is a function of the two input blocks alone, and the inputs are left as they were. -/
import proofs.«111474_j1786706395616_1_alg».proof.Proof.Gen.KernelIdeal.Launch
import proofs.«111474_j1786706395616_1_alg».proof.Proof.Gen.KernelIdeal.Skeleton
import proofs.«111474_j1786706395616_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle as long as these blocks recurses once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The blocks the windows show -/

/-- The block of window `w` at grid point `t`: the window's rectangle at that point, read out of the window's
    array as `V` has it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds the block of rows of point `t` when the body starts there. It is
    fetched at every point, but the argument does not use that: for any proof data whose array is `V`'s and whose
    body leaves the block where it found it, an input buffer holds the block of the current point whether this
    point fetched it or an earlier one did (unfetched means the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand is fetched at the first point only; its block index never moves (the block is the whole
    array), so at every later point the buffer still holds that same block, which is the block of the point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is the whole of its buffer -/

abbrev rA0 : Rect S10000x64 := Rect.unit (s := S10000x64) ![0, 0] S10000x64.size inb_S10000x64_S10000x64_0_0
abbrev rB0 : Rect S64x192 := Rect.unit (s := S64x192) ![0, 0] S64x192.size inb_S64x192_S64x192_0_0
abbrev rC0 : Rect S10000x192 := Rect.unit (s := S10000x192) ![0, 0] S10000x192.size inb_S10000x192_S10000x192_0_0

/-! ## What the body leaves in the output block -/

/-- The output block after the body, as a function of the two input blocks: the body's single store, over the
    whole block, of the product payload of the two loaded inputs. Written as the canonical contents of a list of
    stores (here a list of one), which is what a run of the body yields. -/
def out0_2 (x0 : Vec F S10000x64 .f32) (x1 : Vec F S64x192 .f32) : Vec F S10000x192 .f32 :=
  View.canon [⟨rC0, k0_pay1 (View.ld x0 rA0) (View.ld x1 rB0)⟩]

/-- The one store is the whole block, so every index of the block lies under it. -/
theorem cover0_2 (p0 : Vec F S10000x192 .f32) (y : S10000x192.Idx) :
    ∃ pc ∈ ([⟨rC0, p0⟩] : List (View.Piece (Elt F) S10000x192 .f32)), y ∈ pc.1.set :=
  View.cover_of_tiled [⟨rC0, p0⟩] S10000x192.size (by rfl) y

/-! ## The body as a triple -/

set_option maxHeartbeats 1000000 in
/-- Run on three whole staging buffers — the inputs holding `x0` and `x1`, the output holding anything — the
    body ends with the inputs unchanged and the output at `out0_2 x0 x1`. The printed function is its skeleton of
    loads, one store and a payload; the skeleton is executed symbolically; the contents the store leaves are the
    canonical contents of the store list because the store covers the block. -/
theorem sound_kernel0 (c : Dev nD) (E : Set ℕ) (i : grid0.Coords) (arg1 : Memref sig .tc .vmem S10000x64 .f32) (harg1 : arg1.IsWhole) (arg2 : Memref sig .tc .vmem S64x192 .f32) (harg2 : arg2.IsWhole) (arg3 : Memref sig .tc .vmem S10000x192 .f32) (harg3 : arg3.IsWhole)
    (x0 : Vec F S10000x64 .f32) (x1 : Vec F S64x192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The data the pipeline rule asks for, on core `c`: each window's array as the region finds it (`V`); after
    the body at point `t`, an input's buffer still at its block and the output's at `out0_2` of the two input
    blocks; the invariant that only carries the untouched scoped buffers and the generator register along; full
    shares; nothing owed to any other core. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The data's arrays are the entry contents (the record's field, projected). -/
theorem A_eq0 (c : Dev nD) (w : Fin cfg0.W) : (dat0 V c).A w = V c (Pipeline.arrRef spec0 w) := by
  dsimp only [dat0]

/-- What the body leaves, one window at a time (the record's case split, reduced at each numeral). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- So each input's buffer holds the block of the point when the body starts there. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a point -/

/-- What the pipeline hands the body at point `t`: the invariant, the core's dues, and the three current staging
    buffers at what they hold before the body, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it wants back: the same, with the buffers at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold the point's blocks, so the body's triple applies at those blocks;
    the invariant and the dues are not touched and pass from before to after unchanged. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation in the form the pipeline rule states it: the windows' conjunction spelt out one by one. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.GateRegionIdeal.lean ====
/- The second kernel region of @main (the gate kernel `cc1__gate_kernel`, pipeline 1) taken by itself, at a
   PARAMETER `V`: the contents of the TensorCore's buffers at the moment the region is entered.

   The region walks a grid of 50 points. At point `t` it sees the blocks of rows `t` (2000 rows of 64) of four
   arrays (windows 0–3, fetched at every point), eleven small arrays whole — six 64×64 weights and five 1×64 bias
   rows (windows 4–14, fetched once, at the first point, and kept) — and produces the blocks of rows `t` of two
   results (windows 15 and 16). The kernel body loads each input whole, and stores each output block once, whole:
   window 16 receives the gated update `k1_pay1` and window 15 the projection `k1_pay2` of it. The first half of
   the body is a separately printed function whose results (`k1_pay3`, the state rows as loaded, `k1_pay5`,
   `k1_pay6`, `k1_pay7`) are the arguments the second half's payloads take; so each output block after the body
   is a function of the input blocks alone, and the inputs are left as they were. -/
import proofs.«111474_j1786706395616_1_alg».proof.Proof.Gen.KernelIdeal.Launch
import proofs.«111474_j1786706395616_1_alg».proof.Proof.Gen.KernelIdeal.Skeleton
import proofs.«111474_j1786706395616_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle as long as these blocks recurses once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The blocks the windows show -/

/-- The block of window `w` at grid point `t`: the window's rectangle at that point, read out of the window's
    array as `V` has it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Every input's staging buffer holds the block of point `t` when the body starts there — for any proof data whose
    array is `V`'s and whose body leaves the block where it found it. A window fetched at this point holds what
    was fetched; one not fetched here has not had its block index move since it was, so what it still holds is the
    block of this point. -/

/-- Window 0 (a block of 2000 rows, fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1 (a block of 2000 rows, fetched at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Window 2 (a block of 2000 rows, fetched at every point). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Window 3 (a block of 2000 rows, fetched at every point). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Window 4 (a whole small array, fetched at the first point only: its block index never moves). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Window 5 (a whole small array, fetched at the first point only: its block index never moves). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Window 6 (a whole small array, fetched at the first point only: its block index never moves). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Window 7 (a whole small array, fetched at the first point only: its block index never moves). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Window 8 (a whole small array, fetched at the first point only: its block index never moves). -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Window 9 (a whole small array, fetched at the first point only: its block index never moves). -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Window 10 (a whole small array, fetched at the first point only: its block index never moves). -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- Window 11 (a whole small array, fetched at the first point only: its block index never moves). -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-- Window 12 (a whole small array, fetched at the first point only: its block index never moves). -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

/-- Window 13 (a whole small array, fetched at the first point only: its block index never moves). -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

/-- Window 14 (a whole small array, fetched at the first point only: its block index never moves). -/
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each is the whole of its buffer -/

abbrev rA1 : Rect S2000x64 := Rect.unit (s := S2000x64) ![0, 0] S2000x64.size inb_S2000x64_S2000x64_0_0
abbrev rB1 : Rect S64x64 := Rect.unit (s := S64x64) ![0, 0] S64x64.size inb_S64x64_S64x64_0_0
abbrev rC1 : Rect S1x64 := Rect.unit (s := S1x64) ![0, 0] S1x64.size inb_S1x64_S1x64_0_0

/-! ## What the body leaves in the two output blocks -/

/-- Window 15's block after the body, as a function of the fifteen input blocks: the single whole-block store of
    the projection payload, whose first five arguments are the first half's results on the loaded inputs. -/
def out1_15 (x0 : Vec F S2000x64 .f32) (x1 : Vec F S2000x64 .f32) (x2 : Vec F S2000x64 .f32) (x3 : Vec F S2000x64 .f32) (x4 : Vec F S64x64 .f32) (x5 : Vec F S64x64 .f32) (x6 : Vec F S1x64 .f32) (x7 : Vec F S64x64 .f32) (x8 : Vec F S64x64 .f32) (x9 : Vec F S1x64 .f32) (x10 : Vec F S64x64 .f32) (x11 : Vec F S64x64 .f32) (x12 : Vec F S1x64 .f32) (x13 : Vec F S64x64 .f32) (x14 : Vec F S1x64 .f32) : Vec F S2000x64 .f32 :=
  View.canon [⟨rA1, k1_pay2 (k1_pay3 (View.ld x2 rA1)) (View.ld x3 rA1) (k1_pay5 (View.ld x0 rA1) (View.ld x3 rA1) (View.ld x4 rB1) (View.ld x5 rB1) (View.ld x6 rC1)) (k1_pay6 (View.ld x1 rA1) (View.ld x3 rA1) (View.ld x7 rB1) (View.ld x8 rB1)) (k1_pay7 (View.ld x9 rC1)) (View.ld x10 rB1) (View.ld x11 rB1) (View.ld x12 rC1) (View.ld x13 rB1) (View.ld x14 rC1)⟩]

/-- Window 16's block after the body, as a function of the thirteen input blocks it reads (the last weight and
    bias row enter the projection only): the single whole-block store of the gated update. -/
def out1_16 (x0 : Vec F S2000x64 .f32) (x1 : Vec F S2000x64 .f32) (x2 : Vec F S2000x64 .f32) (x3 : Vec F S2000x64 .f32) (x4 : Vec F S64x64 .f32) (x5 : Vec F S64x64 .f32) (x6 : Vec F S1x64 .f32) (x7 : Vec F S64x64 .f32) (x8 : Vec F S64x64 .f32) (x9 : Vec F S1x64 .f32) (x10 : Vec F S64x64 .f32) (x11 : Vec F S64x64 .f32) (x12 : Vec F S1x64 .f32) : Vec F S2000x64 .f32 :=
  View.canon [⟨rA1, k1_pay1 (k1_pay3 (View.ld x2 rA1)) (View.ld x3 rA1) (k1_pay5 (View.ld x0 rA1) (View.ld x3 rA1) (View.ld x4 rB1) (View.ld x5 rB1) (View.ld x6 rC1)) (k1_pay6 (View.ld x1 rA1) (View.ld x3 rA1) (View.ld x7 rB1) (View.ld x8 rB1)) (k1_pay7 (View.ld x9 rC1)) (View.ld x10 rB1) (View.ld x11 rB1) (View.ld x12 rC1)⟩]

/-- Either store is the whole block, so every index of the block lies under it. -/
theorem cover1_15 (p0 : Vec F S2000x64 .f32) (y : S2000x64.Idx) :
    ∃ pc ∈ ([⟨rA1, p0⟩] : List (View.Piece (Elt F) S2000x64 .f32)), y ∈ pc.1.set :=
  View.cover_of_tiled [⟨rA1, p0⟩] S2000x64.size (by rfl) y
theorem cover1_16 (p0 : Vec F S2000x64 .f32) (y : S2000x64.Idx) :
    ∃ pc ∈ ([⟨rA1, p0⟩] : List (View.Piece (Elt F) S2000x64 .f32)), y ∈ pc.1.set :=
  View.cover_of_tiled [⟨rA1, p0⟩] S2000x64.size (by rfl) y

/-! ## The body as a triple -/

set_option maxHeartbeats 4000000 in
/-- Run on seventeen whole staging buffers — the inputs holding `x0 … x14`, the outputs holding anything — the body
    ends with the inputs unchanged and the outputs at `out1_15` and `out1_16` of them. The printed function and its
    first half are their skeletons of loads, stores and payloads; the skeletons are executed symbolically, the first
    half's results flowing into the second half's payloads; the contents each store leaves are the canonical contents
    of its store list because the store covers the block. -/
theorem sound_kernel1 (c : Dev nD) (E : Set ℕ) (i : grid1.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S64x64 .f32) (harg14 : arg14.IsWhole) (arg15 : Memref sig .tc .vmem S1x64 .f32) (harg15 : arg15.IsWhole) (arg16 : Memref sig .tc .vmem S2000x64 .f32) (harg16 : arg16.IsWhole) (arg17 : Memref sig .tc .vmem S2000x64 .f32) (harg17 : arg17.IsWhole)
    (x0 : Vec F S2000x64 .f32) (x1 : Vec F S2000x64 .f32) (x2 : Vec F S2000x64 .f32) (x3 : Vec F S2000x64 .f32) (x4 : Vec F S64x64 .f32) (x5 : Vec F S64x64 .f32) (x6 : Vec F S1x64 .f32) (x7 : Vec F S64x64 .f32) (x8 : Vec F S64x64 .f32) (x9 : Vec F S1x64 .f32) (x10 : Vec F S64x64 .f32) (x11 : Vec F S64x64 .f32) (x12 : Vec F S1x64 .f32) (x13 : Vec F S64x64 .f32) (x14 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out1_15 x0 x1 x2 x3 x4 x5 x6 x7 x8 x9 x10 x11 x12 x13 x14) ∗ owns (c : Thread nD τ) arg17 fullShare (out1_16 x0 x1 x2 x3 x4 x5 x6 x7 x8 x9 x10 x11 x12)) -∗ K ⟨⟩))
      ⊢ wp frame (wpE (defs₀ (F := F)) Variants.none c none) E (cc1__gate_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1__gate_kernel_eq_skeleton]; unfold cc1__gate_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    try dsimp only
    exact View.read_writes_eq_canon _ _ _ (cover1_15 _)
  iexists _; isplitr
  swap; · iexact H16
  ipureintro
  try dsimp only
  exact View.read_writes_eq_canon _ _ _ (cover1_16 _)

/-! ## The pipeline's proof data -/

/-- The data the pipeline rule asks for, on core `c`: each window's array as the region finds it (`V`); after
    the body at point `t`, an input's buffer still at its block and each output's at its `out1_W` of the input
    blocks; the invariant that only carries the untouched scoped buffers and the generator register along; full
    shares; nothing owed to any other core. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    | ⟨16, _⟩ => out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t)
    | ⟨_ + 17, h⟩ => absurd h (Nat.not_lt.2 (Nat.le_add_left _ _))
  Φ _ := Pipeline.ΦA spec1 c
  q _ := fullShare
  owed _ := 0

/-- The data's arrays are the entry contents (the record's field, projected). -/
theorem A_eq1 (c : Dev nD) (w : Fin cfg1.W) : (dat1 V c).A w = V c (Pipeline.arrRef spec1 w) := by
  dsimp only [dat1]

/-- What the body leaves, one window at a time (the record's case split, reduced at each numeral). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) := by dsimp only [dat1]
theorem after1_16 (c : Dev nD) (t : Fin cfg1.N) : (dat1 V c).after 16 t = out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) := by dsimp only [dat1]

/-- So each input's buffer holds the block of the point when the body starts there. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d

/-! ## The body obligation at a point -/

/-- What the pipeline hands the body at point `t`: the invariant, the core's dues, and the seventeen current
    staging buffers at what they hold before the body, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d)))

/-- and what it wants back: the same, with the buffers at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t))

set_option maxHeartbeats 1000000 in
/-- The body at any point: the input buffers hold the point's blocks, so the body's triple applies at those blocks;
    the invariant and the dues are not touched and pass from before to after unchanged. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel1 c Set.univ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The obligation in the form the pipeline rule states it: the windows' conjunction spelt out one by one. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.RunIdeal.lean ====
/- THE RUN of @main from the launch to the return, and the frame claim read off it.

   @main is four segments in a row: a host stretch (one concatenation), the matrix-product region, a host stretch
   (37 operations) and the gate region. The contents of the TensorCore's unscoped buffers are followed through the
   four as a fold from the launch memory: a host stretch changes exactly what its operations write; a region changes
   exactly its windows' arrays, each to what the pipeline's write-backs leave. Each region's half is instantiated at
   the contents its predecessor leaves, the four are chained, and the launch theorem for a list of segments yields:
   every weakly fair execution terminates and the final memory is the last fold. An argument array is written by no
   host operation and is no output of either region, so the fold at it walks back to the launch memory. -/
import proofs.«111474_j1786706395616_1_alg».proof.Proof.MatmulRegionIdeal
import proofs.«111474_j1786706395616_1_alg».proof.Proof.GateRegionIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that an index lies in a rectangle as long as these blocks recurses once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between segments -/

/-- Core `c`'s buffers at launch. -/
abbrev W0 : Dev nD → Valuation τ sig (Elt F) := fun c b => (s₀ m ρ).mem ((c : Dev nD), b)
/-- After the first host stretch: what region 0 is entered at. -/
abbrev W1 : Dev nD → Valuation τ sig (Elt F) := fun c => StableHlo.after hostOps0 (W0 m ρ c)
/-- The same, read at the TensorCore's own references (the form a region's half takes). -/
abbrev V1 : (c : Dev nD) → (b : Ref sig .tc) → Buf (Elt F) ((c : Thread nD τ).loc b) := fun c b => W1 m ρ c b
/-- When region 0 ends: each of its windows' arrays at what the pipeline leaves there after the last point (an input's
    as entered, the output's with every block written back), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
/-- The two facts the exit of region 0 needs: its arrays hold what the pipeline leaves, everything else what it held. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what region 1 is entered at. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- When region 1 ends: its windows' arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## What the host stretches write -/

/-- The one reference the first stretch writes, and the 37 the second writes: each operation's result. -/
abbrev written0 : List (Ref sig .tc) := [main_v0]
abbrev written1 : List (Ref sig .tc) := [main_v2, main_v3, main_v4, main_v5, main_c, main_v6, main_v7, main_c_0, main_v8, main_v9, main_v10, main_v11, main_v12, main_v13, main_v14, main_v15, main_cst, main_v16, main_v17, main_v18, main_v19, main_v20, main_v21, main_v22, main_v23, main_v24, main_v25, main_v26, main_v27, main_v28, main_v29, main_v30, main_v31, main_v32, main_v33, main_v34, main_v35]

theorem hostOps0_writes : (hostOps0 : List (HloOp τ sig (Elt F))).Forall fun op => op.writes ⊆ (written0.map (Proc.devRef (τ := τ) .tc)).toFinset := by
  simp only [List.Forall, StableHlo.nary_writes, Finset.singleton_subset_iff, List.mem_toFinset]
  exact List.mem_map_of_mem (by decide)
theorem hostOps1_writes : (hostOps1 : List (HloOp τ sig (Elt F))).Forall fun op => op.writes ⊆ (written1.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, StableHlo.nary_writes, Finset.singleton_subset_iff, List.mem_toFinset]
    exact List.mem_map_of_mem (by decide)

/-- A reference a stretch does not write holds after the stretch what it held before. -/
theorem hostOps0_keeps (W : Valuation τ sig (Elt F)) (r : Ref sig .tc) (hr : r ∉ written0) :
    StableHlo.after hostOps0 W (Proc.devRef .tc r) = W (Proc.devRef .tc r) :=
  StableHlo.after_of_writes_sub hostOps0 W hostOps0_writes hr
theorem hostOps1_keeps (W : Valuation τ sig (Elt F)) (r : Ref sig .tc) (hr : r ∉ written1) :
    StableHlo.after hostOps1 W (Proc.devRef .tc r) = W (Proc.devRef .tc r) :=
  StableHlo.after_of_writes_sub hostOps1 W hostOps1_writes hr

/-! ## The arguments end as launched -/

/-- A buffer that is no array of either region and that neither host stretch writes holds at the end what the launch
    memory holds: each step of the fold leaves it alone. -/
theorem W4_of_untouched (c : Dev nD) (b : Ref sig .tc) (h1 : ∀ w, Pipeline.arrRef spec1 w ≠ b) (hw1 : b ∉ written1)
    (h0 : ∀ w, Pipeline.arrRef spec0 w ≠ b) (hw0 : b ∉ written0) :
    W4 m ρ c (Proc.devRef .tc b) = m ((c : Thread nD τ).loc b) :=
  calc W4 m ρ c (Proc.devRef .tc b)
    _ = W3 m ρ c (Proc.devRef .tc b) := W4_of_ne m ρ c b h1
    _ = W2 m ρ c (Proc.devRef .tc b) := hostOps1_keeps _ b hw1
    _ = W1 m ρ c (Proc.devRef .tc b) := W2_of_ne m ρ c b h0
    _ = W0 m ρ c (Proc.devRef .tc b) := hostOps0_keeps _ b hw0
    _ = m ((c : Thread nD τ).loc b) := rfl

/-- `main_arg0` is the array of region 0's first input window: the region never writes an input's array back, so it
    leaves the region as it entered; no host operation writes it and region 1 does not have it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := hostOps1_keeps _ main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := hostOps0_keeps _ main_arg0 (by decide)
    _ = m ((c : Thread nD τ).loc main_arg0) := rfl
theorem W4_main_arg1 (c : Dev nD) : W4 m ρ c (Proc.devRef .tc main_arg1) = m ((c : Thread nD τ).loc main_arg1) :=
  W4_of_untouched m ρ c main_arg1 (by decide) (by decide) (by decide) (by decide)
/-- `main_arg2` is the array of region 1's input window 3: the region leaves it as it entered; nothing before the
    region writes it. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := (W4_arr m ρ c 3).trans (((dat1 (V3 m ρ) c).arrAt_in 3 rfl _).trans (A_eq1 (V3 m ρ) c 3))
    _ = W2 m ρ c (Proc.devRef .tc main_arg2) := hostOps1_keeps _ main_arg2 (by decide)
    _ = W1 m ρ c (Proc.devRef .tc main_arg2) := W2_of_ne m ρ c main_arg2 (by decide)
    _ = W0 m ρ c (Proc.devRef .tc main_arg2) := hostOps0_keeps _ main_arg2 (by decide)
    _ = m ((c : Thread nD τ).loc main_arg2) := rfl
theorem W4_main_arg3 (c : Dev nD) : W4 m ρ c (Proc.devRef .tc main_arg3) = m ((c : Thread nD τ).loc main_arg3) :=
  W4_of_untouched m ρ c main_arg3 (by decide) (by decide) (by decide) (by decide)
theorem W4_main_arg4 (c : Dev nD) : W4 m ρ c (Proc.devRef .tc main_arg4) = m ((c : Thread nD τ).loc main_arg4) :=
  W4_of_untouched m ρ c main_arg4 (by decide) (by decide) (by decide) (by decide)
theorem W4_main_arg5 (c : Dev nD) : W4 m ρ c (Proc.devRef .tc main_arg5) = m ((c : Thread nD τ).loc main_arg5) :=
  W4_of_untouched m ρ c main_arg5 (by decide) (by decide) (by decide) (by decide)
theorem W4_main_arg6 (c : Dev nD) : W4 m ρ c (Proc.devRef .tc main_arg6) = m ((c : Thread nD τ).loc main_arg6) :=
  W4_of_untouched m ρ c main_arg6 (by decide) (by decide) (by decide) (by decide)
theorem W4_main_arg7 (c : Dev nD) : W4 m ρ c (Proc.devRef .tc main_arg7) = m ((c : Thread nD τ).loc main_arg7) :=
  W4_of_untouched m ρ c main_arg7 (by decide) (by decide) (by decide) (by decide)
theorem W4_main_arg8 (c : Dev nD) : W4 m ρ c (Proc.devRef .tc main_arg8) = m ((c : Thread nD τ).loc main_arg8) :=
  W4_of_untouched m ρ c main_arg8 (by decide) (by decide) (by decide) (by decide)
theorem W4_main_arg9 (c : Dev nD) : W4 m ρ c (Proc.devRef .tc main_arg9) = m ((c : Thread nD τ).loc main_arg9) :=
  W4_of_untouched m ρ c main_arg9 (by decide) (by decide) (by decide) (by decide)
theorem W4_main_arg10 (c : Dev nD) : W4 m ρ c (Proc.devRef .tc main_arg10) = m ((c : Thread nD τ).loc main_arg10) :=
  W4_of_untouched m ρ c main_arg10 (by decide) (by decide) (by decide) (by decide)
theorem W4_main_arg11 (c : Dev nD) : W4 m ρ c (Proc.devRef .tc main_arg11) = m ((c : Thread nD τ).loc main_arg11) :=
  W4_of_untouched m ρ c main_arg11 (by decide) (by decide) (by decide) (by decide)
theorem W4_main_arg12 (c : Dev nD) : W4 m ρ c (Proc.devRef .tc main_arg12) = m ((c : Thread nD τ).loc main_arg12) :=
  W4_of_untouched m ρ c main_arg12 (by decide) (by decide) (by decide) (by decide)
theorem W4_main_arg13 (c : Dev nD) : W4 m ρ c (Proc.devRef .tc main_arg13) = m ((c : Thread nD τ).loc main_arg13) :=
  W4_of_untouched m ρ c main_arg13 (by decide) (by decide) (by decide) (by decide)
theorem W4_main_arg14 (c : Dev nD) : W4 m ρ c (Proc.devRef .tc main_arg14) = m ((c : Thread nD τ).loc main_arg14) :=
  W4_of_untouched m ρ c main_arg14 (by decide) (by decide) (by decide) (by decide)
/-- `main_arg15` is the array of region 1's input window 13: the region leaves it as it entered; nothing before the
    region writes it. -/
theorem W4_main_arg15 (c : Dev nD) : W4 m ρ c (Proc.devRef .tc main_arg15) = m ((c : Thread nD τ).loc main_arg15) :=
  calc W4 m ρ c (Proc.devRef .tc main_arg15)
    _ = W3 m ρ c (Proc.devRef .tc main_arg15) := (W4_arr m ρ c 13).trans (((dat1 (V3 m ρ) c).arrAt_in 13 rfl _).trans (A_eq1 (V3 m ρ) c 13))
    _ = W2 m ρ c (Proc.devRef .tc main_arg15) := hostOps1_keeps _ main_arg15 (by decide)
    _ = W1 m ρ c (Proc.devRef .tc main_arg15) := W2_of_ne m ρ c main_arg15 (by decide)
    _ = W0 m ρ c (Proc.devRef .tc main_arg15) := hostOps0_keeps _ main_arg15 (by decide)
    _ = m ((c : Thread nD τ).loc main_arg15) := rfl
theorem W4_main_arg16 (c : Dev nD) : W4 m ρ c (Proc.devRef .tc main_arg16) = m ((c : Thread nD τ).loc main_arg16) :=
  W4_of_untouched m ρ c main_arg16 (by decide) (by decide) (by decide) (by decide)
theorem W4_main_arg17 (c : Dev nD) : W4 m ρ c (Proc.devRef .tc main_arg17) = m ((c : Thread nD τ).loc main_arg17) :=
  W4_of_untouched m ρ c main_arg17 (by decide) (by decide) (by decide) (by decide)

/-! ## The proof data of both pipelines, and the thread state -/

/-- No pipeline has a prefetched table: the admissible contents are the trivial ones. -/
abbrev adm : (p : Fin 2) → (pcfgs (F := F) p).Adm := fun p => (cfgs p).toPCfg_adm
/-- Each pipeline's proof data at the contents its region is entered at. A literal case split on the pipeline's index,
    so that at a numeral the pinned configuration reduces to the printed one. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything, so no pair of cores is assigned a level. -/
abbrev L : GSem nD τ sig → Finset Unit := fun _ => ∅
abbrev lv : GSem nD τ sig → Unit → ℕ := fun _ _ => 0
/-- What travels beside the buffers through every segment: the core's generator register at some state, and its dues,
    which are none. -/
abbrev R (c : Dev nD) : sProp 𝕄 := iprop((∃ r, prngReg c r) ∗ ∃ W, owes (c : Thread nD τ) (0 : CellTallies nD τ sig Unit) W)
/-- A host stretch as a segment: run from the unscoped buffers at `W`, it leaves them at `StableHlo.after ops (W c)`;
    `R` is not touched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is one of those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the dues: every unscoped buffer at the last contents `W4`, the generator register at
    some state. -/
abbrev Tₙ (c : Dev nD) : sProp 𝕄 := iprop(StableHlo.held (c : Thread nD τ) (Pipeline.ucRefs τ sig) (W4 m ρ c) ∗ ∃ r, prngReg c r)

/-! ## The regions as segments -/

-- applying a library lemma stated over the pinned configuration `pin pcs a p` to the printed one needs unification to
-- unfold plain definitions inside a metavariable's type
set_option backward.isDefEq.respectTransparency.types false in
/-- Region 0 as a segment over the thread state. It is entered holding every unscoped buffer at `W1` and left holding
    them at `W2` (what the next host stretch starts from). On entry the region's arrays are split out of the unscoped buffers and the rest
    set aside; the generator register goes into the pipeline's invariant and comes back out of it; on exit the arrays,
    now at what the write-backs left, are joined with the rest again. The core owes nothing and the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration `pin pcs a p` to the printed one needs unification to
-- unfold plain definitions inside a metavariable's type
set_option backward.isDefEq.respectTransparency.types false in
/-- Region 1 as a segment over the thread state. It is entered holding every unscoped buffer at `W3` and left holding
    them at `W4` (the contents the end of @main is read at). On entry the region's arrays are split out of the unscoped buffers and the rest
    set aside; the generator register goes into the pipeline's invariant and comes back out of it; on exit the arrays,
    now at what the write-backs left, are joined with the rest again. The core owes nothing and the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its segments, and the launch -/

/-- The four segments in @main's order, each host stretch from the contents at its boundary. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of these segments: it is the chain of its items, and the segments' run is the same chain. -/
theorem main_run (c : Dev nD) : main (F := F) c = Pipeline.Seg.run (segs m ρ) := (main_chain c).trans (by chain_rfl)

-- the launch theorem's implicit arguments are found by unifying its conclusion with this statement, which needs
-- unification to unfold plain definitions inside a metavariable's type
set_option backward.isDefEq.respectTransparency.types false in
/-- From any memory `m` with every counter at zero, every weakly fair execution of @main on the TensorCores terminates
    without fault, and the final memory holds, at every unscoped buffer of every core, the last contents `W4` of the
    fold: the launch deals the first thread state, the segments chain, and the last thread state is read against the
    final state buffer by buffer. -/
theorem run_all : θ_run defs (onTc (τ := τ) (main (F := F))) ⟨m, fun _ => 0, ρ⟩
    (fun r => ∀ c : Dev nD, ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every weakly fair execution of @main terminates without fault and every argument array ends holding
    what it held at launch — each argument is an unscoped buffer, so the final memory has it at `W4`, which at an
    argument is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c),
      (h c _ (mem_uc main_arg11 (by decide))).trans (W4_main_arg11 m ρ c),
      (h c _ (mem_uc main_arg12 (by decide))).trans (W4_main_arg12 m ρ c),
      (h c _ (mem_uc main_arg13 (by decide))).trans (W4_main_arg13 m ρ c),
      (h c _ (mem_uc main_arg14 (by decide))).trans (W4_main_arg14 m ρ c),
      (h c _ (mem_uc main_arg15 (by decide))).trans (W4_main_arg15 m ρ c),
      (h c _ (mem_uc main_arg16 (by decide))).trans (W4_main_arg16 m ρ c),
      (h c _ (mem_uc main_arg17 (by decide))).trans (W4_main_arg17 m ρ c)⟩) (run_all m ρ)

end Cert.KernelIdeal.Hand

end
-- ==== Proof.LibMatmulZero.lean ====
/-
  A matrix product into a zero accumulator, read at one output index, at the extended reals.

  `matmul_zero_apply`: for a product that contracts ONE axis of extent `K`, the entry at an output index `j` is the sum
  over `k : Fin K` of the left operand at `li k` times the right operand at `ri k`, for ANY naming `li`, `ri` of the two
  operand indices whose coordinates are the product's own at `j` and the contracted position `k` (two per-axis
  hypotheses, closed at literal shapes by the dimension numbers' facts). It re-indexes the product's sum over its
  contraction shape to a sum over `Fin K`, so that a value proof can state a layer as `∑ k, a k * W k j`.
-/
import Idealize.ShloMosaic.Lib.ValueIdx
import Idealize.ShloMosaic.PureOps.Ideal.Laws

noncomputable section

namespace Cert.LibMatmulZero

open Idealize.ShloMosaic Idealize.ShloMosaic.ValueIdx

/-- A product contracting ONE axis of extent `K`, into the zero accumulator, read at an output index `j`: the sum over
    `k` of the left operand at `li k` times the right at `ri k`, for any naming `li`, `ri` of the operand indices whose
    coordinates are the product's own (`hl`, `hr'`). -/
theorem matmul_zero_apply {sl sr so : Shape} {φ₁ φ₂ : FTy} (d : DotDims sl sr so) (K : Nat) (hr : d.contr.rank = 1)
    (hs : d.contr.size ⟨0, by omega⟩ = K) (A : FVec Ideal sl φ₁) (B : FVec Ideal sr φ₂) (j : so.Idx)
    (li : Fin K → sl.Idx) (ri : Fin K → sr.Idx)
    (hl : ∀ k a, (d.lhsIdx j ((contrEquiv1 d K hr hs).symm k) a).val = (li k a).val)
    (hr' : ∀ k a, (d.rhsIdx j ((contrEquiv1 d K hr hs).symm k) a).val = (ri k a).val) :
    FloatOps.matmul d none A B (constant so .f32 0x00000000#32) j = ∑ k : Fin K, A (li k) * B (ri k) := by
  refine (Ideal.matmul_constant_zero_apply d none A B j).trans ?_
  rw [← Equiv.sum_comp (contrEquiv1 d K hr hs).symm]
  refine Finset.sum_congr rfl fun k _ => ?_
  rw [show d.lhsIdx j ((contrEquiv1 d K hr hs).symm k) = li k from funext fun a => Fin.ext (hl k a),
    show d.rhsIdx j ((contrEquiv1 d K hr hs).symm k) = ri k from funext fun a => Fin.ext (hr' k a)]

end Cert.LibMatmulZero

end
-- ==== Proof.LibMatmulRows.lean ====
/-
  A matrix product contracting the one shared axis, into a zero accumulator, read at an index, at the ideal values.

  For an `a × b` left operand and a `b × c` right operand (dimension numbers: contract the left's axis 1 with the
  right's axis 0, no batch axes), entry `(p, n)` of the product is `Σ_k A(p, k) · B(k, n)`: the sum of the exact
  products, the zero the accumulator starts from adding nothing.
-/
import Idealize.ShloMosaic.Lib.ValueIdx
import Idealize.ShloMosaic.PureOps.Ideal.Laws
import proofs.«111474_j1786706395616_1_alg».proof.Proof.LibMatmulZero

noncomputable section

namespace Cert.LibMatmulRows

open Idealize.ShloMosaic Idealize.ShloMosaic.ValueIdx

variable {a b c : ℕ}

/-- The dimension numbers of an `a × b` by `b × c` product over the shared axis. -/
abbrev rowsDims (wf : DotDims.WF ⟨2, ![a, b]⟩ ⟨2, ![b, c]⟩ ⟨2, ![a, c]⟩ [1] [0] [0] [1] [] []) :
    DotDims ⟨2, ![a, b]⟩ ⟨2, ![b, c]⟩ ⟨2, ![a, c]⟩ where
  lhsContracting := [1]
  rhsContracting := [0]
  lhsNonContracting := [0]
  rhsNonContracting := [1]
  lhsBatch := []
  rhsBatch := []
  wf := wf

/-- THE PRODUCT READ AT `(p, n)`, for the record `rowsDims`. -/
theorem rowsDims_matmul_apply {φ₁ φ₂ : FTy} (wf : DotDims.WF ⟨2, ![a, b]⟩ ⟨2, ![b, c]⟩ ⟨2, ![a, c]⟩ [1] [0] [0] [1] [] [])
    (A : FVec Ideal ⟨2, ![a, b]⟩ φ₁) (B : FVec Ideal ⟨2, ![b, c]⟩ φ₂) (p : Fin a) (n : Fin c) :
    FloatOps.matmul (rowsDims wf) none A B (constant ⟨2, ![a, c]⟩ .f32 0x00000000#32) (ix2 p n)
      = ∑ k : Fin b, A (ix2 p k) * B (ix2 k n) := by
  refine Cert.LibMatmulZero.matmul_zero_apply (rowsDims wf) b rfl rfl A B (ix2 p n) (fun k => ix2 p k) (fun k => ix2 k n) ?_ ?_
  · intro k ax
    match ax with
    | ⟨0, _⟩ =>
      show ((rowsDims wf).lhsIdx (ix2 p n) ((contrEquiv1 (rowsDims wf) b rfl rfl).symm k) 0).val = p.val
      unfold DotDims.lhsIdx
      rw [dif_neg (show ¬(0 : Fin 2) ∈ (rowsDims wf).lhsBatch from List.not_mem_nil),
        dif_pos (show (0 : Fin 2) ∈ (rowsDims wf).lhsNonContracting from List.mem_singleton.mpr rfl)]
      rfl
    | ⟨1, _⟩ =>
      exact ((rowsDims wf).lhsIdx_val_of_single rfl (ix2 p n) _).trans (contrEquiv1_symm_val (rowsDims wf) b rfl rfl k)
  · intro k ax
    match ax with
    | ⟨0, _⟩ =>
      exact ((rowsDims wf).rhsIdx_val_of_single rfl (ix2 p n) _).trans (contrEquiv1_symm_val (rowsDims wf) b rfl rfl k)
    | ⟨1, _⟩ =>
      show ((rowsDims wf).rhsIdx (ix2 p n) ((contrEquiv1 (rowsDims wf) b rfl rfl).symm k) 1).val = n.val
      unfold DotDims.rhsIdx
      rw [dif_neg (show ¬(1 : Fin 2) ∈ (rowsDims wf).rhsBatch from List.not_mem_nil),
        dif_pos (show (1 : Fin 2) ∈ (rowsDims wf).rhsNonContracting from List.mem_singleton.mpr rfl)]
      rfl

/-- THE PRODUCT READ AT `(p, n)`, for any dimension-number record with the six lists of such a product (each
    hypothesis is `rfl` for a record written with those literal fields, whatever proves its `wf`). -/
theorem matmul_rows_apply {φ₁ φ₂ : FTy} (d : DotDims ⟨2, ![a, b]⟩ ⟨2, ![b, c]⟩ ⟨2, ![a, c]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![a, b]⟩ φ₁) (B : FVec Ideal ⟨2, ![b, c]⟩ φ₂) (p : Fin a) (n : Fin c) :
    FloatOps.matmul d none A B (constant ⟨2, ![a, c]⟩ .f32 0x00000000#32) (ix2 p n)
      = ∑ k : Fin b, A (ix2 p k) * B (ix2 k n) := by
  obtain ⟨lc, rc, ln, rn, lb, rb, wf⟩ := d
  dsimp only at hlc hrc hln hrn hlb hrb
  subst hlc hrc hln hrn hlb hrb
  exact rowsDims_matmul_apply wf A B p n

end Cert.LibMatmulRows

end
-- ==== Proof.MatmulPayload.lean ====
/-
  The first kernel's stored value, read at one element, at the ideal values: a block of 10000 node rows against the
  64 × 192 matrix of the three weight matrices side by side, into a zero accumulator — entry `(r, n)` is
  `Σ_k x(r, k) · w(k, n)`, the format changes being the identity on the extended reals.
-/
import proofs.«111474_j1786706395616_1_alg».proof.Proof.Gen.KernelIdeal.Skeleton
import proofs.«111474_j1786706395616_1_alg».proof.Proof.LibMatmulRows
import Idealize.ShloMosaic.Lib.ValueIdx
import Idealize.ShloMosaic.Lib.Pipeline.Value

noncomputable section

namespace Cert.KernelIdeal.ProductValue

open Idealize.ShloMosaic Idealize.ShloMosaic.ValueIdx Cert.KernelIdeal Cert.KernelIdeal.Gen

/-- THE PRODUCT the body stores, at `(r, n)`. -/
theorem product_at (x0 : Vec Ideal S10000x64 .f32) (x1 : Vec Ideal S64x192 .f32) (r : Fin 10000) (n : Fin 192) :
    k0_pay1 (F := Ideal) x0 x1 (ix2 r n) = ∑ k : Fin 64, x0 (ix2 r k) * x1 (ix2 k n) := by
  unfold k0_pay1
  refine (Cert.LibMatmulRows.matmul_rows_apply dot_S10000x64_S64x192_S10000x192_1_0_0_1_n_n rfl rfl rfl rfl rfl rfl _ _ r n).trans ?_
  simp only [truncf_apply, shapeCast_self]

end Cert.KernelIdeal.ProductValue

end
-- ==== Proof.MatmulArray.lean ====
/-
  What the first region leaves in its result array, as one function of the arrays it is entered with.

  The grid has ten points; point `t` stages rows `10000 t … 10000 t + 9999` of the node features and the whole
  64 × 192 weight matrix, and writes back rows `10000 t …` of the result. Each written element `(r, n)` of that
  block is `Σ_k x(r, k) · w(k, n)` of the staged blocks, that is, element `(10000 t + r, n)` of the array of
  products `Σ_k X(p, k) · W(k, n)`. The ten row blocks tile the result array, so it ends holding that array.
-/
import proofs.«111474_j1786706395616_1_alg».proof.Proof.MatmulRegionIdeal
import proofs.«111474_j1786706395616_1_alg».proof.Proof.MatmulPayload
import Idealize.ShloMosaic.Lib.Pipeline.Value

set_option maxRecDepth 16384

noncomputable section

namespace Cert.KernelIdeal.ProductArray

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.KernelIdeal.ProductValue

variable (V : (c : Dev nD) → (b : Ref sig .tc) → Buf (Elt Ideal) ((c : Thread nD τ).loc b))

theorem hz : (![0, 0] : Fin 2 → Nat) = fun _ => 0 := funext fun a => by fin_cases a <;> rfl

/-- Entry `(p, n)` of the product of the node features with the weight matrix. -/
def prodAt (X : S100000x64.Idx → EReal) (Wc : S64x192.Idx → EReal) (p : Fin 100000) (n : Fin 192) : EReal :=
  ∑ k : Fin 64, X (ix2 p k) * Wc (ix2 k n)
/-- The array of products. -/
def prodArr (X : S100000x64.Idx → EReal) (Wc : S64x192.Idx → EReal) : S100000x192.Idx → EReal :=
  fun i => prodAt X Wc (i 0) (i 1)

/-- The array of products at an index given by its coordinates. -/
theorem prodArr_apply (X : S100000x64.Idx → EReal) (Wc : S64x192.Idx → EReal) (p : Fin 100000) (n : Fin 192) :
    prodArr X Wc (ix2 p n) = prodAt X Wc p n := rfl

/-- The block indices over the grid: the node rows and the result rows move with the point, the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The staged node rows at point `t`: row `r` of the block is row `10000 t + r` of the array. -/
theorem rows_at (c : Dev nD) (t : Fin cfg0.N) (r : Fin 10000) (k : Fin 64) (R : Fin 100000)
    (hR : R.val = t.val * 10000 + r.val) :
    (iblk0 V c 0 t : Vec Ideal S10000x64 .f32) (ix2 r k) = (V c main_arg0 : S100000x64.Idx → EReal) (ix2 R k) := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 10000 + 1 * r.val = R.val; rw [e0, hR]; omega
  | ⟨1, _⟩ => show win0_0.index t 1 * 64 + 1 * k.val = k.val; rw [e1]; omega

/-- The staged weights at any point are the whole matrix. -/
theorem weights_at (c : Dev nD) (t : Fin cfg0.N) (k : Fin 64) (n : Fin 192) :
    (iblk0 V c 1 t : Vec Ideal S64x192 .f32) (ix2 k n) = (V c main_v0 : S64x192.Idx → EReal) (ix2 k n) := by
  obtain ⟨-, -, e2, e3, -⟩ := idx_facts t
  unfold iblk0
  rw [View.read_apply]
  show V c main_v0 _ = V c main_v0 _
  congr 1
  funext a
  apply Fin.ext
  match a with
  | ⟨0, _⟩ => show win0_1.index t 0 * 64 + 1 * k.val = k.val; rw [e2]; omega
  | ⟨1, _⟩ => show win0_1.index t 1 * 192 + 1 * n.val = n.val; rw [e3]; omega

/-- WHAT POINT `t` WRITES BACK is block `t` of the array of products. -/
theorem flushed_eq (c : Dev nD) (t : Fin cfg0.N) :
    (dat0 V c).flushed 2 t = ((cfg0.win 2).blk t).view.read (Elt Ideal) (prodArr (V c main_arg0) (V c main_v0)) := by
  obtain ⟨-, -, -, -, e4, e5⟩ := idx_facts t
  show (cfg0.win 2).cut (grid0.coords t) ((dat0 V c).after 2 t) = _
  rw [after0_2]
  unfold out0_2
  rw [View.canon_unit_zero hz]
  simp only [View.ld_unit_zero (S := S10000x64) hz, View.ld_unit_zero (S := S64x192) hz]
  funext j
  obtain ⟨r, n, rfl⟩ : ∃ (r : Fin 10000) (n : Fin 192), j = ix2 r n := ⟨j 0, j 1, eq_ix2 j⟩
  have hN : cfg0.N = 10 := N_0
  have hRlt : t.val * 10000 + r.val < 100000 := by have := t.isLt; have := r.isLt; omega
  have hemb : ((cfg0.win 2).blk t).view.emb (ix2 r n) = ix2 (⟨t.val * 10000 + r.val, hRlt⟩ : Fin 100000) n := by
    funext a
    apply Fin.ext
    match a with
    | ⟨0, _⟩ => show win0_2.index t 0 * 10000 + 1 * r.val = t.val * 10000 + r.val; rw [e4]; omega
    | ⟨1, _⟩ => show win0_2.index t 1 * 192 + 1 * n.val = n.val; rw [e5]; omega
  show k0_pay1 (iblk0 V c 0 t) (iblk0 V c 1 t) (ix2 r n)
    = prodArr (V c main_arg0) (V c main_v0) (((cfg0.win 2).blk t).view.emb (ix2 r n))
  rw [hemb]
  refine (product_at (iblk0 V c 0 t) (iblk0 V c 1 t) r n).trans ?_
  show _ = prodAt (V c main_arg0) (V c main_v0) ⟨t.val * 10000 + r.val, hRlt⟩ n
  unfold prodAt
  refine Finset.sum_congr rfl fun k _ => ?_
  rw [rows_at V c t r k ⟨t.val * 10000 + r.val, hRlt⟩ rfl, weights_at V c t k n]

/-- The ten row blocks cover the result array: row `p` is in the block of point `p / 10000`. -/
theorem cover (i : S100000x192.Idx) :
    ∃ t : Fin cfg0.N, (cfg0.win 2).flush t = true ∧ i ∈ ((cfg0.win 2).blk t).view.set := by
  have hi0 : (i 0).val < 100000 := (i 0).isLt
  have hi1 : (i 1).val < 192 := (i 1).isLt
  have hN : cfg0.N = 10 := N_0
  have ht : (i 0).val / 10000 < cfg0.N := by omega
  refine ⟨⟨(i 0).val / 10000, ht⟩, flush0_2 _, ?_⟩
  obtain ⟨-, -, -, -, e4, e5⟩ := idx_facts ⟨(i 0).val / 10000, ht⟩
  show i ∈ ((View.whole main_v1).slice (win0_2.rect ⟨(i 0).val / 10000, ht⟩)).set
  rw [View.set_slice_whole, Rect.mem_set_unit]
  intro a
  match a with
  | ⟨0, _⟩ =>
    show win0_2.index ⟨(i 0).val / 10000, ht⟩ 0 * 10000 ≤ (i 0).val
      ∧ (i 0).val < win0_2.index ⟨(i 0).val / 10000, ht⟩ 0 * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ 1 * 192 ≤ (i 1).val
      ∧ (i 1).val < win0_2.index ⟨(i 0).val / 10000, ht⟩ 1 * 192 + 192
    rw [e5]; omega

/-- THE RESULT ARRAY after the region: the array of products of the arrays the region is entered with. -/
theorem product_array (c : Dev nD) :
    (dat0 V c).arrAt 2 cfg0.N = prodArr (V c main_arg0) (V c main_v0) :=
  (dat0 V c).arrAt_eq_of_cover 2 (prodArr (V c main_arg0) (V c main_v0)) (fun t _ => flushed_eq V c t) (cover)

end Cert.KernelIdeal.ProductArray

end
-- ==== Proof.LibGatherAxis0.lean ====
/-
  `stablehlo.gather` along axis 0 at one column of start indices, read at an index.

  What `x[idx]` lowers to when `idx : [E]` is viewed as `[E, 1]` (index_vector_dim 1): for a flat table
  `x : [N]` the result `[E]` (no offset axis), for a table of rows `x : [N, D]` the result `[E, D]`
  (offset axis 1, whole rows: slice sizes `[1, D]`). In both, result entry `e` (and column `k`) is the table at
  the row `idx[e, 0]` read as a signed integer and clamped into `[0, N - 1]` (and at column `k`).
-/
import Idealize.ShloMosaic.Lib.ValueIdx

noncomputable section

namespace Idealize.ShloMosaic.GatherAxis0

open Idealize.ShloMosaic Idealize.ShloMosaic.ValueIdx

variable {α : Type}

/-- The row of a table of `n` rows a start index reads: the word read signed, clamped into `[0, n - 1]`. -/
def row {w : Nat} (n : Nat) (hn : 0 < n) (x : BitVec w) : Fin n := ⟨min x.toInt.toNat (n - 1), by omega⟩

/-- The start-indices index `[e, 0]` of the result's row `e`. -/
abbrev colIdx {E : Nat} (e : Fin E) : (⟨2, ![E, 1]⟩ : Shape).Idx := ix2 e (⟨0, Nat.one_pos⟩ : Fin 1)

/-- The dimension numbers of a flat table `[N]` gathered at start indices `[E, 1]` into `[E]`. -/
abbrev flatDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the table at the start index `idx[e, 0]`, read signed and clamped into `[0, N - 1]`. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (flatDims N E wf) x idx y = x (ix1 (row N hN (idx (colIdx (y 0))))) := by
  unfold Host.gather
  congr 1
  funext a
  obtain rfl : a = 0 := Subsingleton.elim _ _
  refine Fin.ext ?_
  show (flatDims N E wf).start y idx 0 + (flatDims N E wf).batchCoord y 0 + (flatDims N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N E wf).startIndexMap from List.mem_singleton.mpr rfl)]
  have hsi : (flatDims N E wf).siIdx y ⟨List.idxOf (0 : Fin 1) (flatDims N E wf).startIndexMap,
      List.idxOf_lt_length_iff.2 (List.mem_singleton.mpr rfl)⟩ = colIdx (y 0) := by
    funext b; refine Fin.ext ?_
    match b with
    | ⟨0, _⟩ => rfl
    | ⟨1, _⟩ => rfl
  rw [hsi]
  rfl

/-- The dimension numbers of a table of rows `[N, D]` gathered whole-row at start indices `[E, 1]` into `[E, D]`. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, k)`: the table at the row `idx[e, 0]`, read signed and clamped into `[0, N - 1]`,
    and column `k`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowDims N D E wf) x idx (ix2 e k)
      = x (ix2 (row N hN (idx (colIdx e))) k) := by
  unfold Host.gather
  congr 1
  funext a
  refine Fin.ext ?_
  match a with
  | ⟨0, _⟩ =>
    show (rowDims N D E wf).start (ix2 e k) idx 0 + (rowDims N D E wf).batchCoord (ix2 e k) 0
      + (rowDims N D E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e k) ⟨List.idxOf (0 : Fin 2) (rowDims N D E wf).startIndexMap,
        List.idxOf_lt_length_iff.2 (List.mem_singleton.mpr rfl)⟩ = colIdx e := by
      funext b; refine Fin.ext ?_
      match b with
      | ⟨0, _⟩ => rfl
      | ⟨1, _⟩ => rfl
    rw [hsi]
    rfl
  | ⟨1, _⟩ =>
    show (rowDims N D E wf).start (ix2 e k) idx 1 + (rowDims N D E wf).batchCoord (ix2 e k) 1
      + (rowDims N D E wf).offCoord (ix2 e k) 1 = k.val
    rw [GatherDims.batchCoord_eq_zero _ _ _ List.not_mem_nil]
    unfold GatherDims.start
    rw [dif_neg (show (1 : Fin 2) ∉ (rowDims N D E wf).startIndexMap from
      fun h => absurd (List.mem_singleton.mp h) (show ¬ (1 : Fin 2) = 0 by decide))]
    simp only [Nat.add_zero, Nat.zero_add]
    unfold GatherDims.offCoord
    rw [dif_pos (show (1 : Fin 2) ∈ (rowDims N D E wf).sKept from
      (GatherDims.mem_sKept _ _).mpr ⟨fun h => absurd (List.mem_singleton.mp h) (show ¬ (1 : Fin 2) = 0 by decide), List.not_mem_nil⟩)]
    rfl

end Idealize.ShloMosaic.GatherAxis0

end
-- ==== Proof.Spec.lean ====
/-
  The mathematics both programs compute, as functions of the argument arrays on the extended reals.

  A graph of 100000 nodes and 800000 edges; node features `X` (100000 × 64), edge weights `ew`, a hidden state `Hs`
  (100000 × 64). One graph convolution with weight column `W(·, q)` and bias `b q` gives node `p` the value
      conv p = (0 + Σ_e [edge e lands on p] · (Σ_k X(src e, k) · W(k, q)) · ew e) + b q.
  Three of them (update, reset, candidate) feed a gated recurrent cell at each node: with
      lin c h top bot b = (Σ_k c k · top k + Σ_k h k · bot k) + b
  the linear form over the two halves of a 128 × 64 matrix,
      z = logistic (lin cz h ..),  r = logistic (lin cr h ..),  c = tanh (lin ch (h · r) ..),
      h' = z · h + (1 - z) · c,    y = Σ_k max (h' k) 0 · Wo(k, q) + bo q.
  The edge list enters only through two index columns: `sidx` (the source row of an edge, read signed and clamped
  into the nodes' range) and `didx` (the node the edge lands on, read signed).
-/
import Idealize.ShloMosaic.Lib.ValueIdx
import Idealize.ShloMosaic.PureOps.Ideal
import proofs.«111474_j1786706395616_1_alg».proof.Proof.LibGatherAxis0

noncomputable section

namespace Cert.GatedGraphCell

open Idealize.ShloMosaic Idealize.ShloMosaic.ValueIdx

/-- The float words the programs spell: zero and one (kept as words; both programs hold the same ones). -/
abbrev zeroF : EReal := Ideal.ofBits .f32 0x00000000#32
abbrev oneF : EReal := Ideal.ofBits .f32 0x3F800000#32

abbrev NodeMat : Shape := ⟨2, ![100000, 64]⟩
abbrev EdgeVec : Shape := ⟨1, ![800000]⟩
abbrev EdgeCol : Shape := ⟨2, ![800000, 1]⟩
abbrev Sq : Shape := ⟨2, ![64, 64]⟩
abbrev Tall : Shape := ⟨2, ![128, 64]⟩
abbrev Row : Shape := ⟨1, ![64]⟩

/-! ## The cell at one node, from the node's rows -/

/-- A gate's linear form: the convolution row against the top half's column, the state row against the bottom
    half's column, plus the bias. -/
def lin (cv hv top bot : Fin 64 → EReal) (bl : EReal) : EReal :=
  ((∑ k : Fin 64, cv k * top k) + (∑ k : Fin 64, hv k * bot k)) + bl

section Cell
variable (cz cr ch h : Fin 64 → EReal) (zt zb rt rb ct cb : Fin 64 → Fin 64 → EReal) (bz br bc : Fin 64 → EReal)

/-- The update gate at column `q`. -/
def cellZ (q : Fin 64) : EReal := Ideal.logistic (lin cz h (fun k => zt k q) (fun k => zb k q) (bz q))
/-- The reset gate at column `q`. -/
def cellR (q : Fin 64) : EReal := Ideal.logistic (lin cr h (fun k => rt k q) (fun k => rb k q) (br q))
/-- The candidate state at column `q`: the reset gate scales the state row before the bottom half. -/
def cellC (q : Fin 64) : EReal :=
  Ideal.tanh (lin ch (fun k => h k * cellR cr h rt rb br k) (fun k => ct k q) (fun k => cb k q) (bc q))
/-- The new state at column `q`. -/
def cellH (q : Fin 64) : EReal :=
  cellZ cz h zt zb bz q * h q + (oneF - cellZ cz h zt zb bz q) * cellC cr ch h rt rb ct cb br bc q
/-- The readout at column `q`: the new state's positive part against `wo`, plus the bias. -/
def cellY (wo : Fin 64 → Fin 64 → EReal) (bo : Fin 64 → EReal) (q : Fin 64) : EReal :=
  (∑ k : Fin 64, max (cellH cz cr ch h zt zb rt rb ct cb bz br bc k) zeroF * wo k q) + bo q
end Cell

/-! ## The graph convolution -/

/-- The source node of edge `e`: its entry of the source column read signed and clamped into the nodes' range. -/
def src (sidx : IVec EdgeCol 32) (e : Fin 800000) : Fin 100000 :=
  GatherAxis0.row 100000 (by decide) (sidx (GatherAxis0.colIdx e))

/-- One column of a graph convolution at node `p`: the messages of the edges landing on `p` — the source node's
    features against the weight column `wcol`, scaled by the edge's weight — summed into zero, plus the bias `bq`. -/
def conv (X : NodeMat.Idx → EReal) (ew : EdgeVec.Idx → EReal) (sidx didx : IVec EdgeCol 32)
    (wcol : Fin 64 → EReal) (bq : EReal) (p : Fin 100000) : EReal :=
  (zeroF + ∑ e : Fin 800000, if (didx (ix2 e 0)).toInt = (p.val : ℤ)
      then (∑ k : Fin 64, X (ix2 (src sidx e) k) * wcol k) * ew (ix1 e) else 0) + bq

/-! ## The two results -/

section
variable (X : NodeMat.Idx → EReal) (ew : EdgeVec.Idx → EReal) (Hs : NodeMat.Idx → EReal)
  (Wz : Sq.Idx → EReal) (bz : Row.Idx → EReal) (Wr : Sq.Idx → EReal) (br : Row.Idx → EReal)
  (Wh : Sq.Idx → EReal) (bh : Row.Idx → EReal)
  (Lz : Tall.Idx → EReal) (blz : Row.Idx → EReal) (Lr : Tall.Idx → EReal) (blr : Row.Idx → EReal)
  (Lh : Tall.Idx → EReal) (blh : Row.Idx → EReal) (Wo : Sq.Idx → EReal) (bo : Row.Idx → EReal)
  (sidx didx : IVec EdgeCol 32)

/-- The convolution with the matrix `W` and bias vector `b`, at node `p` and column `q`. -/
def convAt (W : Sq.Idx → EReal) (b : Row.Idx → EReal) (p : Fin 100000) (q : Fin 64) : EReal :=
  conv X ew sidx didx (fun k => W (ix2 k q)) (b (ix1 q)) p

/-- The top and the bottom half of a 128 × 64 matrix. -/
def top (L : Tall.Idx → EReal) (k q : Fin 64) : EReal := L (ix2 (Fin.castAdd 64 k) q)
def bot (L : Tall.Idx → EReal) (k q : Fin 64) : EReal := L (ix2 (Fin.natAdd 64 k) q)

/-- The new hidden state at node `p`, column `q`. -/
def hNew (p : Fin 100000) (q : Fin 64) : EReal :=
  cellH (convAt X ew sidx didx Wz bz p) (convAt X ew sidx didx Wr br p) (convAt X ew sidx didx Wh bh p)
    (fun k => Hs (ix2 p k)) (top Lz) (bot Lz) (top Lr) (bot Lr) (top Lh) (bot Lh)
    (fun q => blz (ix1 q)) (fun q => blr (ix1 q)) (fun q => blh (ix1 q)) q
/-- The readout at node `p`, column `q`. -/
def yOut (p : Fin 100000) (q : Fin 64) : EReal :=
  cellY (convAt X ew sidx didx Wz bz p) (convAt X ew sidx didx Wr br p) (convAt X ew sidx didx Wh bh p)
    (fun k => Hs (ix2 p k)) (top Lz) (bot Lz) (top Lr) (bot Lr) (top Lh) (bot Lh)
    (fun q => blz (ix1 q)) (fun q => blr (ix1 q)) (fun q => blh (ix1 q)) (fun k q => Wo (ix2 k q)) (fun q => bo (ix1 q)) q

/-- The two results as arrays. -/
def hArr : NodeMat.Idx → EReal := fun i => hNew X ew Hs Wz bz Wr br Wh bh Lz blz Lr blr Lh blh sidx didx (i 0) (i 1)
def yArr : NodeMat.Idx → EReal := fun i => yOut X ew Hs Wz bz Wr br Wh bh Lz blz Lr blr Lh blh Wo bo sidx didx (i 0) (i 1)
end

end Cert.GatedGraphCell

end
-- ==== Proof.GatePayload.lean ====
/-
  The second kernel's two stored values, read at one element, at the ideal values.

  The kernel holds a block of 2000 nodes: the three convolution rows, the state rows, the six 64 × 64 half matrices,
  three bias rows, the readout matrix and its bias. What it stores at row `r`, column `q` depends on row `r` of
  the four node blocks only, and is the gated cell of those rows (`cellH`), resp. its readout (`cellY`): every
  format change is the identity on the extended reals, each product into a zero accumulator is the plain sum over
  the shared axis, a bias row broadcast over the nodes reads its one row.
-/
import proofs.«111474_j1786706395616_1_alg».proof.Proof.Gen.KernelIdeal.Skeleton
import proofs.«111474_j1786706395616_1_alg».proof.Proof.Spec
import proofs.«111474_j1786706395616_1_alg».proof.Proof.LibMatmulRows
import Idealize.ShloMosaic.Lib.ValueIdx
import Idealize.ShloMosaic.Lib.ValueLayout
import Idealize.ShloMosaic.Lib.Pipeline.Value

noncomputable section

namespace Cert.KernelIdeal.CellValue

open Idealize.ShloMosaic Idealize.ShloMosaic.ValueIdx Cert.KernelIdeal Cert.KernelIdeal.Gen Cert.GatedGraphCell

/-- A 2000 × 64 by 64 × 64 product of the body into zero, at `(r, q)`: the sum over the shared axis. -/
theorem prod_at (A : FVec Ideal S2000x64 .bf16) (B : FVec Ideal S64x64 .bf16) (r : Fin 2000) (q : Fin 64) :
    matmul dot_S2000x64_S64x64_S2000x64_1_0_0_1_n_n none A B (constant S2000x64 .f32 0x00000000#32) (ix2 r q)
      = ∑ k : Fin 64, A (ix2 r k) * B (ix2 k q) :=
  Cert.LibMatmulRows.matmul_rows_apply dot_S2000x64_S64x64_S2000x64_1_0_0_1_n_n rfl rfl rfl rfl rfl rfl A B r q

/-- A bias row broadcast over the 2000 nodes reads its one row. -/
theorem bias_at (v : FVec Ideal S1x64 .f32) (r : Fin 2000) (q : Fin 64) :
    broadcastTo S2000x64 v broadcasts_S1x64_S2000x64 (ix2 r q) = v (ix2 (0 : Fin 1) q) :=
  broadcastTo_1b_ab_apply v broadcasts_S1x64_S2000x64 r q

section
variable (x0 x1 x2 x3 : Vec Ideal S2000x64 .f32) (x4 x5 : Vec Ideal S64x64 .f32) (x6 : Vec Ideal S1x64 .f32)
  (x7 x8 : Vec Ideal S64x64 .f32) (x9 : Vec Ideal S1x64 .f32) (x10 x11 : Vec Ideal S64x64 .f32) (x12 : Vec Ideal S1x64 .f32)
  (x13 : Vec Ideal S64x64 .f32) (x14 : Vec Ideal S1x64 .f32)

/-- The update gate the body computes, at `(r, q)`. -/
theorem update_at (r : Fin 2000) (q : Fin 64) :
    k1_pay5 (F := Ideal) x0 x3 x4 x5 x6 (ix2 r q)
      = cellZ (fun k => x0 (ix2 r k)) (fun k => x3 (ix2 r k)) (fun k n => x4 (ix2 k n)) (fun k n => x5 (ix2 k n))
          (fun n => x6 (ix2 (0 : Fin 1) n)) q := by
  unfold k1_pay5 k1_pay4 cellZ lin
  simp only [logistic, Ideal.logistic_def, addf_apply, prod_at, bias_at, truncf_apply, shapeCast_self]

/-- The reset gate's linear part before its bias, at `(r, q)`. -/
theorem reset_lin_at (r : Fin 2000) (q : Fin 64) :
    k1_pay6 (F := Ideal) x1 x3 x7 x8 (ix2 r q)
      = (∑ k : Fin 64, x1 (ix2 r k) * x7 (ix2 k q)) + (∑ k : Fin 64, x3 (ix2 r k) * x8 (ix2 k q)) := by
  unfold k1_pay6 k1_pay4
  simp only [addf_apply, prod_at, truncf_apply, shapeCast_self]

/-- THE NEW STATE the body stores, at `(r, q)`: the gated cell of row `r` of the four node blocks. -/
theorem state_at (r : Fin 2000) (q : Fin 64) :
    k1_pay1 (F := Ideal) (k1_pay3 x2) x3 (k1_pay5 x0 x3 x4 x5 x6) (k1_pay6 x1 x3 x7 x8) (k1_pay7 x9) x10 x11 x12 (ix2 r q)
      = cellH (fun k => x0 (ix2 r k)) (fun k => x1 (ix2 r k)) (fun k => x2 (ix2 r k)) (fun k => x3 (ix2 r k))
          (fun k n => x4 (ix2 k n)) (fun k n => x5 (ix2 k n)) (fun k n => x7 (ix2 k n)) (fun k n => x8 (ix2 k n))
          (fun k n => x10 (ix2 k n)) (fun k n => x11 (ix2 k n))
          (fun n => x6 (ix2 (0 : Fin 1) n)) (fun n => x9 (ix2 (0 : Fin 1) n)) (fun n => x12 (ix2 (0 : Fin 1) n)) q := by
  unfold k1_pay1 k1_pay3 k1_pay7 cellH cellC cellR lin
  simp only [logistic, tanh, Ideal.logistic_def, Ideal.tanh_def, addf_apply, mulf_apply, subf_apply, broadcast_apply,
    prod_at, bias_at, truncf_apply, shapeCast_self, update_at, reset_lin_at, Ideal.ofBits_def, Scalar.ofBits]

/-- THE READOUT the body stores, at `(r, q)`. -/
theorem readout_at (r : Fin 2000) (q : Fin 64) :
    k1_pay2 (F := Ideal) (k1_pay3 x2) x3 (k1_pay5 x0 x3 x4 x5 x6) (k1_pay6 x1 x3 x7 x8) (k1_pay7 x9) x10 x11 x12 x13 x14 (ix2 r q)
      = cellY (fun k => x0 (ix2 r k)) (fun k => x1 (ix2 r k)) (fun k => x2 (ix2 r k)) (fun k => x3 (ix2 r k))
          (fun k n => x4 (ix2 k n)) (fun k n => x5 (ix2 k n)) (fun k n => x7 (ix2 k n)) (fun k n => x8 (ix2 k n))
          (fun k n => x10 (ix2 k n)) (fun k n => x11 (ix2 k n))
          (fun n => x6 (ix2 (0 : Fin 1) n)) (fun n => x9 (ix2 (0 : Fin 1) n)) (fun n => x12 (ix2 (0 : Fin 1) n))
          (fun k n => x13 (ix2 k n)) (fun n => x14 (ix2 (0 : Fin 1) n)) q := by
  unfold k1_pay2 cellY
  simp only [addf_apply, maximumf_apply, broadcast_apply, prod_at, bias_at, truncf_apply, shapeCast_self, state_at,
    Ideal.ofBits_def, Scalar.ofBits]
end

end Cert.KernelIdeal.CellValue

end
-- ==== Proof.GateArray.lean ====
/-
  What the second region leaves in its two result arrays, as functions of the arrays it is entered with.

  The grid has fifty points; point `t` stages rows `2000 t … 2000 t + 1999` of the three convolution arrays and of
  the state, and the whole of every matrix and bias row, and writes back rows `2000 t …` of the two results. Element
  `(r, q)` of what it writes is the gated cell (its readout, for the first result) of row `r` of the staged node
  blocks, that is, of row `2000 t + r` of the arrays. The fifty row blocks tile each result array, so the two arrays
  end holding the cell, resp. its readout, of every node's rows.
-/
import proofs.«111474_j1786706395616_1_alg».proof.Proof.GateRegionIdeal
import proofs.«111474_j1786706395616_1_alg».proof.Proof.GatePayload
import Idealize.ShloMosaic.Lib.Pipeline.Value

set_option maxRecDepth 16384

noncomputable section

namespace Cert.KernelIdeal.CellArray

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.KernelIdeal.CellValue Cert.GatedGraphCell

variable (V : (c : Dev nD) → (b : Ref sig .tc) → Buf (Elt Ideal) ((c : Thread nD τ).loc b))

theorem hz : (![0, 0] : Fin 2 → Nat) = fun _ => 0 := funext fun a => by fin_cases a <;> rfl

/-- The new state at node `p`, column `q`, from the arrays the region is entered with. -/
def stateAt (c : Dev nD) (p : Fin 100000) (q : Fin 64) : EReal :=
  cellH (fun k => (V c main_v23 : S100000x64.Idx → EReal) (ix2 p k)) (fun k => (V c main_v24 : S100000x64.Idx → EReal) (ix2 p k))
    (fun k => (V c main_v25 : S100000x64.Idx → EReal) (ix2 p k)) (fun k => (V c main_arg2 : S100000x64.Idx → EReal) (ix2 p k))
    (fun k n => (V c main_v26 : S64x64.Idx → EReal) (ix2 k n)) (fun k n => (V c main_v27 : S64x64.Idx → EReal) (ix2 k n))
    (fun k n => (V c main_v28 : S64x64.Idx → EReal) (ix2 k n)) (fun k n => (V c main_v29 : S64x64.Idx → EReal) (ix2 k n))
    (fun k n => (V c main_v30 : S64x64.Idx → EReal) (ix2 k n)) (fun k n => (V c main_v31 : S64x64.Idx → EReal) (ix2 k n))
    (fun n => (V c main_v32 : S1x64.Idx → EReal) (ix2 (0 : Fin 1) n)) (fun n => (V c main_v33 : S1x64.Idx → EReal) (ix2 (0 : Fin 1) n))
    (fun n => (V c main_v34 : S1x64.Idx → EReal) (ix2 (0 : Fin 1) n)) q
/-- The readout at node `p`, column `q`, from the arrays the region is entered with. -/
def readoutAt (c : Dev nD) (p : Fin 100000) (q : Fin 64) : EReal :=
  cellY (fun k => (V c main_v23 : S100000x64.Idx → EReal) (ix2 p k)) (fun k => (V c main_v24 : S100000x64.Idx → EReal) (ix2 p k))
    (fun k => (V c main_v25 : S100000x64.Idx → EReal) (ix2 p k)) (fun k => (V c main_arg2 : S100000x64.Idx → EReal) (ix2 p k))
    (fun k n => (V c main_v26 : S64x64.Idx → EReal) (ix2 k n)) (fun k n => (V c main_v27 : S64x64.Idx → EReal) (ix2 k n))
    (fun k n => (V c main_v28 : S64x64.Idx → EReal) (ix2 k n)) (fun k n => (V c main_v29 : S64x64.Idx → EReal) (ix2 k n))
    (fun k n => (V c main_v30 : S64x64.Idx → EReal) (ix2 k n)) (fun k n => (V c main_v31 : S64x64.Idx → EReal) (ix2 k n))
    (fun n => (V c main_v32 : S1x64.Idx → EReal) (ix2 (0 : Fin 1) n)) (fun n => (V c main_v33 : S1x64.Idx → EReal) (ix2 (0 : Fin 1) n))
    (fun n => (V c main_v34 : S1x64.Idx → EReal) (ix2 (0 : Fin 1) n))
    (fun k n => (V c main_arg15 : S64x64.Idx → EReal) (ix2 k n)) (fun n => (V c main_v35 : S1x64.Idx → EReal) (ix2 (0 : Fin 1) n)) q
/-- The two result arrays. -/
def stateArr (c : Dev nD) : S100000x64.Idx → EReal := fun i => stateAt V c (i 0) (i 1)
def readoutArr (c : Dev nD) : S100000x64.Idx → EReal := fun i => readoutAt V c (i 0) (i 1)

/-! ## The block indices over the grid: node rows move with the point, matrices and bias rows stay -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = t.val ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = 0 ∧ win1_9.index t (1 : Fin 2) = 0 :=
  (by decide +kernel : ∀ t : Fin grid1.N, _)
theorem idx1_10 : ∀ t : Fin cfg1.N, win1_10.index t (0 : Fin 2) = 0 ∧ win1_10.index t (1 : Fin 2) = 0 :=
  (by decide +kernel : ∀ t : Fin grid1.N, _)
theorem idx1_11 : ∀ t : Fin cfg1.N, win1_11.index t (0 : Fin 2) = 0 ∧ win1_11.index t (1 : Fin 2) = 0 :=
  (by decide +kernel : ∀ t : Fin grid1.N, _)
theorem idx1_12 : ∀ t : Fin cfg1.N, win1_12.index t (0 : Fin 2) = 0 ∧ win1_12.index t (1 : Fin 2) = 0 :=
  (by decide +kernel : ∀ t : Fin grid1.N, _)
theorem idx1_13 : ∀ t : Fin cfg1.N, win1_13.index t (0 : Fin 2) = 0 ∧ win1_13.index t (1 : Fin 2) = 0 :=
  (by decide +kernel : ∀ t : Fin grid1.N, _)
theorem idx1_14 : ∀ t : Fin cfg1.N, win1_14.index t (0 : Fin 2) = 0 ∧ win1_14.index t (1 : Fin 2) = 0 :=
  (by decide +kernel : ∀ t : Fin grid1.N, _)
theorem idx1_15 : ∀ t : Fin cfg1.N, win1_15.index t (0 : Fin 2) = t.val ∧ win1_15.index t (1 : Fin 2) = 0 :=
  (by decide +kernel : ∀ t : Fin grid1.N, _)
theorem idx1_16 : ∀ t : Fin cfg1.N, win1_16.index t (0 : Fin 2) = t.val ∧ win1_16.index t (1 : Fin 2) = 0 :=
  (by decide +kernel : ∀ t : Fin grid1.N, _)

/-! ## Each staged block read off its array -/

/-- Window 0's staged node rows at point `t`: row `r` of the block is row `2000 t + r` of its array. -/
theorem read1_0 (c : Dev nD) (t : Fin cfg1.N) (r : Fin 2000) (k : Fin 64) (R : Fin 100000) (hR : R.val = t.val * 2000 + r.val) :
    (iblk1 V c 0 t : Vec Ideal S2000x64 .f32) (ix2 r k) = (V c main_v23 : S100000x64.Idx → EReal) (ix2 R k) := by
  obtain ⟨e0, e1⟩ := idx1_0 t
  unfold iblk1
  rw [View.read_apply]
  show V c main_v23 _ = V c main_v23 _
  congr 1
  funext a
  apply Fin.ext
  match a with
  | ⟨0, _⟩ => show win1_0.index t 0 * 2000 + 1 * r.val = R.val; rw [e0, hR]; omega
  | ⟨1, _⟩ => show win1_0.index t 1 * 64 + 1 * k.val = k.val; rw [e1]; omega

/-- Window 1's staged node rows at point `t`: row `r` of the block is row `2000 t + r` of its array. -/
theorem read1_1 (c : Dev nD) (t : Fin cfg1.N) (r : Fin 2000) (k : Fin 64) (R : Fin 100000) (hR : R.val = t.val * 2000 + r.val) :
    (iblk1 V c 1 t : Vec Ideal S2000x64 .f32) (ix2 r k) = (V c main_v24 : S100000x64.Idx → EReal) (ix2 R k) := by
  obtain ⟨e0, e1⟩ := idx1_1 t
  unfold iblk1
  rw [View.read_apply]
  show V c main_v24 _ = V c main_v24 _
  congr 1
  funext a
  apply Fin.ext
  match a with
  | ⟨0, _⟩ => show win1_1.index t 0 * 2000 + 1 * r.val = R.val; rw [e0, hR]; omega
  | ⟨1, _⟩ => show win1_1.index t 1 * 64 + 1 * k.val = k.val; rw [e1]; omega

/-- Window 2's staged node rows at point `t`: row `r` of the block is row `2000 t + r` of its array. -/
theorem read1_2 (c : Dev nD) (t : Fin cfg1.N) (r : Fin 2000) (k : Fin 64) (R : Fin 100000) (hR : R.val = t.val * 2000 + r.val) :
    (iblk1 V c 2 t : Vec Ideal S2000x64 .f32) (ix2 r k) = (V c main_v25 : S100000x64.Idx → EReal) (ix2 R k) := by
  obtain ⟨e0, e1⟩ := idx1_2 t
  unfold iblk1
  rw [View.read_apply]
  show V c main_v25 _ = V c main_v25 _
  congr 1
  funext a
  apply Fin.ext
  match a with
  | ⟨0, _⟩ => show win1_2.index t 0 * 2000 + 1 * r.val = R.val; rw [e0, hR]; omega
  | ⟨1, _⟩ => show win1_2.index t 1 * 64 + 1 * k.val = k.val; rw [e1]; omega

/-- Window 3's staged node rows at point `t`: row `r` of the block is row `2000 t + r` of its array. -/
theorem read1_3 (c : Dev nD) (t : Fin cfg1.N) (r : Fin 2000) (k : Fin 64) (R : Fin 100000) (hR : R.val = t.val * 2000 + r.val) :
    (iblk1 V c 3 t : Vec Ideal S2000x64 .f32) (ix2 r k) = (V c main_arg2 : S100000x64.Idx → EReal) (ix2 R k) := by
  obtain ⟨e0, e1⟩ := idx1_3 t
  unfold iblk1
  rw [View.read_apply]
  show V c main_arg2 _ = V c main_arg2 _
  congr 1
  funext a
  apply Fin.ext
  match a with
  | ⟨0, _⟩ => show win1_3.index t 0 * 2000 + 1 * r.val = R.val; rw [e0, hR]; omega
  | ⟨1, _⟩ => show win1_3.index t 1 * 64 + 1 * k.val = k.val; rw [e1]; omega

/-- Window 4's staged block at any point is its whole 64 × 64 array. -/
theorem read1_4 (c : Dev nD) (t : Fin cfg1.N) (k n : Fin 64) :
    (iblk1 V c 4 t : Vec Ideal S64x64 .f32) (ix2 k n) = (V c main_v26 : S64x64.Idx → EReal) (ix2 k n) := by
  obtain ⟨e0, e1⟩ := idx1_4 t
  unfold iblk1
  rw [View.read_apply]
  show V c main_v26 _ = V c main_v26 _
  congr 1
  funext a
  apply Fin.ext
  match a with
  | ⟨0, _⟩ => show win1_4.index t 0 * 64 + 1 * k.val = k.val; rw [e0]; omega
  | ⟨1, _⟩ => show win1_4.index t 1 * 64 + 1 * n.val = n.val; rw [e1]; omega

/-- Window 5's staged block at any point is its whole 64 × 64 array. -/
theorem read1_5 (c : Dev nD) (t : Fin cfg1.N) (k n : Fin 64) :
    (iblk1 V c 5 t : Vec Ideal S64x64 .f32) (ix2 k n) = (V c main_v27 : S64x64.Idx → EReal) (ix2 k n) := by
  obtain ⟨e0, e1⟩ := idx1_5 t
  unfold iblk1
  rw [View.read_apply]
  show V c main_v27 _ = V c main_v27 _
  congr 1
  funext a
  apply Fin.ext
  match a with
  | ⟨0, _⟩ => show win1_5.index t 0 * 64 + 1 * k.val = k.val; rw [e0]; omega
  | ⟨1, _⟩ => show win1_5.index t 1 * 64 + 1 * n.val = n.val; rw [e1]; omega

/-- Window 6's staged block at any point is its whole 1 × 64 bias row. -/
theorem read1_6 (c : Dev nD) (t : Fin cfg1.N) (n : Fin 64) :
    (iblk1 V c 6 t : Vec Ideal S1x64 .f32) (ix2 (0 : Fin 1) n) = (V c main_v32 : S1x64.Idx → EReal) (ix2 (0 : Fin 1) n) := by
  obtain ⟨e0, e1⟩ := idx1_6 t
  unfold iblk1
  rw [View.read_apply]
  show V c main_v32 _ = V c main_v32 _
  congr 1
  funext a
  apply Fin.ext
  match a with
  | ⟨0, _⟩ => show win1_6.index t 0 * 1 + 1 * 0 = 0; rw [e0]
  | ⟨1, _⟩ => show win1_6.index t 1 * 64 + 1 * n.val = n.val; rw [e1]; omega

/-- Window 7's staged block at any point is its whole 64 × 64 array. -/
theorem read1_7 (c : Dev nD) (t : Fin cfg1.N) (k n : Fin 64) :
    (iblk1 V c 7 t : Vec Ideal S64x64 .f32) (ix2 k n) = (V c main_v28 : S64x64.Idx → EReal) (ix2 k n) := by
  obtain ⟨e0, e1⟩ := idx1_7 t
  unfold iblk1
  rw [View.read_apply]
  show V c main_v28 _ = V c main_v28 _
  congr 1
  funext a
  apply Fin.ext
  match a with
  | ⟨0, _⟩ => show win1_7.index t 0 * 64 + 1 * k.val = k.val; rw [e0]; omega
  | ⟨1, _⟩ => show win1_7.index t 1 * 64 + 1 * n.val = n.val; rw [e1]; omega

/-- Window 8's staged block at any point is its whole 64 × 64 array. -/
theorem read1_8 (c : Dev nD) (t : Fin cfg1.N) (k n : Fin 64) :
    (iblk1 V c 8 t : Vec Ideal S64x64 .f32) (ix2 k n) = (V c main_v29 : S64x64.Idx → EReal) (ix2 k n) := by
  obtain ⟨e0, e1⟩ := idx1_8 t
  unfold iblk1
  rw [View.read_apply]
  show V c main_v29 _ = V c main_v29 _
  congr 1
  funext a
  apply Fin.ext
  match a with
  | ⟨0, _⟩ => show win1_8.index t 0 * 64 + 1 * k.val = k.val; rw [e0]; omega
  | ⟨1, _⟩ => show win1_8.index t 1 * 64 + 1 * n.val = n.val; rw [e1]; omega

/-- Window 9's staged block at any point is its whole 1 × 64 bias row. -/
theorem read1_9 (c : Dev nD) (t : Fin cfg1.N) (n : Fin 64) :
    (iblk1 V c 9 t : Vec Ideal S1x64 .f32) (ix2 (0 : Fin 1) n) = (V c main_v33 : S1x64.Idx → EReal) (ix2 (0 : Fin 1) n) := by
  obtain ⟨e0, e1⟩ := idx1_9 t
  unfold iblk1
  rw [View.read_apply]
  show V c main_v33 _ = V c main_v33 _
  congr 1
  funext a
  apply Fin.ext
  match a with
  | ⟨0, _⟩ => show win1_9.index t 0 * 1 + 1 * 0 = 0; rw [e0]
  | ⟨1, _⟩ => show win1_9.index t 1 * 64 + 1 * n.val = n.val; rw [e1]; omega

/-- Window 10's staged block at any point is its whole 64 × 64 array. -/
theorem read1_10 (c : Dev nD) (t : Fin cfg1.N) (k n : Fin 64) :
    (iblk1 V c 10 t : Vec Ideal S64x64 .f32) (ix2 k n) = (V c main_v30 : S64x64.Idx → EReal) (ix2 k n) := by
  obtain ⟨e0, e1⟩ := idx1_10 t
  unfold iblk1
  rw [View.read_apply]
  show V c main_v30 _ = V c main_v30 _
  congr 1
  funext a
  apply Fin.ext
  match a with
  | ⟨0, _⟩ => show win1_10.index t 0 * 64 + 1 * k.val = k.val; rw [e0]; omega
  | ⟨1, _⟩ => show win1_10.index t 1 * 64 + 1 * n.val = n.val; rw [e1]; omega

/-- Window 11's staged block at any point is its whole 64 × 64 array. -/
theorem read1_11 (c : Dev nD) (t : Fin cfg1.N) (k n : Fin 64) :
    (iblk1 V c 11 t : Vec Ideal S64x64 .f32) (ix2 k n) = (V c main_v31 : S64x64.Idx → EReal) (ix2 k n) := by
  obtain ⟨e0, e1⟩ := idx1_11 t
  unfold iblk1
  rw [View.read_apply]
  show V c main_v31 _ = V c main_v31 _
  congr 1
  funext a
  apply Fin.ext
  match a with
  | ⟨0, _⟩ => show win1_11.index t 0 * 64 + 1 * k.val = k.val; rw [e0]; omega
  | ⟨1, _⟩ => show win1_11.index t 1 * 64 + 1 * n.val = n.val; rw [e1]; omega

/-- Window 12's staged block at any point is its whole 1 × 64 bias row. -/
theorem read1_12 (c : Dev nD) (t : Fin cfg1.N) (n : Fin 64) :
    (iblk1 V c 12 t : Vec Ideal S1x64 .f32) (ix2 (0 : Fin 1) n) = (V c main_v34 : S1x64.Idx → EReal) (ix2 (0 : Fin 1) n) := by
  obtain ⟨e0, e1⟩ := idx1_12 t
  unfold iblk1
  rw [View.read_apply]
  show V c main_v34 _ = V c main_v34 _
  congr 1
  funext a
  apply Fin.ext
  match a with
  | ⟨0, _⟩ => show win1_12.index t 0 * 1 + 1 * 0 = 0; rw [e0]
  | ⟨1, _⟩ => show win1_12.index t 1 * 64 + 1 * n.val = n.val; rw [e1]; omega

/-- Window 13's staged block at any point is its whole 64 × 64 array. -/
theorem read1_13 (c : Dev nD) (t : Fin cfg1.N) (k n : Fin 64) :
    (iblk1 V c 13 t : Vec Ideal S64x64 .f32) (ix2 k n) = (V c main_arg15 : S64x64.Idx → EReal) (ix2 k n) := by
  obtain ⟨e0, e1⟩ := idx1_13 t
  unfold iblk1
  rw [View.read_apply]
  show V c main_arg15 _ = V c main_arg15 _
  congr 1
  funext a
  apply Fin.ext
  match a with
  | ⟨0, _⟩ => show win1_13.index t 0 * 64 + 1 * k.val = k.val; rw [e0]; omega
  | ⟨1, _⟩ => show win1_13.index t 1 * 64 + 1 * n.val = n.val; rw [e1]; omega

/-- Window 14's staged block at any point is its whole 1 × 64 bias row. -/
theorem read1_14 (c : Dev nD) (t : Fin cfg1.N) (n : Fin 64) :
    (iblk1 V c 14 t : Vec Ideal S1x64 .f32) (ix2 (0 : Fin 1) n) = (V c main_v35 : S1x64.Idx → EReal) (ix2 (0 : Fin 1) n) := by
  obtain ⟨e0, e1⟩ := idx1_14 t
  unfold iblk1
  rw [View.read_apply]
  show V c main_v35 _ = V c main_v35 _
  congr 1
  funext a
  apply Fin.ext
  match a with
  | ⟨0, _⟩ => show win1_14.index t 0 * 1 + 1 * 0 = 0; rw [e0]
  | ⟨1, _⟩ => show win1_14.index t 1 * 64 + 1 * n.val = n.val; rw [e1]; omega

/-! ## What each point writes back -/

/-- WHAT POINT `t` WRITES BACK to the state result is block `t` of the array of new states. -/
theorem flushed_state (c : Dev nD) (t : Fin cfg1.N) :
    (dat1 V c).flushed 16 t = ((cfg1.win 16).blk t).view.read (Elt Ideal) (stateArr V c) := by
  obtain ⟨e0, e1⟩ := idx1_16 t
  show (cfg1.win 16).cut (grid1.coords t) ((dat1 V c).after 16 t) = _
  rw [after1_16]
  unfold out1_16
  rw [View.canon_unit_zero hz]
  simp only [View.ld_unit_zero (S := S2000x64) hz, View.ld_unit_zero (S := S64x64) hz, View.ld_unit_zero (S := S1x64) hz]
  funext j
  obtain ⟨r, q, rfl⟩ : ∃ (r : Fin 2000) (q : Fin 64), j = ix2 r q := ⟨j 0, j 1, eq_ix2 j⟩
  have hN : cfg1.N = 50 := N_1
  have hRlt : t.val * 2000 + r.val < 100000 := by have := t.isLt; have := r.isLt; omega
  have hemb : ((cfg1.win 16).blk t).view.emb (ix2 r q) = ix2 (⟨t.val * 2000 + r.val, hRlt⟩ : Fin 100000) q := by
    funext a
    apply Fin.ext
    match a with
    | ⟨0, _⟩ => show win1_16.index t 0 * 2000 + 1 * r.val = t.val * 2000 + r.val; rw [e0]; omega
    | ⟨1, _⟩ => show win1_16.index t 1 * 64 + 1 * q.val = q.val; rw [e1]; omega
  show k1_pay1 (F := Ideal) _ _ _ _ _ _ _ _ (ix2 r q) = stateArr V c (((cfg1.win 16).blk t).view.emb (ix2 r q))
  rw [hemb]
  refine (state_at (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) r q).trans ?_
  show _ = stateAt V c ⟨t.val * 2000 + r.val, hRlt⟩ q
  unfold stateAt
  simp only [fun k => read1_0 V c t r k ⟨t.val * 2000 + r.val, hRlt⟩ rfl,
    fun k => read1_1 V c t r k ⟨t.val * 2000 + r.val, hRlt⟩ rfl,
    fun k => read1_2 V c t r k ⟨t.val * 2000 + r.val, hRlt⟩ rfl,
    fun k => read1_3 V c t r k ⟨t.val * 2000 + r.val, hRlt⟩ rfl,
    fun k n => read1_4 V c t k n,
    fun k n => read1_5 V c t k n,
    fun n => read1_6 V c t n,
    fun k n => read1_7 V c t k n,
    fun k n => read1_8 V c t k n,
    fun n => read1_9 V c t n,
    fun k n => read1_10 V c t k n,
    fun k n => read1_11 V c t k n,
    fun n => read1_12 V c t n]

/-- WHAT POINT `t` WRITES BACK to the readout result is block `t` of the array of readouts. -/
theorem flushed_readout (c : Dev nD) (t : Fin cfg1.N) :
    (dat1 V c).flushed 15 t = ((cfg1.win 15).blk t).view.read (Elt Ideal) (readoutArr V c) := by
  obtain ⟨e0, e1⟩ := idx1_15 t
  show (cfg1.win 15).cut (grid1.coords t) ((dat1 V c).after 15 t) = _
  rw [after1_15]
  unfold out1_15
  rw [View.canon_unit_zero hz]
  simp only [View.ld_unit_zero (S := S2000x64) hz, View.ld_unit_zero (S := S64x64) hz, View.ld_unit_zero (S := S1x64) hz]
  funext j
  obtain ⟨r, q, rfl⟩ : ∃ (r : Fin 2000) (q : Fin 64), j = ix2 r q := ⟨j 0, j 1, eq_ix2 j⟩
  have hN : cfg1.N = 50 := N_1
  have hRlt : t.val * 2000 + r.val < 100000 := by have := t.isLt; have := r.isLt; omega
  have hemb : ((cfg1.win 15).blk t).view.emb (ix2 r q) = ix2 (⟨t.val * 2000 + r.val, hRlt⟩ : Fin 100000) q := by
    funext a
    apply Fin.ext
    match a with
    | ⟨0, _⟩ => show win1_15.index t 0 * 2000 + 1 * r.val = t.val * 2000 + r.val; rw [e0]; omega
    | ⟨1, _⟩ => show win1_15.index t 1 * 64 + 1 * q.val = q.val; rw [e1]; omega
  show k1_pay2 (F := Ideal) _ _ _ _ _ _ _ _ _ _ (ix2 r q) = readoutArr V c (((cfg1.win 15).blk t).view.emb (ix2 r q))
  rw [hemb]
  refine (readout_at (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) r q).trans ?_
  show _ = readoutAt V c ⟨t.val * 2000 + r.val, hRlt⟩ q
  unfold readoutAt
  simp only [fun k => read1_0 V c t r k ⟨t.val * 2000 + r.val, hRlt⟩ rfl,
    fun k => read1_1 V c t r k ⟨t.val * 2000 + r.val, hRlt⟩ rfl,
    fun k => read1_2 V c t r k ⟨t.val * 2000 + r.val, hRlt⟩ rfl,
    fun k => read1_3 V c t r k ⟨t.val * 2000 + r.val, hRlt⟩ rfl,
    fun k n => read1_4 V c t k n,
    fun k n => read1_5 V c t k n,
    fun n => read1_6 V c t n,
    fun k n => read1_7 V c t k n,
    fun k n => read1_8 V c t k n,
    fun n => read1_9 V c t n,
    fun k n => read1_10 V c t k n,
    fun k n => read1_11 V c t k n,
    fun n => read1_12 V c t n,
    fun k n => read1_13 V c t k n,
    fun n => read1_14 V c t n]

/-! ## The fifty row blocks cover each result array -/

theorem cover_state (i : S100000x64.Idx) :
    ∃ t : Fin cfg1.N, (cfg1.win 16).flush t = true ∧ i ∈ ((cfg1.win 16).blk t).view.set := by
  have hi0 : (i 0).val < 100000 := (i 0).isLt
  have hi1 : (i 1).val < 64 := (i 1).isLt
  have hN : cfg1.N = 50 := N_1
  have ht : (i 0).val / 2000 < cfg1.N := by omega
  refine ⟨⟨(i 0).val / 2000, ht⟩, flush1_16 _, ?_⟩
  obtain ⟨e0, e1⟩ := idx1_16 ⟨(i 0).val / 2000, ht⟩
  show i ∈ ((View.whole main_v36_1).slice (win1_16.rect ⟨(i 0).val / 2000, ht⟩)).set
  rw [View.set_slice_whole, Rect.mem_set_unit]
  intro a
  match a with
  | ⟨0, _⟩ =>
    show win1_16.index ⟨(i 0).val / 2000, ht⟩ 0 * 2000 ≤ (i 0).val
      ∧ (i 0).val < win1_16.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win1_16.index ⟨(i 0).val / 2000, ht⟩ 1 * 64 ≤ (i 1).val
      ∧ (i 1).val < win1_16.index ⟨(i 0).val / 2000, ht⟩ 1 * 64 + 64
    rw [e1]; omega

theorem cover_readout (i : S100000x64.Idx) :
    ∃ t : Fin cfg1.N, (cfg1.win 15).flush t = true ∧ i ∈ ((cfg1.win 15).blk t).view.set := by
  have hi0 : (i 0).val < 100000 := (i 0).isLt
  have hi1 : (i 1).val < 64 := (i 1).isLt
  have hN : cfg1.N = 50 := N_1
  have ht : (i 0).val / 2000 < cfg1.N := by omega
  refine ⟨⟨(i 0).val / 2000, ht⟩, flush1_15 _, ?_⟩
  obtain ⟨e0, e1⟩ := idx1_15 ⟨(i 0).val / 2000, ht⟩
  show i ∈ ((View.whole main_v36_0).slice (win1_15.rect ⟨(i 0).val / 2000, ht⟩)).set
  rw [View.set_slice_whole, Rect.mem_set_unit]
  intro a
  match a with
  | ⟨0, _⟩ =>
    show win1_15.index ⟨(i 0).val / 2000, ht⟩ 0 * 2000 ≤ (i 0).val
      ∧ (i 0).val < win1_15.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win1_15.index ⟨(i 0).val / 2000, ht⟩ 1 * 64 ≤ (i 1).val
      ∧ (i 1).val < win1_15.index ⟨(i 0).val / 2000, ht⟩ 1 * 64 + 64
    rw [e1]; omega

/-! ## The two result arrays after the region -/

theorem state_array (c : Dev nD) : (dat1 V c).arrAt 16 cfg1.N = stateArr V c :=
  (dat1 V c).arrAt_eq_of_cover 16 (stateArr V c) (fun t _ => flushed_state V c t) (cover_state)

theorem readout_array (c : Dev nD) : (dat1 V c).arrAt 15 cfg1.N = readoutArr V c :=
  (dat1 V c).arrAt_eq_of_cover 15 (readoutArr V c) (fun t _ => flushed_readout V c t) (cover_readout)

end Cert.KernelIdeal.CellArray

end
-- ==== Proof.LibScatterAddRows.lean ====
/-
  THE HOST'S ACCUMULATING FLOAT SCATTER OF WHOLE ROWS, READ AT AN ELEMENT (ideal instance).

  An operand `x : [N, D]`, scatter indices `idx : [M, 1]` (integers, one start index per update row) and updates
  `upd : [M, D]`, under the dimension numbers update_window_dims = [1], inserted_window_dims = [0],
  scatter_dims_to_operand_dims = [0], index_vector_dim = 1: update row `m` is added, whole, to the operand row whose
  number is `idx[m, 0]` read as a SIGNED integer; a row whose start index is negative or at least `N` is dropped.
  At the ideal instance the colliding updates add exactly, so at every element `(p, q)`

      scatterAdd x idx upd (p, q) = x (p, q) + ∑ m : Fin M, if (idx (m, 0)).toInt = p then upd (m, q) else 0.

  The reason, axis by axis of `ScatterDims.resultIdx?`: on operand axis 0 the start is `idx[j₀, 0]` and the window
  coordinate is 0 (the axis is inserted); on operand axis 1 the start is 0 (the map does not name the axis) and the
  window coordinate is `j₁ < D`. So update element `(j₀, j₁)` lands at `(p, q)` exactly when
  `(idx (j₀, 0)).toInt = p` and `j₁ = q` (`resultIdx?_eq_some_iff`), the in-range condition on axis 0 following from
  `p < N` and the one on axis 1 always holding. Summing the updates over that set and splitting the rank-2 sum into
  its two coordinates leaves the sum over `m` alone. Nothing here enumerates an index set: `N`, `M`, `D` are arbitrary.

  Statements (all at `F := Ideal`):
    • `rowDims N M D wf`              the dimension numbers above as a record, their conditions `wf` a hypothesis;
    • `resultIdx?_eq_some_iff`        where an update element lands;
    • `rowDims_scatterAdd_apply`      the displayed equation for `rowDims`;
    • `scatterAdd_rows_apply`         the same for ANY record `d` whose four fields are those lists (four equations,
                                      each `rfl` for a record written with the literal fields);
    • `scatterAdd_rows_apply_idx`     the same at an arbitrary index `i` (coordinates `i 0`, `i 1`);
    • `scatterAdd_rows_apply_filter`  the same with the sum over the rows `m` whose start index is `p`.
-/
import Idealize.ShloMosaic.Lib.ValueIdx
import Idealize.ShloMosaic.PureOps.Contract

noncomputable section

open scoped BigOperators

namespace Idealize.ShloMosaic.ScatterAddRows

open Idealize.ShloMosaic Idealize.ShloMosaic.ValueIdx

/-- The dimension numbers of a scatter of whole rows: operand `[N, D]`, scatter indices `[M, 1]`, updates `[M, D]`;
    the updates' axis 1 is the window axis, the operand's axis 0 is inserted and is the one the start index names,
    the index vector lies along the scatter indices' axis 1. -/
abbrev rowDims (N M D : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

section Literal

variable {N M D w : Nat} (wf : ScatterDims.WF ⟨2, ![N, D]⟩ ⟨2, ![M, 1]⟩ ⟨2, ![M, D]⟩ [1] [0] [0] 1)

/-- On operand axis 0 the window of update element `j` starts at `idx[j₀, 0]`, read signed. -/
theorem start0 (j : (⟨2, ![M, D]⟩ : Shape).Idx) (idx : IVec ⟨2, ![M, 1]⟩ w) :
    (rowDims N M D wf).start j idx 0 = (idx (ix2 (j 0) 0)).toInt := by
  unfold ScatterDims.start
  rw [dif_pos (show (0 : Fin 2) ∈ (rowDims N M D wf).scatterDimsToOperandDims from List.mem_singleton.mpr rfl)]
  congr 2
  funext b
  refine Fin.ext ?_
  match b with
  | ⟨0, _⟩ => rfl
  | ⟨1, _⟩ => rfl

/-- On operand axis 1, which the start-index map does not name, the window starts at 0. -/
theorem start1 (j : (⟨2, ![M, D]⟩ : Shape).Idx) (idx : IVec ⟨2, ![M, 1]⟩ w) :
    (rowDims N M D wf).start j idx 1 = 0 := by
  unfold ScatterDims.start
  rw [dif_neg (by show (1 : Fin 2) ∉ [(0 : Fin 2)]; decide)]

/-- Operand axis 0 is inserted: the window coordinate on it is 0. -/
theorem window0 (j : (⟨2, ![M, D]⟩ : Shape).Idx) :
    (rowDims N M D wf).window j 0 = 0 := by
  unfold ScatterDims.window
  rw [dif_neg (by show (0 : Fin 2) ∉ (List.finRange 2).filter (· ∉ [(0 : Fin 2)]); decide)]

/-- Operand axis 1 is the one kept axis: the window coordinate on it is the update's coordinate on its window axis. -/
theorem window1 (j : (⟨2, ![M, D]⟩ : Shape).Idx) :
    (rowDims N M D wf).window j 1 = (j 1).val := by
  unfold ScatterDims.window
  rw [dif_pos (by show (1 : Fin 2) ∈ (List.finRange 2).filter (· ∉ [(0 : Fin 2)]); decide)]
  rfl

/-- WHERE AN UPDATE ELEMENT LANDS: update element `j = (j₀, j₁)` lands at operand element `(p, q)` exactly when its
    row's start index, read signed, is `p`, and `j₁ = q`. (A start index outside `[0, N)` lands nowhere, and is
    no `p`.) -/
theorem resultIdx?_eq_some_iff (j : (⟨2, ![M, D]⟩ : Shape).Idx) (idx : IVec ⟨2, ![M, 1]⟩ w) (p : Fin N) (q : Fin D) :
    (rowDims N M D wf).resultIdx? j idx = some (ix2 p q) ↔
      (idx (ix2 (j 0) 0)).toInt = (p.val : ℤ) ∧ j 1 = q := by
  have hp : p.val < N := p.isLt
  have hj1 : (j 1).val < D := idx2_lt1 j
  unfold ScatterDims.resultIdx?
  split_ifs with h
  · rw [Option.some.injEq]
    have h0' : 0 ≤ (rowDims N M D wf).start j idx 0 + ((rowDims N M D wf).window j 0 : ℤ) ∧
        (rowDims N M D wf).start j idx 0 + ((rowDims N M D wf).window j 0 : ℤ) < (N : ℤ) := h 0
    rw [start0, window0] at h0'
    constructor
    · intro he
      have h0 : ((rowDims N M D wf).start j idx 0 + ((rowDims N M D wf).window j 0 : ℤ)).toNat = p.val :=
        congrArg (fun f => (f 0).val) he
      have h1 : ((rowDims N M D wf).start j idx 1 + ((rowDims N M D wf).window j 1 : ℤ)).toNat = q.val :=
        congrArg (fun f => (f 1).val) he
      rw [start0, window0] at h0
      rw [start1, window1] at h1
      refine ⟨?_, Fin.ext ?_⟩
      · omega
      · omega
    · rintro ⟨h0, h1⟩
      funext a
      refine Fin.ext ?_
      match a with
      | ⟨0, _⟩ =>
        show ((rowDims N M D wf).start j idx 0 + ((rowDims N M D wf).window j 0 : ℤ)).toNat = p.val
        rw [start0, window0, h0]; omega
      | ⟨1, _⟩ =>
        show ((rowDims N M D wf).start j idx 1 + ((rowDims N M D wf).window j 1 : ℤ)).toNat = q.val
        rw [start1, window1, ← h1]; omega
  · constructor
    · intro he; cases he
    · rintro ⟨h0, h1⟩
      exfalso
      apply h
      intro a
      match a with
      | ⟨0, _⟩ =>
        show 0 ≤ (rowDims N M D wf).start j idx 0 + ((rowDims N M D wf).window j 0 : ℤ) ∧
          (rowDims N M D wf).start j idx 0 + ((rowDims N M D wf).window j 0 : ℤ) < (N : ℤ)
        rw [start0, window0, h0]; omega
      | ⟨1, _⟩ =>
        show 0 ≤ (rowDims N M D wf).start j idx 1 + ((rowDims N M D wf).window j 1 : ℤ) ∧
          (rowDims N M D wf).start j idx 1 + ((rowDims N M D wf).window j 1 : ℤ) < (D : ℤ)
        rw [start1, window1]; omega

/-- THE SCATTER OF ROWS READ AT `(p, q)`, for the record `rowDims`: the operand's element plus the sum, over the
    update rows `m` whose start index (read signed) is `p`, of the update's element `(m, q)`. -/
theorem rowDims_scatterAdd_apply {φ : FTy} (x : FVec Ideal ⟨2, ![N, D]⟩ φ) (idx : IVec ⟨2, ![M, 1]⟩ w)
    (upd : FVec Ideal ⟨2, ![M, D]⟩ φ) (p : Fin N) (q : Fin D) :
    Host.scatterAdd (F := Ideal) (rowDims N M D wf) x idx upd (ix2 p q)
      = x (ix2 p q) + ∑ m : Fin M, if (idx (ix2 m 0)).toInt = (p.val : ℤ) then upd (ix2 m q) else 0 := by
  unfold Host.scatterAdd
  rw [Ideal.hostScatterAdd_def]
  unfold Ideal.hostScatterAdd
  congr 1
  rw [Finset.sum_filter, sum_idx2]
  refine Finset.sum_congr rfl fun m _ => ?_
  have key : ∀ b : Fin D, ((rowDims N M D wf).resultIdx? (ix2 m b) idx = some (ix2 p q)) ↔
      ((idx (ix2 m 0)).toInt = (p.val : ℤ) ∧ b = q) := fun b => resultIdx?_eq_some_iff wf (ix2 m b) idx p q
  refine (Finset.sum_congr rfl fun b _ => if_congr (key b) rfl rfl).trans ?_
  by_cases hm : (idx (ix2 m 0)).toInt = (p.val : ℤ)
  · rw [if_pos hm]; simp [hm]
  · rw [if_neg hm]; simp [hm]

end Literal

variable {N M D w : Nat} {φ : FTy}

/-- THE SCATTER OF ROWS READ AT `(p, q)`, for any dimension-number record with the four lists of a scatter of whole
    rows (each hypothesis is `rfl` for a record written with those literal fields, whatever proves its `wf`). -/
theorem scatterAdd_rows_apply (d : ScatterDims ⟨2, ![N, D]⟩ ⟨2, ![M, 1]⟩ ⟨2, ![M, D]⟩)
    (huw : d.updateWindowDims = [1]) (hiw : d.insertedWindowDims = [0])
    (hsd : d.scatterDimsToOperandDims = [0]) (hiv : d.indexVectorDim = 1)
    (x : FVec Ideal ⟨2, ![N, D]⟩ φ) (idx : IVec ⟨2, ![M, 1]⟩ w) (upd : FVec Ideal ⟨2, ![M, D]⟩ φ)
    (p : Fin N) (q : Fin D) :
    Host.scatterAdd (F := Ideal) d x idx upd (ix2 p q)
      = x (ix2 p q) + ∑ m : Fin M, if (idx (ix2 m 0)).toInt = (p.val : ℤ) then upd (ix2 m q) else 0 := by
  obtain ⟨uw, iw, sd, iv, wf⟩ := d
  dsimp only at huw hiw hsd hiv
  subst huw hiw hsd hiv
  exact rowDims_scatterAdd_apply wf x idx upd p q

/-- The same at an arbitrary operand index `i`, by its coordinates. -/
theorem scatterAdd_rows_apply_idx (d : ScatterDims ⟨2, ![N, D]⟩ ⟨2, ![M, 1]⟩ ⟨2, ![M, D]⟩)
    (huw : d.updateWindowDims = [1]) (hiw : d.insertedWindowDims = [0])
    (hsd : d.scatterDimsToOperandDims = [0]) (hiv : d.indexVectorDim = 1)
    (x : FVec Ideal ⟨2, ![N, D]⟩ φ) (idx : IVec ⟨2, ![M, 1]⟩ w) (upd : FVec Ideal ⟨2, ![M, D]⟩ φ)
    (i : (⟨2, ![N, D]⟩ : Shape).Idx) :
    Host.scatterAdd (F := Ideal) d x idx upd i
      = x i + ∑ m : Fin M, if (idx (ix2 m 0)).toInt = (((i 0).val : ℕ) : ℤ) then upd (ix2 m (i 1)) else 0 := by
  obtain ⟨p, q, rfl⟩ : ∃ (p : Fin N) (q : Fin D), i = ix2 p q := ⟨i 0, i 1, eq_ix2 i⟩
  exact scatterAdd_rows_apply d huw hiw hsd hiv x idx upd p q

/-- The same with the sum taken over the update rows whose start index is `p`. -/
theorem scatterAdd_rows_apply_filter (d : ScatterDims ⟨2, ![N, D]⟩ ⟨2, ![M, 1]⟩ ⟨2, ![M, D]⟩)
    (huw : d.updateWindowDims = [1]) (hiw : d.insertedWindowDims = [0])
    (hsd : d.scatterDimsToOperandDims = [0]) (hiv : d.indexVectorDim = 1)
    (x : FVec Ideal ⟨2, ![N, D]⟩ φ) (idx : IVec ⟨2, ![M, 1]⟩ w) (upd : FVec Ideal ⟨2, ![M, D]⟩ φ)
    (p : Fin N) (q : Fin D) :
    Host.scatterAdd (F := Ideal) d x idx upd (ix2 p q)
      = x (ix2 p q) + ∑ m ∈ Finset.univ.filter (fun m : Fin M => (idx (ix2 m 0)).toInt = (p.val : ℤ)), upd (ix2 m q) := by
  rw [scatterAdd_rows_apply d huw hiw hsd hiv, Finset.sum_filter]

end Idealize.ShloMosaic.ScatterAddRows

end
-- ==== Proof.LibRowOps.lean ====
/-
  Row-wise operations read at an index, at the ideal values.

  * the sum of a matrix along its second axis, as a kernel's lane reduction and as the host's reduce: at row `p` it is
    the sum over `k` of the entries `(p, k)` (the host's with its initial value in front);
  * a product of an `a × b` by a `b × c` matrix contracting the one shared axis, as a kernel's matrix product into a
    zero accumulator and as the host's dot product: at `(p, n)` it is the sum over `k` of `l (p, k) * r (k, n)`;
  * "keep the entry if it is at least zero, else take the other value", as comparison and select compute it;
  * the host's broadcasts of a scalar, of a vector to a column, of a vector to a row, of a column along columns and
    of a row along rows.
-/
import Idealize.ShloMosaic.Lib.ValueIdx
import Idealize.ShloMosaic.Lib.ValueLayout
import Idealize.ShloMosaic.Lib.Pipeline.Value
import Idealize.ShloMosaic.PureOps.Ideal.Laws

namespace Cert.LibRowOps

open Idealize.ShloMosaic Idealize.ShloMosaic.ValueIdx

/-! ## Row sums -/

/-- The index a row reduction lifts `(p)` and the position `k` to is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = (ix2 p k c).val
  match c with
  | ⟨0, _⟩ => simp [Shape.Reduces.liftVal]
  | ⟨1, _⟩ => simp [Shape.Reduces.liftVal]

/-- A kernel's lane sum of an `a × b` block, at row `p`: the sum of the row's entries. -/
theorem multiReduction_row_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's sum of an `a × b` array along its rows, at row `p`: the initial value plus the sum of the row's entries. -/
theorem hostReduceAdd_row_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

/-! ## One shared axis contracted -/

/-- The contraction's sum re-indexed by the shared axis's coordinate, when the operand indices at an output index
    `(p, n)` and a contraction position `k` are `(p, k)` and `(k, n)`. -/
theorem sum_contr {a b c : ℕ} (D : DotDims ⟨2, ![a, b]⟩ ⟨2, ![b, c]⟩ ⟨2, ![a, c]⟩) (hrk : D.contr.rank = 1)
    (hsz : D.contr.size ⟨0, by omega⟩ = b)
    (hl0 : ∀ j k, (D.lhsIdx j k (0 : Fin 2)).val = (j (0 : Fin 2)).val)
    (hl1 : ∀ j k, (D.lhsIdx j k (1 : Fin 2)).val = (k ⟨0, by omega⟩).val)
    (hr0 : ∀ j k, (D.rhsIdx j k (0 : Fin 2)).val = (k ⟨0, by omega⟩).val)
    (hr1 : ∀ j k, (D.rhsIdx j k (1 : Fin 2)).val = (j (1 : Fin 2)).val)
    (l : (⟨2, ![a, b]⟩ : Shape).Idx → EReal) (r : (⟨2, ![b, c]⟩ : Shape).Idx → EReal) (p : Fin a) (n : Fin c) :
    ∑ k : D.contr.Idx, l (D.lhsIdx (ix2 p n) k) * r (D.rhsIdx (ix2 p n) k) = ∑ k : Fin b, l (ix2 p k) * r (ix2 k n) := by
  rw [← Equiv.sum_comp (contrEquiv1 D b hrk hsz).symm]
  refine Finset.sum_congr rfl fun k _ => ?_
  have e1 : D.lhsIdx (ix2 p n) ((contrEquiv1 D b hrk hsz).symm k) = ix2 p k := by
    funext ax
    apply Fin.ext
    match ax with
    | ⟨0, _⟩ => exact hl0 _ _
    | ⟨1, _⟩ => exact (hl1 _ _).trans (contrEquiv1_symm_val D b hrk hsz k)
  have e2 : D.rhsIdx (ix2 p n) ((contrEquiv1 D b hrk hsz).symm k) = ix2 k n := by
    funext ax
    apply Fin.ext
    match ax with
    | ⟨0, _⟩ => exact (hr0 _ _).trans (contrEquiv1_symm_val D b hrk hsz k)
    | ⟨1, _⟩ => exact hr1 _ _
  rw [e1, e2]

/-! ## Keep what is at least zero -/

/-- The select on "at least the zero word": the entry itself when it is at least zero, the other value otherwise. -/
theorem select_oge_zero (v w : EReal) :
    Scalar.select (FloatOps.cmpf (F := Ideal) (φ := .f32) .oge v (Ideal.ofBits .f32 0x00000000#32)) v w
      = if (0 : EReal) ≤ v then v else w := by
  rw [Ideal.cmpf_def, Ideal.ofBits_zero_f32]
  unfold Ideal.cmp Scalar.select
  by_cases h : (0 : EReal) ≤ v
  · simp [h]
  · simp [h]

/-! ## The host's broadcasts -/

section
variable {α : Type}

/-- A scalar broadcast to any shape reads the scalar. -/
theorem broadcastInDim_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- A vector of `a` entries broadcast to an `a × 1` column reads, at `(p, u)`, entry `p`. -/
theorem broadcastInDim_a_a1_apply {a : ℕ} (h : (⟨1, ![a]⟩ : Shape).BroadcastsInDim ⟨2, ![a, 1]⟩ (![0] : Fin 1 → Fin 2))
    (x : (⟨1, ![a]⟩ : Shape).Idx → α) (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A vector of `b` entries broadcast to a `1 × b` row reads, at `(u, q)`, entry `q`. -/
theorem broadcastInDim_b_1b_apply {b : ℕ} (h : (⟨1, ![b]⟩ : Shape).BroadcastsInDim ⟨2, ![1, b]⟩ (![1] : Fin 1 → Fin 2))
    (x : (⟨1, ![b]⟩ : Shape).Idx → α) (u : Fin 1) (q : Fin b) : broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- An `a × 1` column broadcast along `b` columns reads, at `(p, q)`, the column's entry `p`. -/
theorem broadcastInDim_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A `1 × b` row broadcast along `a` rows reads, at `(p, q)`, the row's entry `q`. -/
theorem broadcastInDim_1b_ab_apply {a b : ℕ} (h : (⟨2, ![1, b]⟩ : Shape).BroadcastsInDim ⟨2, ![a, b]⟩ (![0, 1] : Fin 2 → Fin 2))
    (x : (⟨2, ![1, b]⟩ : Shape).Idx → α) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end

end Cert.LibRowOps
-- ==== Proof.HostStretch.lean ====
/-
  What the two stretches of host operations of the kernel program compute, read at an index.

  The first stretch sets the three 64 × 64 convolution weights side by side as one 64 × 192 matrix; block `z`, `r`,
  `h` of its columns is the first, second, third matrix.

  The second stretch reads the edge list's two rows as index columns (the source row, each entry below zero moved
  up by the number of nodes; the target row as it is), takes from the 100000 × 192 product `M` the source row of
  every edge, scales it by the edge's weight, adds the scaled rows into a zero array at the edges' target rows and
  adds the three biases laid end to end along every row. At node `p` and column `c` that is

      (0 + Σ_e [target e = p] · M (source e, c) · ew e) + b c,

  and the three convolutions are its three blocks of 64 columns. The stretch also cuts each 128 × 64 gate matrix
  into its top and bottom 64 rows and sets each gate bias, a vector of 64, as a 1 × 64 row.

  Each result is first written as the composition of the stretch's operations over the incoming contents
  (`src_col`, `dst_col`, `v23_eq` …), with the index columns and the side-by-side array named (`srcCol`, `dstCol`,
  `convArr`), and then read at an index from lemmas about those named terms over arbitrary arrays. Everything is
  stated over an arbitrary valuation of the references.
-/
import proofs.«111474_j1786706395616_1_alg».proof.Proof.Gen.KernelIdeal.Launch
import proofs.«111474_j1786706395616_1_alg».proof.Proof.Gen.KernelIdeal.Regions
import proofs.«111474_j1786706395616_1_alg».proof.Proof.Spec
import proofs.«111474_j1786706395616_1_alg».proof.Proof.LibGatherAxis0
import proofs.«111474_j1786706395616_1_alg».proof.Proof.LibScatterAddRows
import proofs.«111474_j1786706395616_1_alg».proof.Proof.LibRowOps
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostValue

open Cert.KernelIdeal Cert.KernelIdeal.Gen Cert.GatedGraphCell
open Idealize.ShloMosaic Idealize.ShloMosaic.ValueIdx Idealize.SL.Sem

/-! ## The composed terms of the second stretch -/

/-- The column of source rows: row 0 of the edge list as a vector, each entry below zero moved up by the number
    of nodes, the vector then set as a column. -/
def srcCol (x17 : IVec S2x800000 32) : IVec S800000x1 32 :=
  broadcastInDim S800000x1 ![0] bcast_S800000_S800000x1_0
    (select
      (cmpi .slt
        (shapeCast S800000 (extractStridedSlice S1x800000 ![0, 0] x17 slices_S2x800000_S1x800000_0_0) shapeCasts_S1x800000_S800000)
        (broadcastInDim S800000 ![] bcast_S_S800000 (constantI S_ 32 0#32)))
      (addi
        (shapeCast S800000 (extractStridedSlice S1x800000 ![0, 0] x17 slices_S2x800000_S1x800000_0_0) shapeCasts_S1x800000_S800000)
        (broadcastInDim S800000 ![] bcast_S_S800000 (constantI S_ 32 100000#32)))
      (shapeCast S800000 (extractStridedSlice S1x800000 ![0, 0] x17 slices_S2x800000_S1x800000_0_0) shapeCasts_S1x800000_S800000))

/-- The column of target nodes: row 1 of the edge list as a vector, set as a column. -/
def dstCol (x17 : IVec S2x800000 32) : IVec S800000x1 32 :=
  broadcastInDim S800000x1 ![0] bcast_S800000_S800000x1_0
    (shapeCast S800000 (extractStridedSlice S1x800000 ![1, 0] x17 slices_S2x800000_S1x800000_1_0) shapeCasts_S1x800000_S800000)

/-- The three bias vectors laid end to end. -/
def biasCat (b4 b6 b8 : FVec Ideal S64 .f32) : FVec Ideal S192 .f32 :=
  concatenate S192 0 [⟨S64, b4⟩, ⟨S64, b6⟩, ⟨S64, b8⟩] concatenates_S64_S64_S64_S192_d0

/-- The three convolutions side by side, before the columns are cut apart: the rows of `M` the source column names,
    each scaled by its edge's weight, added into a zero array at the rows the target column names, plus the biases
    along every row. -/
def convArr (M : FVec Ideal S100000x192 .f32) (ew : FVec Ideal S800000 .f32) (sc dc : IVec S800000x1 32)
    (bcat : FVec Ideal S192 .f32) : FVec Ideal S100000x192 .f32 :=
  addf
    (Host.scatterAdd scatter_S100000x192_S800000x1_S800000x192_1_0_0_1
      (broadcastInDim S100000x192 ![] bcast_S_S100000x192 (constant (F := Ideal) S_ .f32 0x00000000#32)) dc
      (mulf (Host.gather gather_S100000x192_S800000x1_S800000x192_1_0_n_n_0_1_1192 M sc)
        (broadcastInDim S800000x192 ![0, 1] bcast_S800000x1_S800000x192_0_1
          (broadcastInDim S800000x1 ![0] bcast_S800000_S800000x1_0 ew))))
    (broadcastInDim S100000x192 ![0, 1] bcast_S1x192_S100000x192_0_1 (broadcastInDim S1x192 ![1] bcast_S192_S1x192_1 bcat))

/-- The three column blocks of a 192-column row: column `q` of the first, second and third block. -/
abbrev colZ (q : Fin 64) : Fin 192 := ⟨q.val, by have := q.isLt; omega⟩
abbrev colR (q : Fin 64) : Fin 192 := ⟨64 + q.val, by have := q.isLt; omega⟩
abbrev colH (q : Fin 64) : Fin 192 := ⟨128 + q.val, by have := q.isLt; omega⟩

/-! ## Pieces laid end to end, read in each block -/

section Cat

/-- The biases laid end to end read, in the first block, the first vector. -/
theorem biasCat_z (b4 b6 b8 : FVec Ideal S64 .f32) (q : Fin 64) : biasCat b4 b6 b8 (ix1 (colZ q)) = b4 (ix1 q) := by
  unfold biasCat
  exact concatenate_apply_piece (t := S192) 0 [⟨S64, b4⟩, ⟨S64, b6⟩, ⟨S64, b8⟩] _ (ix1 (colZ q)) 0 (by simp) S64 b4 rfl rfl 0 rfl (ix1 q)
    (fun b => match b with
      | ⟨0, _⟩ => fun hb => absurd rfl hb) (Nat.zero_add _)

/-- In the second block, the second vector. -/
theorem biasCat_r (b4 b6 b8 : FVec Ideal S64 .f32) (q : Fin 64) : biasCat b4 b6 b8 (ix1 (colR q)) = b6 (ix1 q) := by
  unfold biasCat
  exact concatenate_apply_piece (t := S192) 0 [⟨S64, b4⟩, ⟨S64, b6⟩, ⟨S64, b8⟩] _ (ix1 (colR q)) 1 (by simp) S64 b6 rfl rfl 64 rfl (ix1 q)
    (fun b => match b with
      | ⟨0, _⟩ => fun hb => absurd rfl hb) rfl

/-- In the third block, the third vector. -/
theorem biasCat_h (b4 b6 b8 : FVec Ideal S64 .f32) (q : Fin 64) : biasCat b4 b6 b8 (ix1 (colH q)) = b8 (ix1 q) := by
  unfold biasCat
  exact concatenate_apply_piece (t := S192) 0 [⟨S64, b4⟩, ⟨S64, b6⟩, ⟨S64, b8⟩] _ (ix1 (colH q)) 2 (by simp) S64 b8 rfl rfl 128 rfl (ix1 q)
    (fun b => match b with
      | ⟨0, _⟩ => fun hb => absurd rfl hb) rfl

/-- Three 64 × 64 matrices set side by side. -/
def wCat (w3 w5 w7 : FVec Ideal S64x64 .f32) : FVec Ideal S64x192 .f32 :=
  concatenate S64x192 1 [⟨S64x64, w3⟩, ⟨S64x64, w5⟩, ⟨S64x64, w7⟩] concatenates_S64x64_S64x64_S64x64_S64x192_d1

/-- Side by side, the first block of columns is the first matrix. -/
theorem wCat_z (w3 w5 w7 : FVec Ideal S64x64 .f32) (k q : Fin 64) : wCat w3 w5 w7 (ix2 k (colZ q)) = w3 (ix2 k q) := by
  unfold wCat
  exact concatenate_apply_piece (t := S64x192) 1 [⟨S64x64, w3⟩, ⟨S64x64, w5⟩, ⟨S64x64, w7⟩] _ (ix2 k (colZ q)) 0 (by simp) S64x64 w3 rfl rfl 0 rfl (ix2 k q)
    (fun b => match b with
      | ⟨0, _⟩ => fun _ => rfl
      | ⟨1, _⟩ => fun hb => absurd rfl hb) (Nat.zero_add _)

/-- The second block is the second matrix. -/
theorem wCat_r (w3 w5 w7 : FVec Ideal S64x64 .f32) (k q : Fin 64) : wCat w3 w5 w7 (ix2 k (colR q)) = w5 (ix2 k q) := by
  unfold wCat
  exact concatenate_apply_piece (t := S64x192) 1 [⟨S64x64, w3⟩, ⟨S64x64, w5⟩, ⟨S64x64, w7⟩] _ (ix2 k (colR q)) 1 (by simp) S64x64 w5 rfl rfl 64 rfl (ix2 k q)
    (fun b => match b with
      | ⟨0, _⟩ => fun _ => rfl
      | ⟨1, _⟩ => fun hb => absurd rfl hb) rfl

/-- The third block is the third matrix. -/
theorem wCat_h (w3 w5 w7 : FVec Ideal S64x64 .f32) (k q : Fin 64) : wCat w3 w5 w7 (ix2 k (colH q)) = w7 (ix2 k q) := by
  unfold wCat
  exact concatenate_apply_piece (t := S64x192) 1 [⟨S64x64, w3⟩, ⟨S64x64, w5⟩, ⟨S64x64, w7⟩] _ (ix2 k (colH q)) 2 (by simp) S64x64 w7 rfl rfl 128 rfl (ix2 k q)
    (fun b => match b with
      | ⟨0, _⟩ => fun _ => rfl
      | ⟨1, _⟩ => fun hb => absurd rfl hb) rfl

end Cat

/-! ## The side-by-side convolutions read at an index -/

/-- One entry of a convolution over index columns `sc` (source rows) and `dc` (target nodes): zero plus the sum, over
    the edges whose target is `p`, of the source row's entry in column `c` times the edge's weight, plus the bias `bq`. -/
def convSum (M : FVec Ideal S100000x192 .f32) (ew : FVec Ideal S800000 .f32) (sc dc : IVec S800000x1 32) (bq : EReal)
    (p : Fin 100000) (c : Fin 192) : EReal :=
  (zeroF + ∑ e : Fin 800000, if (dc (ix2 e 0)).toInt = (p.val : ℤ)
      then M (ix2 (src sc e) c) * ew (ix1 e) else 0) + bq

/-- The side-by-side convolutions at node `p` and column `c`. -/
theorem convArr_apply (M : FVec Ideal S100000x192 .f32) (ew : FVec Ideal S800000 .f32) (sc dc : IVec S800000x1 32)
    (bcat : FVec Ideal S192 .f32) (p : Fin 100000) (c : Fin 192) :
    convArr M ew sc dc bcat (ix2 p c) = convSum M ew sc dc (bcat (ix1 c)) p c := by
  unfold convArr convSum
  refine (addf_apply _ _ _).trans (congrArg₂ (· + ·) ?_ ?_)
  · refine (Idealize.ShloMosaic.ScatterAddRows.scatterAdd_rows_apply
      scatter_S100000x192_S800000x1_S800000x192_1_0_0_1 rfl rfl rfl rfl _ dc _ p c).trans ?_
    refine congrArg₂ (· + ·) ?_ (Finset.sum_congr rfl fun e _ => ?_)
    · exact Cert.LibRowOps.broadcastInDim_scalar_apply _ _ _
    · refine if_congr Iff.rfl ?_ rfl
      refine (mulf_apply _ _ _).trans (congrArg₂ (· * ·) ?_ ?_)
      · exact Idealize.ShloMosaic.GatherAxis0.gather_rows_apply (by decide) _ M sc e c
      · exact (Cert.LibRowOps.broadcastInDim_a1_ab_apply _ _ e c).trans (Cert.LibRowOps.broadcastInDim_a_a1_apply _ ew e 0)
  · exact (Cert.LibRowOps.broadcastInDim_1b_ab_apply _ _ p c).trans (Cert.LibRowOps.broadcastInDim_b_1b_apply _ bcat 0 c)

/-! ## The stretches' results as composed terms -/

section Run
variable (Wv : Valuation τ sig (Elt Ideal))

theorem src_col : (StableHlo.after (hostOps1 (F := Ideal)) Wv (Proc.devRef .tc main_v11) : IVec S800000x1 32)
    = srcCol (Wv (Proc.devRef .tc main_arg17)) := by
  dsimp only [hostOps1]
  after_results
  rfl

theorem dst_col : (StableHlo.after (hostOps1 (F := Ideal)) Wv (Proc.devRef .tc main_v17) : IVec S800000x1 32)
    = dstCol (Wv (Proc.devRef .tc main_arg17)) := by
  dsimp only [hostOps1]
  after_results
  rfl

/-- The three convolutions side by side, over the stretch's own index columns. -/
abbrev convAll : FVec Ideal S100000x192 .f32 :=
  convArr (Wv (Proc.devRef .tc main_v1)) (Wv (Proc.devRef .tc main_arg1))
    (srcCol (Wv (Proc.devRef .tc main_arg17))) (dstCol (Wv (Proc.devRef .tc main_arg17)))
    (biasCat (Wv (Proc.devRef .tc main_arg4)) (Wv (Proc.devRef .tc main_arg6)) (Wv (Proc.devRef .tc main_arg8)))

set_option maxHeartbeats 2000000 in
theorem v23_eq : (StableHlo.after (hostOps1 (F := Ideal)) Wv (Proc.devRef .tc main_v23) : FVec Ideal S100000x64 .f32)
    = extractStridedSlice S100000x64 ![0, 0] (convAll Wv) slices_S100000x192_S100000x64_0_0 := by
  dsimp only [hostOps1]
  after_results_simp
  rfl

set_option maxHeartbeats 2000000 in
theorem v24_eq : (StableHlo.after (hostOps1 (F := Ideal)) Wv (Proc.devRef .tc main_v24) : FVec Ideal S100000x64 .f32)
    = extractStridedSlice S100000x64 ![0, 64] (convAll Wv) slices_S100000x192_S100000x64_0_64 := by
  dsimp only [hostOps1]
  after_results_simp
  rfl

set_option maxHeartbeats 2000000 in
theorem v25_eq : (StableHlo.after (hostOps1 (F := Ideal)) Wv (Proc.devRef .tc main_v25) : FVec Ideal S100000x64 .f32)
    = extractStridedSlice S100000x64 ![0, 128] (convAll Wv) slices_S100000x192_S100000x64_0_128 := by
  dsimp only [hostOps1]
  after_results_simp
  rfl

end Run

/-! ## The first stretch, the bias rows, and what a stretch leaves alone -/

section Simple
variable (Wv : Valuation τ sig (Elt Ideal))

theorem v0_eq : (StableHlo.after (hostOps0 (F := Ideal)) Wv (Proc.devRef .tc main_v0) : FVec Ideal S64x192 .f32)
    = wCat (Wv (Proc.devRef .tc main_arg3)) (Wv (Proc.devRef .tc main_arg5)) (Wv (Proc.devRef .tc main_arg7)) := by
  dsimp only [hostOps0]
  after_results_simp <;> rfl

theorem concat_z (k q : Fin 64) :
    (StableHlo.after (hostOps0 (F := Ideal)) Wv (Proc.devRef .tc main_v0) : FVec Ideal S64x192 .f32) (ix2 k (colZ q))
      = (Wv (Proc.devRef .tc main_arg3) : FVec Ideal S64x64 .f32) (ix2 k q) :=
  (congrFun (v0_eq Wv) _).trans (wCat_z _ _ _ k q)

theorem concat_r (k q : Fin 64) :
    (StableHlo.after (hostOps0 (F := Ideal)) Wv (Proc.devRef .tc main_v0) : FVec Ideal S64x192 .f32) (ix2 k (colR q))
      = (Wv (Proc.devRef .tc main_arg5) : FVec Ideal S64x64 .f32) (ix2 k q) :=
  (congrFun (v0_eq Wv) _).trans (wCat_r _ _ _ k q)

theorem concat_h (k q : Fin 64) :
    (StableHlo.after (hostOps0 (F := Ideal)) Wv (Proc.devRef .tc main_v0) : FVec Ideal S64x192 .f32) (ix2 k (colH q))
      = (Wv (Proc.devRef .tc main_arg7) : FVec Ideal S64x64 .f32) (ix2 k q) :=
  (congrFun (v0_eq Wv) _).trans (wCat_h _ _ _ k q)

theorem bias_z (q : Fin 64) :
    (StableHlo.after (hostOps1 (F := Ideal)) Wv (Proc.devRef .tc main_v32) : FVec Ideal S1x64 .f32) (ix2 (0 : Fin 1) q)
      = (Wv (Proc.devRef .tc main_arg10) : FVec Ideal S64 .f32) (ix1 q) := by
  have e : (StableHlo.after (hostOps1 (F := Ideal)) Wv (Proc.devRef .tc main_v32) : FVec Ideal S1x64 .f32)
      = shapeCast S1x64 (Wv (Proc.devRef .tc main_arg10)) shapeCasts_S64_S1x64 := by
    dsimp only [hostOps1]
    after_results_simp <;> rfl
  exact (congrFun e _).trans (shapeCast_a_1a_apply _ _ 0 q)

theorem bias_r (q : Fin 64) :
    (StableHlo.after (hostOps1 (F := Ideal)) Wv (Proc.devRef .tc main_v33) : FVec Ideal S1x64 .f32) (ix2 (0 : Fin 1) q)
      = (Wv (Proc.devRef .tc main_arg12) : FVec Ideal S64 .f32) (ix1 q) := by
  have e : (StableHlo.after (hostOps1 (F := Ideal)) Wv (Proc.devRef .tc main_v33) : FVec Ideal S1x64 .f32)
      = shapeCast S1x64 (Wv (Proc.devRef .tc main_arg12)) shapeCasts_S64_S1x64 := by
    dsimp only [hostOps1]
    after_results_simp <;> rfl
  exact (congrFun e _).trans (shapeCast_a_1a_apply _ _ 0 q)

theorem bias_c (q : Fin 64) :
    (StableHlo.after (hostOps1 (F := Ideal)) Wv (Proc.devRef .tc main_v34) : FVec Ideal S1x64 .f32) (ix2 (0 : Fin 1) q)
      = (Wv (Proc.devRef .tc main_arg14) : FVec Ideal S64 .f32) (ix1 q) := by
  have e : (StableHlo.after (hostOps1 (F := Ideal)) Wv (Proc.devRef .tc main_v34) : FVec Ideal S1x64 .f32)
      = shapeCast S1x64 (Wv (Proc.devRef .tc main_arg14)) shapeCasts_S64_S1x64 := by
    dsimp only [hostOps1]
    after_results_simp <;> rfl
  exact (congrFun e _).trans (shapeCast_a_1a_apply _ _ 0 q)

theorem bias_o (q : Fin 64) :
    (StableHlo.after (hostOps1 (F := Ideal)) Wv (Proc.devRef .tc main_v35) : FVec Ideal S1x64 .f32) (ix2 (0 : Fin 1) q)
      = (Wv (Proc.devRef .tc main_arg16) : FVec Ideal S64 .f32) (ix1 q) := by
  have e : (StableHlo.after (hostOps1 (F := Ideal)) Wv (Proc.devRef .tc main_v35) : FVec Ideal S1x64 .f32)
      = shapeCast S1x64 (Wv (Proc.devRef .tc main_arg16)) shapeCasts_S64_S1x64 := by
    dsimp only [hostOps1]
    after_results_simp <;> rfl
  exact (congrFun e _).trans (shapeCast_a_1a_apply _ _ 0 q)

/-- A reference no operation of the second stretch writes keeps its contents. -/
theorem kept (b : Ref sig .tc) (h : b ∉ hostOps1_W) :
    StableHlo.after (hostOps1 (F := Ideal)) Wv (Proc.devRef .tc b) = Wv (Proc.devRef .tc b) :=
  StableHlo.after_of_writes_sub hostOps1 Wv hostOps1_writes h

/-- A reference the first stretch does not write keeps its contents. -/
theorem kept0 (b : Ref sig .tc) (h : b ∉ hostOps0_W) :
    StableHlo.after (hostOps0 (F := Ideal)) Wv (Proc.devRef .tc b) = Wv (Proc.devRef .tc b) :=
  StableHlo.after_of_writes_sub hostOps0 Wv hostOps0_writes h

end Simple

/-! ## The second stretch's results read at an index -/

section Results
variable (Wv : Valuation τ sig (Elt Ideal))

/-- The update convolution: the first block of columns. -/
theorem conv_z (p : Fin 100000) (q : Fin 64) :
    (StableHlo.after (hostOps1 (F := Ideal)) Wv (Proc.devRef .tc main_v23) : FVec Ideal S100000x64 .f32) (ix2 p q)
      = convSum (Wv (Proc.devRef .tc main_v1)) (Wv (Proc.devRef .tc main_arg1))
          (StableHlo.after (hostOps1 (F := Ideal)) Wv (Proc.devRef .tc main_v11))
          (StableHlo.after (hostOps1 (F := Ideal)) Wv (Proc.devRef .tc main_v17))
          ((Wv (Proc.devRef .tc main_arg4) : FVec Ideal S64 .f32) (ix1 q)) p (colZ q) := by
  refine (congrFun (v23_eq Wv) _).trans ?_
  refine (slice2_axis1_apply 0 _ _ p q (colZ q) (Nat.zero_add _).symm).trans ?_
  refine (convArr_apply _ _ _ _ _ p (colZ q)).trans ?_
  refine (congrArg (fun b => convSum _ _ _ _ b p (colZ q)) (biasCat_z _ _ _ q)).trans ?_
  exact congrArg₂ (fun sc dc => convSum _ _ sc dc _ p (colZ q)) (src_col Wv).symm (dst_col Wv).symm

/-- The reset convolution: the second block of columns. -/
theorem conv_r (p : Fin 100000) (q : Fin 64) :
    (StableHlo.after (hostOps1 (F := Ideal)) Wv (Proc.devRef .tc main_v24) : FVec Ideal S100000x64 .f32) (ix2 p q)
      = convSum (Wv (Proc.devRef .tc main_v1)) (Wv (Proc.devRef .tc main_arg1))
          (StableHlo.after (hostOps1 (F := Ideal)) Wv (Proc.devRef .tc main_v11))
          (StableHlo.after (hostOps1 (F := Ideal)) Wv (Proc.devRef .tc main_v17))
          ((Wv (Proc.devRef .tc main_arg6) : FVec Ideal S64 .f32) (ix1 q)) p (colR q) := by
  refine (congrFun (v24_eq Wv) _).trans ?_
  refine (slice2_axis1_apply 64 _ _ p q (colR q) rfl).trans ?_
  refine (convArr_apply _ _ _ _ _ p (colR q)).trans ?_
  refine (congrArg (fun b => convSum _ _ _ _ b p (colR q)) (biasCat_r _ _ _ q)).trans ?_
  exact congrArg₂ (fun sc dc => convSum _ _ sc dc _ p (colR q)) (src_col Wv).symm (dst_col Wv).symm

/-- The candidate convolution: the third block of columns. -/
theorem conv_h (p : Fin 100000) (q : Fin 64) :
    (StableHlo.after (hostOps1 (F := Ideal)) Wv (Proc.devRef .tc main_v25) : FVec Ideal S100000x64 .f32) (ix2 p q)
      = convSum (Wv (Proc.devRef .tc main_v1)) (Wv (Proc.devRef .tc main_arg1))
          (StableHlo.after (hostOps1 (F := Ideal)) Wv (Proc.devRef .tc main_v11))
          (StableHlo.after (hostOps1 (F := Ideal)) Wv (Proc.devRef .tc main_v17))
          ((Wv (Proc.devRef .tc main_arg8) : FVec Ideal S64 .f32) (ix1 q)) p (colH q) := by
  refine (congrFun (v25_eq Wv) _).trans ?_
  refine (slice2_axis1_apply 128 _ _ p q (colH q) rfl).trans ?_
  refine (convArr_apply _ _ _ _ _ p (colH q)).trans ?_
  refine (congrArg (fun b => convSum _ _ _ _ b p (colH q)) (biasCat_h _ _ _ q)).trans ?_
  exact congrArg₂ (fun sc dc => convSum _ _ sc dc _ p (colH q)) (src_col Wv).symm (dst_col Wv).symm

/-- The rows 0 … 63 of a 128 × 64 matrix. -/
theorem sliceTop (L : FVec Ideal S128x64 .f32) (k q : Fin 64) :
    extractStridedSlice S64x64 ![0, 0] L slices_S128x64_S64x64_0_0 (ix2 k q) = top L k q :=
  slice2_axis0_apply 0 L _ k q (Fin.castAdd 64 k) (Nat.zero_add _).symm

/-- The rows 64 … 127 of a 128 × 64 matrix. -/
theorem sliceBot (L : FVec Ideal S128x64 .f32) (k q : Fin 64) :
    extractStridedSlice S64x64 ![64, 0] L slices_S128x64_S64x64_64_0 (ix2 k q) = bot L k q :=
  slice2_axis0_apply 64 L _ k q (Fin.natAdd 64 k) rfl

theorem half_zt (k q : Fin 64) :
    (StableHlo.after (hostOps1 (F := Ideal)) Wv (Proc.devRef .tc main_v26) : FVec Ideal S64x64 .f32) (ix2 k q)
      = top (Wv (Proc.devRef .tc main_arg9)) k q := by
  have e : (StableHlo.after (hostOps1 (F := Ideal)) Wv (Proc.devRef .tc main_v26) : FVec Ideal S64x64 .f32)
      = extractStridedSlice S64x64 ![0, 0] (Wv (Proc.devRef .tc main_arg9)) slices_S128x64_S64x64_0_0 := by
    dsimp only [hostOps1]
    after_results_simp <;> rfl
  exact (congrFun e _).trans (sliceTop _ k q)

theorem half_zb (k q : Fin 64) :
    (StableHlo.after (hostOps1 (F := Ideal)) Wv (Proc.devRef .tc main_v27) : FVec Ideal S64x64 .f32) (ix2 k q)
      = bot (Wv (Proc.devRef .tc main_arg9)) k q := by
  have e : (StableHlo.after (hostOps1 (F := Ideal)) Wv (Proc.devRef .tc main_v27) : FVec Ideal S64x64 .f32)
      = extractStridedSlice S64x64 ![64, 0] (Wv (Proc.devRef .tc main_arg9)) slices_S128x64_S64x64_64_0 := by
    dsimp only [hostOps1]
    after_results_simp <;> rfl
  exact (congrFun e _).trans (sliceBot _ k q)

theorem half_rt (k q : Fin 64) :
    (StableHlo.after (hostOps1 (F := Ideal)) Wv (Proc.devRef .tc main_v28) : FVec Ideal S64x64 .f32) (ix2 k q)
      = top (Wv (Proc.devRef .tc main_arg11)) k q := by
  have e : (StableHlo.after (hostOps1 (F := Ideal)) Wv (Proc.devRef .tc main_v28) : FVec Ideal S64x64 .f32)
      = extractStridedSlice S64x64 ![0, 0] (Wv (Proc.devRef .tc main_arg11)) slices_S128x64_S64x64_0_0 := by
    dsimp only [hostOps1]
    after_results_simp <;> rfl
  exact (congrFun e _).trans (sliceTop _ k q)

theorem half_rb (k q : Fin 64) :
    (StableHlo.after (hostOps1 (F := Ideal)) Wv (Proc.devRef .tc main_v29) : FVec Ideal S64x64 .f32) (ix2 k q)
      = bot (Wv (Proc.devRef .tc main_arg11)) k q := by
  have e : (StableHlo.after (hostOps1 (F := Ideal)) Wv (Proc.devRef .tc main_v29) : FVec Ideal S64x64 .f32)
      = extractStridedSlice S64x64 ![64, 0] (Wv (Proc.devRef .tc main_arg11)) slices_S128x64_S64x64_64_0 := by
    dsimp only [hostOps1]
    after_results_simp <;> rfl
  exact (congrFun e _).trans (sliceBot _ k q)

theorem half_ct (k q : Fin 64) :
    (StableHlo.after (hostOps1 (F := Ideal)) Wv (Proc.devRef .tc main_v30) : FVec Ideal S64x64 .f32) (ix2 k q)
      = top (Wv (Proc.devRef .tc main_arg13)) k q := by
  have e : (StableHlo.after (hostOps1 (F := Ideal)) Wv (Proc.devRef .tc main_v30) : FVec Ideal S64x64 .f32)
      = extractStridedSlice S64x64 ![0, 0] (Wv (Proc.devRef .tc main_arg13)) slices_S128x64_S64x64_0_0 := by
    dsimp only [hostOps1]
    after_results_simp <;> rfl
  exact (congrFun e _).trans (sliceTop _ k q)

theorem half_cb (k q : Fin 64) :
    (StableHlo.after (hostOps1 (F := Ideal)) Wv (Proc.devRef .tc main_v31) : FVec Ideal S64x64 .f32) (ix2 k q)
      = bot (Wv (Proc.devRef .tc main_arg13)) k q := by
  have e : (StableHlo.after (hostOps1 (F := Ideal)) Wv (Proc.devRef .tc main_v31) : FVec Ideal S64x64 .f32)
      = extractStridedSlice S64x64 ![64, 0] (Wv (Proc.devRef .tc main_arg13)) slices_S128x64_S64x64_64_0 := by
    dsimp only [hostOps1]
    after_results_simp <;> rfl
  exact (congrFun e _).trans (sliceBot _ k q)

end Results

end Cert.KernelIdeal.HostValue

end
-- ==== Proof.KernelValue.lean ====
/-
  The idealized kernel program's two results as functions of its arguments.

  The run passes through five states of the buffers: the launch memory; after the three weight matrices are set side
  by side; after the first region (the table of products `Σ_k X(p, k) · [Wz | Wr | Wh](k, n)`); after the host's
  gather, scaling, scatter-add, bias, slices, halves and reshapes; after the second region (the gated cell of every
  node's rows). Read back to the arguments: column `q`, `64 + q`, `128 + q` of the table against the three weight
  matrices' column `q` makes each of the three column slices the graph convolution with its own matrix and bias; the
  halves of the 128 × 64 matrices are their top and bottom; so the second region's two arrays are the specification's
  new state and readout of the argument arrays.
-/
import proofs.«111474_j1786706395616_1_alg».proof.Proof.RunIdeal
import proofs.«111474_j1786706395616_1_alg».proof.Proof.MatmulArray
import proofs.«111474_j1786706395616_1_alg».proof.Proof.GateArray
import proofs.«111474_j1786706395616_1_alg».proof.Proof.HostStretch
import proofs.«111474_j1786706395616_1_alg».proof.Proof.Spec

set_option maxRecDepth 16384

noncomputable section

namespace Cert.KernelIdeal.Whole

open Idealize.ShloMosaic Idealize.ShloMosaic.TcCoe Idealize.ShloMosaic.ValueIdx Idealize.SL.Sem
open Cert.KernelIdeal Cert.KernelIdeal.Gen Cert.GatedGraphCell
open Cert.KernelIdeal.HostValue Cert.KernelIdeal.ProductArray Cert.KernelIdeal.CellArray

variable (m : (ℓ : Loc nD τ sig) → Buf (Elt Ideal) ℓ) (ρ : Dev nD → PrngReg)

/-- Core `c`'s contents of a buffer at launch. -/
abbrev arg (c : Dev nD) (b : Ref sig .tc) : Buf (Elt Ideal) ((c : Thread nD τ).loc b) := m ((c : Thread nD τ).loc b)

/-! ## Before the first region -/

/-- A buffer the concatenation does not write enters the first region as launched. -/
theorem entry0 (c : Dev nD) (b : Ref sig .tc) (hb : b ∉ Hand.written0) :
    Hand.W1 m ρ c (Proc.devRef .tc b) = arg m c b :=
  (Hand.hostOps0_keeps (Hand.W0 m ρ c) b hb).trans rfl

/-- The three weight matrices side by side: column `q`, `64 + q`, `128 + q` of the joined matrix. -/
theorem joined_z (c : Dev nD) (k q : Fin 64) :
    (Hand.W1 m ρ c (Proc.devRef .tc main_v0) : S64x192.Idx → EReal) (ix2 k (colZ q))
      = (arg m c main_arg3 : S64x64.Idx → EReal) (ix2 k q) :=
  (concat_z (Hand.W0 m ρ c) k q).trans rfl
theorem joined_r (c : Dev nD) (k q : Fin 64) :
    (Hand.W1 m ρ c (Proc.devRef .tc main_v0) : S64x192.Idx → EReal) (ix2 k (colR q))
      = (arg m c main_arg5 : S64x64.Idx → EReal) (ix2 k q) :=
  (concat_r (Hand.W0 m ρ c) k q).trans rfl
theorem joined_h (c : Dev nD) (k q : Fin 64) :
    (Hand.W1 m ρ c (Proc.devRef .tc main_v0) : S64x192.Idx → EReal) (ix2 k (colH q))
      = (arg m c main_arg7 : S64x64.Idx → EReal) (ix2 k q) :=
  (concat_h (Hand.W0 m ρ c) k q).trans rfl

/-! ## After the first region -/

/-- The first region leaves the table of products of the node features with the joined matrix. -/
theorem table (c : Dev nD) :
    Hand.W2 m ρ c (Proc.devRef .tc main_v1)
      = prodArr (arg m c main_arg0) (Hand.W1 m ρ c (Proc.devRef .tc main_v0)) := by
  refine (Hand.W2_arr m ρ c 2).trans ((product_array (Hand.V1 m ρ) c).trans ?_)
  show prodArr (Hand.W1 m ρ c (Proc.devRef .tc main_arg0)) _ = _
  rw [entry0 m ρ c main_arg0 (by decide)]

/-- A buffer that is no array of the first region and that the concatenation does not write is still as launched. -/
theorem entry1 (c : Dev nD) (b : Ref sig .tc) (hb : b ∉ Hand.written0) (hne : ∀ w, Pipeline.arrRef spec0 w ≠ b) :
    Hand.W2 m ρ c (Proc.devRef .tc b) = arg m c b :=
  (Hand.W2_of_ne m ρ c b hne).trans (entry0 m ρ c b hb)

/-! ## Before the second region -/

/-- The source and landing columns of the edges, from the edge list as launched. -/
abbrev sCol (c : Dev nD) : IVec S800000x1 32 := srcCol (arg m c main_arg17)
abbrev dCol (c : Dev nD) : IVec S800000x1 32 := dstCol (arg m c main_arg17)

theorem src_entry (c : Dev nD) : Hand.W3 m ρ c (Proc.devRef .tc main_v11) = sCol m c := by
  refine (src_col (Hand.W2 m ρ c)).trans ?_
  rw [entry1 m ρ c main_arg17 (by decide) (by decide)]
theorem dst_entry (c : Dev nD) : Hand.W3 m ρ c (Proc.devRef .tc main_v17) = dCol m c := by
  refine (dst_col (Hand.W2 m ρ c)).trans ?_
  rw [entry1 m ρ c main_arg17 (by decide) (by decide)]

/-- A buffer no host operation writes and no first-region array enters the second region as launched. -/
theorem entry2 (c : Dev nD) (b : Ref sig .tc) (hb1 : b ∉ Hand.written1) (hb : b ∉ Hand.written0)
    (hne : ∀ w, Pipeline.arrRef spec0 w ≠ b) : Hand.V3 m ρ c b = arg m c b :=
  (Hand.hostOps1_keeps (Hand.W2 m ρ c) b hb1).trans (entry1 m ρ c b hb hne)

/-- The first column slice of the scattered sums plus biases is the convolution with `W_z`, `b_z`. -/
theorem conv_entry_z (c : Dev nD) (p : Fin 100000) (q : Fin 64) :
    (Hand.V3 m ρ c main_v23 : S100000x64.Idx → EReal) (ix2 p q)
      = convAt (arg m c main_arg0) (arg m c main_arg1) (sCol m c) (dCol m c) (arg m c main_arg3) (arg m c main_arg4) p q := by
  refine (conv_z (Hand.W2 m ρ c) p q).trans ?_
  rw [show StableHlo.after (hostOps1 (F := Ideal)) (Hand.W2 m ρ c) (Proc.devRef .tc main_v17) = dCol m c from dst_entry m ρ c,
    show StableHlo.after (hostOps1 (F := Ideal)) (Hand.W2 m ρ c) (Proc.devRef .tc main_v11) = sCol m c from src_entry m ρ c,
    table m ρ c, entry1 m ρ c main_arg1 (by decide) (by decide), entry1 m ρ c main_arg4 (by decide) (by decide)]
  unfold convSum convAt conv
  simp only [prodArr_apply]
  unfold prodAt
  simp only [joined_z m ρ c]
theorem conv_entry_r (c : Dev nD) (p : Fin 100000) (q : Fin 64) :
    (Hand.V3 m ρ c main_v24 : S100000x64.Idx → EReal) (ix2 p q)
      = convAt (arg m c main_arg0) (arg m c main_arg1) (sCol m c) (dCol m c) (arg m c main_arg5) (arg m c main_arg6) p q := by
  refine (conv_r (Hand.W2 m ρ c) p q).trans ?_
  rw [show StableHlo.after (hostOps1 (F := Ideal)) (Hand.W2 m ρ c) (Proc.devRef .tc main_v17) = dCol m c from dst_entry m ρ c,
    show StableHlo.after (hostOps1 (F := Ideal)) (Hand.W2 m ρ c) (Proc.devRef .tc main_v11) = sCol m c from src_entry m ρ c,
    table m ρ c, entry1 m ρ c main_arg1 (by decide) (by decide), entry1 m ρ c main_arg6 (by decide) (by decide)]
  unfold convSum convAt conv
  simp only [prodArr_apply]
  unfold prodAt
  simp only [joined_r m ρ c]
theorem conv_entry_h (c : Dev nD) (p : Fin 100000) (q : Fin 64) :
    (Hand.V3 m ρ c main_v25 : S100000x64.Idx → EReal) (ix2 p q)
      = convAt (arg m c main_arg0) (arg m c main_arg1) (sCol m c) (dCol m c) (arg m c main_arg7) (arg m c main_arg8) p q := by
  refine (conv_h (Hand.W2 m ρ c) p q).trans ?_
  rw [show StableHlo.after (hostOps1 (F := Ideal)) (Hand.W2 m ρ c) (Proc.devRef .tc main_v17) = dCol m c from dst_entry m ρ c,
    show StableHlo.after (hostOps1 (F := Ideal)) (Hand.W2 m ρ c) (Proc.devRef .tc main_v11) = sCol m c from src_entry m ρ c,
    table m ρ c, entry1 m ρ c main_arg1 (by decide) (by decide), entry1 m ρ c main_arg8 (by decide) (by decide)]
  unfold convSum convAt conv
  simp only [prodArr_apply]
  unfold prodAt
  simp only [joined_h m ρ c]

/-- The six half matrices and the four bias rows, from the arguments as launched. -/
theorem half_entry_zt (c : Dev nD) (k n : Fin 64) : (Hand.V3 m ρ c main_v26 : S64x64.Idx → EReal) (ix2 k n) = top (arg m c main_arg9) k n := by
  refine (half_zt (Hand.W2 m ρ c) k n).trans ?_; rw [entry1 m ρ c main_arg9 (by decide) (by decide)]
theorem half_entry_zb (c : Dev nD) (k n : Fin 64) : (Hand.V3 m ρ c main_v27 : S64x64.Idx → EReal) (ix2 k n) = bot (arg m c main_arg9) k n := by
  refine (half_zb (Hand.W2 m ρ c) k n).trans ?_; rw [entry1 m ρ c main_arg9 (by decide) (by decide)]
theorem half_entry_rt (c : Dev nD) (k n : Fin 64) : (Hand.V3 m ρ c main_v28 : S64x64.Idx → EReal) (ix2 k n) = top (arg m c main_arg11) k n := by
  refine (half_rt (Hand.W2 m ρ c) k n).trans ?_; rw [entry1 m ρ c main_arg11 (by decide) (by decide)]
theorem half_entry_rb (c : Dev nD) (k n : Fin 64) : (Hand.V3 m ρ c main_v29 : S64x64.Idx → EReal) (ix2 k n) = bot (arg m c main_arg11) k n := by
  refine (half_rb (Hand.W2 m ρ c) k n).trans ?_; rw [entry1 m ρ c main_arg11 (by decide) (by decide)]
theorem half_entry_ct (c : Dev nD) (k n : Fin 64) : (Hand.V3 m ρ c main_v30 : S64x64.Idx → EReal) (ix2 k n) = top (arg m c main_arg13) k n := by
  refine (half_ct (Hand.W2 m ρ c) k n).trans ?_; rw [entry1 m ρ c main_arg13 (by decide) (by decide)]
theorem half_entry_cb (c : Dev nD) (k n : Fin 64) : (Hand.V3 m ρ c main_v31 : S64x64.Idx → EReal) (ix2 k n) = bot (arg m c main_arg13) k n := by
  refine (half_cb (Hand.W2 m ρ c) k n).trans ?_; rw [entry1 m ρ c main_arg13 (by decide) (by decide)]
theorem bias_entry_z (c : Dev nD) (n : Fin 64) : (Hand.V3 m ρ c main_v32 : S1x64.Idx → EReal) (ix2 (0 : Fin 1) n) = (arg m c main_arg10 : S64.Idx → EReal) (ix1 n) := by
  refine (bias_z (Hand.W2 m ρ c) n).trans ?_; rw [entry1 m ρ c main_arg10 (by decide) (by decide)]
theorem bias_entry_r (c : Dev nD) (n : Fin 64) : (Hand.V3 m ρ c main_v33 : S1x64.Idx → EReal) (ix2 (0 : Fin 1) n) = (arg m c main_arg12 : S64.Idx → EReal) (ix1 n) := by
  refine (bias_r (Hand.W2 m ρ c) n).trans ?_; rw [entry1 m ρ c main_arg12 (by decide) (by decide)]
theorem bias_entry_c (c : Dev nD) (n : Fin 64) : (Hand.V3 m ρ c main_v34 : S1x64.Idx → EReal) (ix2 (0 : Fin 1) n) = (arg m c main_arg14 : S64.Idx → EReal) (ix1 n) := by
  refine (bias_c (Hand.W2 m ρ c) n).trans ?_; rw [entry1 m ρ c main_arg14 (by decide) (by decide)]
theorem bias_entry_o (c : Dev nD) (n : Fin 64) : (Hand.V3 m ρ c main_v35 : S1x64.Idx → EReal) (ix2 (0 : Fin 1) n) = (arg m c main_arg16 : S64.Idx → EReal) (ix1 n) := by
  refine (bias_o (Hand.W2 m ρ c) n).trans ?_; rw [entry1 m ρ c main_arg16 (by decide) (by decide)]

/-! ## After the second region -/

/-- THE NEW STATE the program returns is the specification's, of the arguments as launched. -/
theorem state_result (c : Dev nD) :
    Hand.W4 m ρ c (Proc.devRef .tc main_v36_1)
      = hArr (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (sCol m c) (dCol m c) := by
  refine (Hand.W4_arr m ρ c 16).trans ((state_array (Hand.V3 m ρ) c).trans ?_)
  funext i
  obtain ⟨p, q, rfl⟩ : ∃ (p : Fin 100000) (q : Fin 64), i = ix2 p q := ⟨i 0, i 1, eq_ix2 i⟩
  show stateAt (Hand.V3 m ρ) c p q = hNew _ _ _ _ _ _ _ _ _ _ _ _ _ _ _ _ _ p q
  unfold stateAt hNew
  simp only [conv_entry_z m ρ c, conv_entry_r m ρ c, conv_entry_h m ρ c, half_entry_zt m ρ c, half_entry_zb m ρ c,
    half_entry_rt m ρ c, half_entry_rb m ρ c, half_entry_ct m ρ c, half_entry_cb m ρ c, bias_entry_z m ρ c,
    bias_entry_r m ρ c, bias_entry_c m ρ c,
    entry2 m ρ c main_arg2 (by decide) (by decide) (by decide)]
  first | done | rfl

/-- THE READOUT the program returns is the specification's, of the arguments as launched. -/
theorem readout_result (c : Dev nD) :
    Hand.W4 m ρ c (Proc.devRef .tc main_v36_0)
      = yArr (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (sCol m c) (dCol m c) := by
  refine (Hand.W4_arr m ρ c 15).trans ((readout_array (Hand.V3 m ρ) c).trans ?_)
  funext i
  obtain ⟨p, q, rfl⟩ : ∃ (p : Fin 100000) (q : Fin 64), i = ix2 p q := ⟨i 0, i 1, eq_ix2 i⟩
  show readoutAt (Hand.V3 m ρ) c p q = yOut _ _ _ _ _ _ _ _ _ _ _ _ _ _ _ _ _ _ _ p q
  unfold readoutAt yOut
  simp only [conv_entry_z m ρ c, conv_entry_r m ρ c, conv_entry_h m ρ c, half_entry_zt m ρ c, half_entry_zb m ρ c,
    half_entry_rt m ρ c, half_entry_rb m ρ c, half_entry_ct m ρ c, half_entry_cb m ρ c, bias_entry_z m ρ c,
    bias_entry_r m ρ c, bias_entry_c m ρ c, bias_entry_o m ρ c,
    entry2 m ρ c main_arg2 (by decide) (by decide) (by decide), entry2 m ρ c main_arg15 (by decide) (by decide) (by decide)]
  first | done | rfl

/-! ## The run, read -/

/-- Every weakly fair execution of the program terminates with the two results at the specification's arrays of the
    arguments, and the arguments unchanged. -/
theorem run : θ_run defs (onTc (τ := τ) (main (F := Ideal))) ⟨m, fun _ => 0, ρ⟩ (fun r => ∀ c : Dev nD,
      r.2.mem ((c.tc : Thread nD τ).loc main_v36_0)
        = yArr (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (sCol m c) (dCol m c)
      ∧ r.2.mem ((c.tc : Thread nD τ).loc main_v36_1)
        = hArr (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (sCol m c) (dCol m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (Hand.mem_uc main_v36_0 (by decide))).trans (readout_result m ρ c),
     (h c _ (Hand.mem_uc main_v36_1 (by decide))).trans (state_result m ρ c),
     (h c _ (Hand.mem_uc main_arg0 (by decide))).trans (Hand.W4_main_arg0 m ρ c),
     (h c _ (Hand.mem_uc main_arg1 (by decide))).trans (Hand.W4_main_arg1 m ρ c),
     (h c _ (Hand.mem_uc main_arg2 (by decide))).trans (Hand.W4_main_arg2 m ρ c),
     (h c _ (Hand.mem_uc main_arg3 (by decide))).trans (Hand.W4_main_arg3 m ρ c),
     (h c _ (Hand.mem_uc main_arg4 (by decide))).trans (Hand.W4_main_arg4 m ρ c),
     (h c _ (Hand.mem_uc main_arg5 (by decide))).trans (Hand.W4_main_arg5 m ρ c),
     (h c _ (Hand.mem_uc main_arg6 (by decide))).trans (Hand.W4_main_arg6 m ρ c),
     (h c _ (Hand.mem_uc main_arg7 (by decide))).trans (Hand.W4_main_arg7 m ρ c),
     (h c _ (Hand.mem_uc main_arg8 (by decide))).trans (Hand.W4_main_arg8 m ρ c),
     (h c _ (Hand.mem_uc main_arg9 (by decide))).trans (Hand.W4_main_arg9 m ρ c),
     (h c _ (Hand.mem_uc main_arg10 (by decide))).trans (Hand.W4_main_arg10 m ρ c),
     (h c _ (Hand.mem_uc main_arg11 (by decide))).trans (Hand.W4_main_arg11 m ρ c),
     (h c _ (Hand.mem_uc main_arg12 (by decide))).trans (Hand.W4_main_arg12 m ρ c),
     (h c _ (Hand.mem_uc main_arg13 (by decide))).trans (Hand.W4_main_arg13 m ρ c),
     (h c _ (Hand.mem_uc main_arg14 (by decide))).trans (Hand.W4_main_arg14 m ρ c),
     (h c _ (Hand.mem_uc main_arg15 (by decide))).trans (Hand.W4_main_arg15 m ρ c),
     (h c _ (Hand.mem_uc main_arg16 (by decide))).trans (Hand.W4_main_arg16 m ρ c),
     (h c _ (Hand.mem_uc main_arg17 (by decide))).trans (Hand.W4_main_arg17 m ρ c)⟩)
    (Hand.run_all m ρ)

end Cert.KernelIdeal.Whole

end
-- ==== Proof.RefIsSpec.lean ====
/-
  The reference program computes the specification.

  The reference is a gated recurrent cell over a graph, spelt as array operations: three graph convolutions (a matrix
  product, a gather of the source rows, a scaling by the edge weights, an accumulating scatter into zero at the
  landing nodes, a bias), each joined to the state along the feature axis and sent through a 128 × 64 matrix product,
  a bias and a squashing function, then the convex blend of the old state and the candidate, and a readout.

  Read at one node `p` and one column `q`, every stage is the specification's expression: the scatter is the sum over
  the edges landing on `p`; the gather reads the source node's row; a product against the joined array splits into the
  sum over the convolution's half and the sum over the state's half; `1 / (1 + e^(-x))` is the logistic function.
-/
import proofs.«111474_j1786706395616_1_alg».proof.Proof.Gen.ReferenceIdeal.Read
import proofs.«111474_j1786706395616_1_alg».proof.Proof.Spec
import proofs.«111474_j1786706395616_1_alg».proof.Proof.LibGatherAxis0
import proofs.«111474_j1786706395616_1_alg».proof.Proof.LibScatterAddRows
import proofs.«111474_j1786706395616_1_alg».proof.Proof.LibRowOps

noncomputable section

namespace Cert.ReferenceIdeal.RefValue

open Cert.ReferenceIdeal Cert.ReferenceIdeal.Gen Cert.ReferenceIdeal.Read Idealize.ShloMosaic Idealize.ShloMosaic.ValueIdx
open Cert.GatedGraphCell

/-- An array of floats of shape `s` at the ideal values. -/
local notation "Arr⟦" s "⟧" => (BufTy.Contents (Elt Ideal) (BufTy.mk s EltTy.f32))

/-! ## Constants, biases, edge weights -/

/-- The word of `1.0` denotes one. -/
theorem ofBits_one : Ideal.ofBits .f32 0x3F800000#32 = 1 := by
  simp [Ideal.ofBits, Ideal.ieee, -EReal.coe_mul]; norm_num

/-- The array of zeros reads the zero word. -/
theorem zeros_apply (i : S100000x64.Idx) : val_main_v15 (F := Ideal) i = zeroF := by
  rw [val_main_v15_apply, val_main_cst_apply]; rfl

/-- The array of ones reads the word of one. -/
theorem ones_apply (i : S100000x64.Idx) : val_main_v28 (F := Ideal) i = oneF := by
  rw [val_main_v28_apply, val_main_cst_1_apply]; rfl

/-- A bias vector spread over the nodes reads, at `(p, q)`, its entry `q`. -/
theorem bias_apply (b : Arr⟦S64⟧) (p : Fin 100000) (q : Fin 64) :
    val_main_v19 (F := Ideal) b (ix2 p q) = b (ix1 q) := by
  rw [val_main_v19_apply, val_main_v18_apply]
  refine congrArg b (funext fun a => ?_)
  match a with
  | ⟨0, _⟩ => rfl

/-- The edge weights spread over the columns read, at `(e, q)`, the weight of edge `e`. -/
theorem weights_apply (ew : Arr⟦S800000⟧) (e : Fin 800000) (q : Fin 64) :
    val_main_v13 (F := Ideal) ew (ix2 e q) = ew (ix1 e) := by
  rw [val_main_v13_apply, val_main_v12_apply]
  refine congrArg ew (funext fun a => ?_)
  match a with
  | ⟨0, _⟩ => rfl

/-- The features against a 64 × 64 matrix, at `(r, q)`: the sum over `k` of `X (r, k) * W (k, q)`. -/
theorem proj_apply (X : Arr⟦S100000x64⟧) (W : Arr⟦S64x64⟧) (r : Fin 100000) (q : Fin 64) :
    val_main_v4 (F := Ideal) X W (ix2 r q) = ∑ k : Fin 64, X (ix2 r k) * W (ix2 k q) := by
  rw [val_main_v4_apply]
  refine Finset.sum_congr rfl fun k _ => ?_
  have el : lidx_main_v4 (ix2 r q) k = ix2 r k := funext fun a => by
    match a with
    | ⟨0, _⟩ => rfl
    | ⟨1, _⟩ => rfl
  have er : ridx_main_v4 (ix2 r q) k = ix2 k q := funext fun a => by
    match a with
    | ⟨0, _⟩ => rfl
    | ⟨1, _⟩ => rfl
  rw [el, er]

/-! ## One graph convolution -/

/-- A graph convolution after its bias, at node `p` and column `q`: the accumulating scatter into zero is the sum over
    the edges landing on `p`, each message the gathered source row's product entry scaled by the edge's weight. -/
theorem conv_apply (X : Arr⟦S100000x64⟧) (ew : Arr⟦S800000⟧) (W : Arr⟦S64x64⟧) (b : Arr⟦S64⟧)
    (sidx didx : IVec S800000x1 32) (p : Fin 100000) (q : Fin 64) :
    addf (φ := .f32) (Host.scatterAdd (F := Ideal) (φ := .f32) scatter_S100000x64_S800000x1_S800000x64_1_0_0_1 (val_main_v15 (F := Ideal)) didx
        (mulf (φ := .f32) (Host.gather gather_S100000x64_S800000x1_S800000x64_1_0_n_n_0_1_164 (val_main_v4 (F := Ideal) X W) sidx)
          (val_main_v13 (F := Ideal) ew)))
      (val_main_v19 (F := Ideal) b) (ix2 p q)
      = convAt X ew sidx didx W b p q := by
  refine (ValueIdx.addf_apply _ _ _).trans ?_
  unfold convAt conv
  rw [bias_apply]
  refine congrArg (· + b (ix1 q)) ?_
  refine (ScatterAddRows.scatterAdd_rows_apply scatter_S100000x64_S800000x1_S800000x64_1_0_0_1 rfl rfl rfl rfl
    _ didx _ p q).trans ?_
  rw [zeros_apply]
  refine congrArg (zeroF + ·) (Finset.sum_congr rfl fun e _ => ?_)
  refine if_congr Iff.rfl ?_ rfl
  refine (ValueIdx.mulf_apply _ _ _).trans ?_
  rw [weights_apply]
  refine congrArg (· * ew (ix1 e)) ?_
  refine (GatherAxis0.gather_rows_apply (N := 100000) (D := 64) (E := 800000) (by decide)
    gather_S100000x64_S800000x1_S800000x64_1_0_n_n_0_1_164_wf (val_main_v4 (F := Ideal) X W) sidx e q).trans ?_
  exact proj_apply X W _ q

/-! ## A gate's linear part -/

/-- A sum over 128 positions is the sum over the first 64 plus the sum over the last 64. -/
theorem sum_halves (f : Fin 128 → EReal) :
    ∑ k : Fin 128, f k = (∑ k : Fin 64, f (Fin.castAdd 64 k)) + ∑ k : Fin 64, f (Fin.natAdd 64 k) :=
  Fin.sum_univ_add (a := 64) (b := 64) f

/-- A 100000 × 128 array against a 128 × 64 matrix, at `(p, q)`: the sum over `k` of `l (p, k) * r (k, q)`. -/
theorem dot128_apply (l : Arr⟦S100000x128⟧) (r : Arr⟦S128x64⟧) (p : Fin 100000) (q : Fin 64) :
    Host.dotGeneral (F := Ideal) (φ₁ := .f32) (φ₂ := .f32) dot_S100000x128_S128x64_S100000x64_1_0_0_1_n_n none l r (ix2 p q)
      = ∑ k : Fin 128, l (ix2 p k) * r (ix2 k q) := by
  simp only [Host.dotGeneral]
  rw [Ideal.dotGeneral_apply]
  exact LibRowOps.sum_contr dot_S100000x128_S128x64_S100000x64_1_0_0_1_n_n rfl rfl
    (fun j k => lhs_main_v22_0 j k) (fun j k => lhs_main_v22_1 j k)
    (fun j k => rhs_main_v22_0 j k) (fun j k => rhs_main_v22_1 j k) l r p q

/-- Two 100000 × 64 arrays joined along the columns read, in the first 64 columns, the first array. -/
theorem joined_left (C Hh : Arr⟦S100000x64⟧) (p : Fin 100000) (k : Fin 64) :
    concatenate S100000x128 1 [⟨S100000x64, C⟩, ⟨S100000x64, Hh⟩] concatenates_S100000x64_S100000x64_S100000x128_d1
      (ix2 p (Fin.castAdd 64 k)) = C (ix2 p k) :=
  concatenate_pair_apply_left (1 : Fin S100000x128.rank) C Hh concatenates_S100000x64_S100000x64_S100000x128_d1
    (ix2 p (Fin.castAdd 64 k)) rfl (ix2 p k) (fun b => by
      match b with
      | ⟨0, _⟩ => rfl
      | ⟨1, _⟩ => rfl)

/-- … and, in the last 64 columns, the second array. -/
theorem joined_right (C Hh : Arr⟦S100000x64⟧) (p : Fin 100000) (k : Fin 64) :
    concatenate S100000x128 1 [⟨S100000x64, C⟩, ⟨S100000x64, Hh⟩] concatenates_S100000x64_S100000x64_S100000x128_d1
      (ix2 p (Fin.natAdd 64 k)) = Hh (ix2 p k) :=
  concatenate_pair_apply_right (1 : Fin S100000x128.rank) C Hh concatenates_S100000x64_S100000x64_S100000x128_d1
    (ix2 p (Fin.natAdd 64 k)) rfl rfl (ix2 p k)
    (fun b hb => by
      match b, hb with
      | ⟨0, _⟩, _ => rfl
      | ⟨1, _⟩, hb => exact absurd (Fin.ext rfl) hb)
    (by show k.val + 64 = 64 + k.val; omega)

/-- A gate before its squashing function, at `(p, q)`: the joined array against the 128 × 64 matrix splits into the
    first array's row against the matrix's top half and the second's against its bottom half; then the bias. -/
theorem gate_apply (C Hh : Arr⟦S100000x64⟧) (L : Arr⟦S128x64⟧) (bl : Arr⟦S64⟧) (p : Fin 100000) (q : Fin 64)
    (cv hv : Fin 64 → EReal) (hC : ∀ k, C (ix2 p k) = cv k) (hH : ∀ k, Hh (ix2 p k) = hv k) :
    addf (φ := .f32) (Host.dotGeneral (F := Ideal) (φ₁ := .f32) (φ₂ := .f32) dot_S100000x128_S128x64_S100000x64_1_0_0_1_n_n none
        (concatenate S100000x128 1 [⟨S100000x64, C⟩, ⟨S100000x64, Hh⟩]
          concatenates_S100000x64_S100000x64_S100000x128_d1) L)
      (val_main_v19 (F := Ideal) bl) (ix2 p q)
      = lin cv hv (fun k => top L k q) (fun k => bot L k q) (bl (ix1 q)) := by
  refine (ValueIdx.addf_apply _ _ _).trans ?_
  unfold lin
  rw [bias_apply, dot128_apply]
  refine congrArg (· + bl (ix1 q)) ?_
  refine (sum_halves _).trans ?_
  refine congrArg₂ (· + ·) (Finset.sum_congr rfl fun k _ => ?_) (Finset.sum_congr rfl fun k _ => ?_)
  · exact congrArg₂ (· * ·) ((joined_left C Hh p k).trans (hC k)) rfl
  · exact congrArg₂ (· * ·) ((joined_right C Hh p k).trans (hH k)) rfl

/-! ## The logistic function as the program spells it -/

/-- `1 / (1 + e^(-a))`, the ones read off the constant arrays, is the logistic function of `a`. -/
theorem sigmoid_apply (A : Arr⟦S100000x64⟧) (i : S100000x64.Idx) :
    Host.divf (F := Ideal) (φ := .f32) (val_main_v30 (F := Ideal))
        (addf (φ := .f32) (val_main_v28 (F := Ideal)) (Host.exp (φ := .f32) (Host.negf (φ := .f32) A))) i
      = Ideal.logistic (A i) := by
  have h30 : val_main_v30 (F := Ideal) i = 1 := by
    rw [val_main_v30_apply, val_main_cst_2_apply]; exact ofBits_one
  have h28 : val_main_v28 (F := Ideal) i = 1 := (ones_apply i).trans ofBits_one
  show Ideal.div (val_main_v30 (F := Ideal) i) (val_main_v28 (F := Ideal) i + Ideal.exp (-(A i))) = _
  rw [h30, h28]
  rfl

/-! ## The stages of the program at a node and a column -/

section Stages

variable (x0 : Arr⟦S100000x64⟧) (x1 : Arr⟦S800000⟧) (x2 : Arr⟦S100000x64⟧)
  (x3 : Arr⟦S64x64⟧) (x4 : Arr⟦S64⟧) (x5 : Arr⟦S64x64⟧) (x6 : Arr⟦S64⟧) (x7 : Arr⟦S64x64⟧) (x8 : Arr⟦S64⟧)
  (x9 : Arr⟦S128x64⟧) (x10 : Arr⟦S64⟧) (x11 : Arr⟦S128x64⟧) (x12 : Arr⟦S64⟧) (x13 : Arr⟦S128x64⟧) (x14 : Arr⟦S64⟧)
  (x15 : Arr⟦S64x64⟧) (x16 : Arr⟦S64⟧) (x17 : (⟨S2x800000, .i32⟩ : BufTy).Contents (Elt Ideal))

/-- The source column and the landing column of the edge list, as the first convolution computes them (the other two
    recompute the same two columns). -/
local notation "sI" => val_main_v10 (F := Ideal) x17
local notation "dI" => val_main_v16 (F := Ideal) x17

/-- The update gate's convolution. -/
theorem conv_z (p : Fin 100000) (q : Fin 64) :
    val_main_v20 (F := Ideal) x0 x1 x3 x4 x17 (ix2 p q) = convAt x0 x1 sI dI x3 x4 p q :=
  conv_apply x0 x1 x3 x4 sI dI p q

/-- The reset gate's convolution. -/
theorem conv_r (p : Fin 100000) (q : Fin 64) :
    val_main_v48 (F := Ideal) x0 x1 x5 x6 x17 (ix2 p q) = convAt x0 x1 sI dI x5 x6 p q :=
  conv_apply x0 x1 x5 x6 sI dI p q

/-- The candidate's convolution. -/
theorem conv_c (p : Fin 100000) (q : Fin 64) :
    val_main_v76 (F := Ideal) x0 x1 x7 x8 x17 (ix2 p q) = convAt x0 x1 sI dI x7 x8 p q :=
  conv_apply x0 x1 x7 x8 sI dI p q

/-- The update gate. -/
theorem z_apply (p : Fin 100000) (q : Fin 64) :
    val_main_v31 (F := Ideal) x0 x1 x2 x3 x4 x9 x10 x17 (ix2 p q)
      = cellZ (convAt x0 x1 sI dI x3 x4 p) (fun k => x2 (ix2 p k)) (top x9) (bot x9) (fun q => x10 (ix1 q)) q :=
  (sigmoid_apply (val_main_v25 (F := Ideal) x0 x1 x2 x3 x4 x9 x10 x17) (ix2 p q)).trans
    (congrArg Ideal.logistic (gate_apply (val_main_v20 (F := Ideal) x0 x1 x3 x4 x17) x2 x9 x10 p q _ _
      (fun k => conv_z x0 x1 x3 x4 x17 p k) (fun _ => rfl)))

/-- The reset gate. -/
theorem r_apply (p : Fin 100000) (q : Fin 64) :
    val_main_v59 (F := Ideal) x0 x1 x2 x5 x6 x11 x12 x17 (ix2 p q)
      = cellR (convAt x0 x1 sI dI x5 x6 p) (fun k => x2 (ix2 p k)) (top x11) (bot x11) (fun q => x12 (ix1 q)) q :=
  (sigmoid_apply (val_main_v53 (F := Ideal) x0 x1 x2 x5 x6 x11 x12 x17) (ix2 p q)).trans
    (congrArg Ideal.logistic (gate_apply (val_main_v48 (F := Ideal) x0 x1 x5 x6 x17) x2 x11 x12 p q _ _
      (fun k => conv_r x0 x1 x5 x6 x17 p k) (fun _ => rfl)))

/-- The candidate state: the state's half of the joined array is the state scaled by the reset gate. -/
theorem c_apply (p : Fin 100000) (q : Fin 64) :
    val_main_v83 (F := Ideal) x0 x1 x2 x5 x6 x7 x8 x11 x12 x13 x14 x17 (ix2 p q)
      = cellC (convAt x0 x1 sI dI x5 x6 p) (convAt x0 x1 sI dI x7 x8 p) (fun k => x2 (ix2 p k))
          (top x11) (bot x11) (top x13) (bot x13) (fun q => x12 (ix1 q)) (fun q => x14 (ix1 q)) q := by
  have hH : ∀ k : Fin 64, val_main_v77 (F := Ideal) x0 x1 x2 x5 x6 x11 x12 x17 (ix2 p k)
      = x2 (ix2 p k) * cellR (convAt x0 x1 sI dI x5 x6 p) (fun k => x2 (ix2 p k)) (top x11) (bot x11)
          (fun q => x12 (ix1 q)) k := fun k =>
    (val_main_v77_apply x0 x1 x2 x5 x6 x11 x12 x17 (ix2 p k)).trans
      ((Ideal.mulf_def _ _).trans (congrArg (x2 (ix2 p k) * ·) (r_apply x0 x1 x2 x5 x6 x11 x12 x17 p k)))
  have hg := gate_apply (val_main_v76 (F := Ideal) x0 x1 x7 x8 x17)
    (val_main_v77 (F := Ideal) x0 x1 x2 x5 x6 x11 x12 x17) x13 x14 p q _ _
    (fun k => conv_c x0 x1 x7 x8 x17 p k) hH
  rw [val_main_v83_apply, Ideal.hostUnary_tanh_def]
  unfold cellC
  exact congrArg Ideal.tanh hg

/-- The new state. -/
theorem h_apply (p : Fin 100000) (q : Fin 64) :
    val_main_v88 (F := Ideal) x0 x1 x2 x3 x4 x5 x6 x7 x8 x9 x10 x11 x12 x13 x14 x17 (ix2 p q)
      = hNew x0 x1 x2 x3 x4 x5 x6 x7 x8 x9 x10 x11 x12 x13 x14 sI dI p q := by
  have h85 : val_main_v85 (F := Ideal) (ix2 p q) = oneF := by
    rw [val_main_v85_apply, val_main_cst_11_apply]; rfl
  rw [val_main_v88_apply, val_main_v84_apply, val_main_v87_apply, val_main_v86_apply, h85, z_apply, c_apply]
  simp only [Ideal.addf_def, Ideal.mulf_def, Ideal.subf_def]
  unfold hNew cellH
  rfl

/-- The readout. -/
theorem y_apply (p : Fin 100000) (q : Fin 64) :
    val_main_v93 (F := Ideal) x0 x1 x2 x3 x4 x5 x6 x7 x8 x9 x10 x11 x12 x13 x14 x15 x16 x17 (ix2 p q)
      = yOut x0 x1 x2 x3 x4 x5 x6 x7 x8 x9 x10 x11 x12 x13 x14 x15 x16 sI dI p q := by
  have e90 : val_main_v90 (F := Ideal) x0 x1 x2 x3 x4 x5 x6 x7 x8 x9 x10 x11 x12 x13 x14 x15 x17
      = val_main_v4 (F := Ideal) (val_main_v89 (F := Ideal) x0 x1 x2 x3 x4 x5 x6 x7 x8 x9 x10 x11 x12 x13 x14 x17) x15 := rfl
  have e92 : val_main_v92 (F := Ideal) x16 = val_main_v19 (F := Ideal) x16 := rfl
  have h0 : ∀ i, val_main_call0_v0 (F := Ideal) i = zeroF := fun i => by
    rw [val_main_call0_v0_apply, val_main_call0_cst_apply]; rfl
  rw [val_main_v93_apply, Ideal.addf_def, e90, e92, proj_apply, bias_apply]
  unfold yOut cellY
  refine congrArg (· + x16 (ix1 q)) (Finset.sum_congr rfl fun k _ => ?_)
  refine congrArg (· * x15 (ix2 k q)) ?_
  rw [val_main_v89_apply, Ideal.maximumf_def, h0, h_apply]
  rfl

end Stages

/-! ## The two results -/

/-- The program's second result is the specification's new state. -/
theorem ref_h (x0 : Arr⟦S100000x64⟧) (x1 : Arr⟦S800000⟧) (x2 : Arr⟦S100000x64⟧)
    (x3 : Arr⟦S64x64⟧) (x4 : Arr⟦S64⟧) (x5 : Arr⟦S64x64⟧) (x6 : Arr⟦S64⟧) (x7 : Arr⟦S64x64⟧) (x8 : Arr⟦S64⟧)
    (x9 : Arr⟦S128x64⟧) (x10 : Arr⟦S64⟧) (x11 : Arr⟦S128x64⟧) (x12 : Arr⟦S64⟧) (x13 : Arr⟦S128x64⟧) (x14 : Arr⟦S64⟧)
    (x17 : (⟨S2x800000, .i32⟩ : BufTy).Contents (Elt Ideal)) :
    Read.val_main_v88 (F := Ideal) x0 x1 x2 x3 x4 x5 x6 x7 x8 x9 x10 x11 x12 x13 x14 x17
      = hArr x0 x1 x2 x3 x4 x5 x6 x7 x8 x9 x10 x11 x12 x13 x14
          (Read.val_main_v10 (F := Ideal) x17) (Read.val_main_v16 (F := Ideal) x17) := by
  funext i
  obtain ⟨p, q, rfl⟩ : ∃ (p : Fin 100000) (q : Fin 64), i = ix2 p q := ⟨i 0, i 1, eq_ix2 i⟩
  exact h_apply x0 x1 x2 x3 x4 x5 x6 x7 x8 x9 x10 x11 x12 x13 x14 x17 p q

/-- The program's first result is the specification's readout. -/
theorem ref_y (x0 : Arr⟦S100000x64⟧) (x1 : Arr⟦S800000⟧) (x2 : Arr⟦S100000x64⟧)
    (x3 : Arr⟦S64x64⟧) (x4 : Arr⟦S64⟧) (x5 : Arr⟦S64x64⟧) (x6 : Arr⟦S64⟧) (x7 : Arr⟦S64x64⟧) (x8 : Arr⟦S64⟧)
    (x9 : Arr⟦S128x64⟧) (x10 : Arr⟦S64⟧) (x11 : Arr⟦S128x64⟧) (x12 : Arr⟦S64⟧) (x13 : Arr⟦S128x64⟧) (x14 : Arr⟦S64⟧)
    (x15 : Arr⟦S64x64⟧) (x16 : Arr⟦S64⟧) (x17 : (⟨S2x800000, .i32⟩ : BufTy).Contents (Elt Ideal)) :
    Read.val_main_v93 (F := Ideal) x0 x1 x2 x3 x4 x5 x6 x7 x8 x9 x10 x11 x12 x13 x14 x15 x16 x17
      = yArr x0 x1 x2 x3 x4 x5 x6 x7 x8 x9 x10 x11 x12 x13 x14 x15 x16
          (Read.val_main_v10 (F := Ideal) x17) (Read.val_main_v16 (F := Ideal) x17) := by
  funext i
  obtain ⟨p, q, rfl⟩ : ∃ (p : Fin 100000) (q : Fin 64), i = ix2 p q := ⟨i 0, i 1, eq_ix2 i⟩
  exact y_apply x0 x1 x2 x3 x4 x5 x6 x7 x8 x9 x10 x11 x12 x13 x14 x15 x16 x17 p q

end Cert.ReferenceIdeal.RefValue

end
-- ==== Proof.lean ====
/-
  The certificate of a gated recurrent graph-convolution cell: a tiled TPU kernel program against its array reference.

  Both programs take node features, edge weights, a hidden state, three 64 × 64 convolution weights with biases, three
  128 × 64 gate matrices with biases, a readout matrix with bias, and an edge list. The kernel program multiplies the
  features by the three convolution weights side by side in one tiled product, gathers and scatters the 192-wide rows
  on the host, cuts the three column blocks apart, and evaluates the gates, the new state and the readout in a second
  tiled kernel whose gate products take the two halves of each 128 × 64 matrix separately. The reference runs three
  64-wide convolutions and contracts the concatenation [convolution | state] against each whole 128 × 64 matrix.

  On the extended reals the two agree entry by entry: column `q` of a block of the joined product is the product with
  that block's own matrix; a sum over 128 terms is the sum of its two halves; the sigmoid the reference spells as
  `1 / (1 + exp (-x))` is the kernel's logistic by definition; every change of float format is the identity. Only
  regrouping of sums is used, so the finiteness of the inputs is never opened.

  Each tiled program's frame (it terminates, faults nowhere, and leaves its arguments unchanged) is the run of its two
  regions among the host operations; the reference's is its run with the results dropped.
-/
import proofs.«111474_j1786706395616_1_alg».proof.Defs
import proofs.«111474_j1786706395616_1_alg».proof.Proof.Gen.Kernel
import proofs.«111474_j1786706395616_1_alg».proof.Proof.Gen.KernelIdeal
import proofs.«111474_j1786706395616_1_alg».proof.Proof.Gen.ReferenceIdeal
import proofs.«111474_j1786706395616_1_alg».proof.Proof.Gen.Pre_finite_inputs
import proofs.«111474_j1786706395616_1_alg».proof.Proof.Gen.ReferenceIdeal.Run
import proofs.«111474_j1786706395616_1_alg».proof.Proof.Gen.ReferenceIdeal.Read
import proofs.«111474_j1786706395616_1_alg».proof.Proof.RunBits
import proofs.«111474_j1786706395616_1_alg».proof.Proof.RunIdeal
import proofs.«111474_j1786706395616_1_alg».proof.Proof.KernelValue
import proofs.«111474_j1786706395616_1_alg».proof.Proof.RefIsSpec
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Hand.frame (F := Bits) m ρ

/-- So does its idealization. -/
theorem frame_kernel_ideal : Cert.frame_KernelIdeal := fun m ρ _ => Cert.KernelIdeal.Hand.frame (F := Ideal) m ρ

/-- The reference's frame is its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs read the source column off the edge list by the same operations: row 0, a negative entry moved up
    by the number of nodes, as a column. -/
theorem source_columns (x17 : (⟨Cert.ReferenceIdeal.S2x800000, .i32⟩ : BufTy).Contents (Elt Ideal)) :
    Cert.ReferenceIdeal.Read.val_main_v10 (F := Ideal) x17 = Cert.KernelIdeal.HostValue.srcCol x17 := rfl

/-- And the landing column: row 1, as a column. -/
theorem landing_columns (x17 : (⟨Cert.ReferenceIdeal.S2x800000, .i32⟩ : BufTy).Contents (Elt Ideal)) :
    Cert.ReferenceIdeal.Read.val_main_v16 (F := Ideal) x17 = Cert.KernelIdeal.HostValue.dstCol x17 := rfl

/-- The reference's new state is the specification's, with the edge columns as the kernel program spells them. -/
theorem reference_state (x0 : (⟨Cert.ReferenceIdeal.S100000x64, .f32⟩ : BufTy).Contents (Elt Ideal)) (x1 : (⟨Cert.ReferenceIdeal.S800000, .f32⟩ : BufTy).Contents (Elt Ideal)) (x2 : (⟨Cert.ReferenceIdeal.S100000x64, .f32⟩ : BufTy).Contents (Elt Ideal)) (x3 : (⟨Cert.ReferenceIdeal.S64x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) (x7 : (⟨Cert.ReferenceIdeal.S64x64, .f32⟩ : BufTy).Contents (Elt Ideal)) (x8 : (⟨Cert.ReferenceIdeal.S64, .f32⟩ : BufTy).Contents (Elt Ideal)) (x9 : (⟨Cert.ReferenceIdeal.S128x64, .f32⟩ : BufTy).Contents (Elt Ideal)) (x10 : (⟨Cert.ReferenceIdeal.S64, .f32⟩ : BufTy).Contents (Elt Ideal)) (x11 : (⟨Cert.ReferenceIdeal.S128x64, .f32⟩ : BufTy).Contents (Elt Ideal)) (x12 : (⟨Cert.ReferenceIdeal.S64, .f32⟩ : BufTy).Contents (Elt Ideal)) (x13 : (⟨Cert.ReferenceIdeal.S128x64, .f32⟩ : BufTy).Contents (Elt Ideal)) (x14 : (⟨Cert.ReferenceIdeal.S64, .f32⟩ : BufTy).Contents (Elt Ideal)) (x17 : (⟨Cert.ReferenceIdeal.S2x800000, .i32⟩ : BufTy).Contents (Elt Ideal)) :
    Cert.ReferenceIdeal.Read.val_main_v88 (F := Ideal) x0 x1 x2 x3 x4 x5 x6 x7 x8 x9 x10 x11 x12 x13 x14 x17
      = Cert.GatedGraphCell.hArr x0 x1 x2 x3 x4 x5 x6 x7 x8 x9 x10 x11 x12 x13 x14 (Cert.KernelIdeal.HostValue.srcCol x17) (Cert.KernelIdeal.HostValue.dstCol x17) := by
  rw [Cert.ReferenceIdeal.RefValue.ref_h, source_columns, landing_columns]

/-- The reference's readout is the specification's, with the edge columns as the kernel program spells them. -/
theorem reference_readout (x0 : (⟨Cert.ReferenceIdeal.S100000x64, .f32⟩ : BufTy).Contents (Elt Ideal)) (x1 : (⟨Cert.ReferenceIdeal.S800000, .f32⟩ : BufTy).Contents (Elt Ideal)) (x2 : (⟨Cert.ReferenceIdeal.S100000x64, .f32⟩ : BufTy).Contents (Elt Ideal)) (x3 : (⟨Cert.ReferenceIdeal.S64x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) (x7 : (⟨Cert.ReferenceIdeal.S64x64, .f32⟩ : BufTy).Contents (Elt Ideal)) (x8 : (⟨Cert.ReferenceIdeal.S64, .f32⟩ : BufTy).Contents (Elt Ideal)) (x9 : (⟨Cert.ReferenceIdeal.S128x64, .f32⟩ : BufTy).Contents (Elt Ideal)) (x10 : (⟨Cert.ReferenceIdeal.S64, .f32⟩ : BufTy).Contents (Elt Ideal)) (x11 : (⟨Cert.ReferenceIdeal.S128x64, .f32⟩ : BufTy).Contents (Elt Ideal)) (x12 : (⟨Cert.ReferenceIdeal.S64, .f32⟩ : BufTy).Contents (Elt Ideal)) (x13 : (⟨Cert.ReferenceIdeal.S128x64, .f32⟩ : BufTy).Contents (Elt Ideal)) (x14 : (⟨Cert.ReferenceIdeal.S64, .f32⟩ : BufTy).Contents (Elt Ideal)) (x15 : (⟨Cert.ReferenceIdeal.S64x64, .f32⟩ : BufTy).Contents (Elt Ideal)) (x16 : (⟨Cert.ReferenceIdeal.S64, .f32⟩ : BufTy).Contents (Elt Ideal)) (x17 : (⟨Cert.ReferenceIdeal.S2x800000, .i32⟩ : BufTy).Contents (Elt Ideal)) :
    Cert.ReferenceIdeal.Read.val_main_v93 (F := Ideal) x0 x1 x2 x3 x4 x5 x6 x7 x8 x9 x10 x11 x12 x13 x14 x15 x16 x17
      = Cert.GatedGraphCell.yArr x0 x1 x2 x3 x4 x5 x6 x7 x8 x9 x10 x11 x12 x13 x14 x15 x16 (Cert.KernelIdeal.HostValue.srcCol x17) (Cert.KernelIdeal.HostValue.dstCol x17) := by
  rw [Cert.ReferenceIdeal.RefValue.ref_y, source_columns, landing_columns]

set_option maxHeartbeats 2000000 in
/-- From memories agreeing on the arguments, both programs end with the specification's readout and new state of those
    arguments. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14, a15, a16, a17⟩ := hagree c
  refine ⟨?_, ?_, (h c).2.2⟩
  · rw [(h c).1, Cert.ReferenceIdeal.Read.val_main_v93_eq, reference_readout,
      a0, a1, a2, a3, a4, a5, a6, a7, a8, a9, a10, a11, a12, a13, a14, a15, a16, a17]
  · rw [(h c).2.1, Cert.ReferenceIdeal.Read.val_main_v88_eq, reference_state,
      a0, a1, a2, a3, a4, a5, a6, a7, a8, a9, a10, a11, a12, a13, a14, a17]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
